-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x320000 : Shape := ⟨2, ![2, 320000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S10000x128 .f32) (main_arg1 : IVec S2x320000 32) (main_arg2 : FVec F S128x64 .f32) (main_arg3 : FVec F S64 .f32) (main_arg4 : FVec F S64x64 .f32) (main_arg5 : FVec F S64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_v13 main_v16
-- ==== Kernel.lean ====
abbrev S10000x128 : Shape := ⟨2, ![10000, 128]⟩
abbrev S2x320000 : Shape := ⟨2, ![2, 320000]⟩
abbrev S128x64 : Shape := ⟨2, ![128, 64]⟩
abbrev S64 : Shape := ⟨1, ![64]⟩
abbrev S64x64 : Shape := ⟨2, ![64, 64]⟩
abbrev S10000 : Shape := ⟨1, ![10000]⟩
abbrev S1x320000 : Shape := ⟨2, ![1, 320000]⟩
abbrev S320000 : Shape := ⟨1, ![320000]⟩
abbrev S330000 : Shape := ⟨1, ![330000]⟩
abbrev S10000x64 : Shape := ⟨2, ![10000, 64]⟩
abbrev S_ : Shape := ⟨0, ![]⟩
abbrev S330000x1 : Shape := ⟨2, ![330000, 1]⟩
abbrev S330000x64 : Shape := ⟨2, ![330000, 64]⟩
abbrev S1x64 : Shape := ⟨2, ![1, 64]⟩
abbrev S10000x10000 : Shape := ⟨2, ![10000, 10000]⟩
abbrev S2048x64 : Shape := ⟨2, ![2048, 64]⟩
abbrev S2048x2048 : Shape := ⟨2, ![2048, 2048]⟩

abbrev nBuf : Space → Nat
  | .hbm => 124
  | .vmem => 6
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S10000, .i32⟩
  | .hbm, ⟨7, _⟩ => ⟨S1x320000, .i32⟩
  | .hbm, ⟨8, _⟩ => ⟨S320000, .i32⟩
  | .hbm, ⟨9, _⟩ => ⟨S330000, .i32⟩
  | .hbm, ⟨10, _⟩ => ⟨S1x320000, .i32⟩
  | .hbm, ⟨11, _⟩ => ⟨S320000, .i32⟩
  | .hbm, ⟨12, _⟩ => ⟨S330000, .i32⟩
  | .hbm, ⟨13, _⟩ => ⟨S10000x64, .f32⟩
  | .hbm, ⟨14, _⟩ => ⟨S_, .f32⟩
  | .hbm, ⟨15, _⟩ => ⟨S330000, .f32⟩
  | .hbm, ⟨16, _⟩ => ⟨S_, .f32⟩
  | .hbm, ⟨17, _⟩ => ⟨S10000, .f32⟩
  | .hbm, ⟨18, _⟩ => ⟨S330000x1, .i32⟩
  | .hbm, ⟨19, _⟩ => ⟨S10000, .f32⟩
  | .hbm, ⟨20, _⟩ => ⟨S_, .f32⟩
  | .hbm, ⟨21, _⟩ => ⟨S10000, .f32⟩
  | .hbm, ⟨22, _⟩ => ⟨S10000, .i1⟩
  | .hbm, ⟨23, _⟩ => ⟨S10000, .f32⟩
  | .hbm, ⟨24, _⟩ => ⟨S_, .f32⟩
  | .hbm, ⟨25, _⟩ => ⟨S_, .f32⟩
  | .hbm, ⟨26, _⟩ => ⟨S10000, .f32⟩
  | .hbm, ⟨27, _⟩ => ⟨S10000, .f32⟩
  | .hbm, ⟨28, _⟩ => ⟨S_, .i32⟩
  | .hbm, ⟨29, _⟩ => ⟨S330000, .i32⟩
  | .hbm, ⟨30, _⟩ => ⟨S330000, .i1⟩
  | .hbm, ⟨31, _⟩ => ⟨S_, .i32⟩
  | .hbm, ⟨32, _⟩ => ⟨S330000, .i32⟩
  | .hbm, ⟨33, _⟩ => ⟨S330000, .i32⟩
  | .hbm, ⟨34, _⟩ => ⟨S330000, .i32⟩
  | .hbm, ⟨35, _⟩ => ⟨S330000x1, .i32⟩
  | .hbm, ⟨36, _⟩ => ⟨S330000, .f32⟩
  | .hbm, ⟨37, _⟩ => ⟨S_, .i32⟩
  | .hbm, ⟨38, _⟩ => ⟨S330000, .i32⟩
  | .hbm, ⟨39, _⟩ => ⟨S330000, .i1⟩
  | .hbm, ⟨40, _⟩ => ⟨S_, .i32⟩
  | .hbm, ⟨41, _⟩ => ⟨S330000, .i32⟩
  | .hbm, ⟨42, _⟩ => ⟨S330000, .i32⟩
  | .hbm, ⟨43, _⟩ => ⟨S330000, .i32⟩
  | .hbm, ⟨44, _⟩ => ⟨S330000x1, .i32⟩
  | .hbm, ⟨45, _⟩ => ⟨S330000, .f32⟩
  | .hbm, ⟨46, _⟩ => ⟨S330000, .f32⟩
  | .hbm, ⟨47, _⟩ => ⟨S_, .i32⟩
  | .hbm, ⟨48, _⟩ => ⟨S330000, .i32⟩
  | .hbm, ⟨49, _⟩ => ⟨S330000, .i1⟩
  | .hbm, ⟨50, _⟩ => ⟨S_, .i32⟩
  | .hbm, ⟨51, _⟩ => ⟨S330000, .i32⟩
  | .hbm, ⟨52, _⟩ => ⟨S330000, .i32⟩
  | .hbm, ⟨53, _⟩ => ⟨S330000, .i32⟩
  | .hbm, ⟨54, _⟩ => ⟨S330000x1, .i32⟩
  | .hbm, ⟨55, _⟩ => ⟨S330000x64, .f32⟩
  | .hbm, ⟨56, _⟩ => ⟨S330000x1, .f32⟩
  | .hbm, ⟨57, _⟩ => ⟨S330000x64, .f32⟩
  | .hbm, ⟨58, _⟩ => ⟨S330000x64, .f32⟩
  | .hbm, ⟨59, _⟩ => ⟨S_, .f32⟩
  | .hbm, ⟨60, _⟩ => ⟨S10000x64, .f32⟩
  | .hbm, ⟨61, _⟩ => ⟨S330000x1, .i32⟩
  | .hbm, ⟨62, _⟩ => ⟨S10000x64, .f32⟩
  | .hbm, ⟨63, _⟩ => ⟨S1x64, .f32⟩
  | .hbm, ⟨64, _⟩ => ⟨S10000x64, .f32⟩
  | .hbm, ⟨65, _⟩ => ⟨S10000x64, .f32⟩
  | .hbm, ⟨66, _⟩ => ⟨S_, .f32⟩
  | .hbm, ⟨67, _⟩ => ⟨S10000x64, .f32⟩
  | .hbm, ⟨68, _⟩ => ⟨S10000x64, .f32⟩
  | .hbm, ⟨69, _⟩ => ⟨S10000x64, .f32⟩
  | .hbm, ⟨70, _⟩ => ⟨S_, .f32⟩
  | .hbm, ⟨71, _⟩ => ⟨S330000, .f32⟩
  | .hbm, ⟨72, _⟩ => ⟨S_, .f32⟩
  | .hbm, ⟨73, _⟩ => ⟨S10000, .f32⟩
  | .hbm, ⟨74, _⟩ => ⟨S330000x1, .i32⟩
  | .hbm, ⟨75, _⟩ => ⟨S10000, .f32⟩
  | .hbm, ⟨76, _⟩ => ⟨S_, .f32⟩
  | .hbm, ⟨77, _⟩ => ⟨S10000, .f32⟩
  | .hbm, ⟨78, _⟩ => ⟨S10000, .i1⟩
  | .hbm, ⟨79, _⟩ => ⟨S10000, .f32⟩
  | .hbm, ⟨80, _⟩ => ⟨S_, .f32⟩
  | .hbm, ⟨81, _⟩ => ⟨S_, .f32⟩
  | .hbm, ⟨82, _⟩ => ⟨S10000, .f32⟩
  | .hbm, ⟨83, _⟩ => ⟨S10000, .f32⟩
  | .hbm, ⟨84, _⟩ => ⟨S_, .i32⟩
  | .hbm, ⟨85, _⟩ => ⟨S330000, .i32⟩
  | .hbm, ⟨86, _⟩ => ⟨S330000, .i1⟩
  | .hbm, ⟨87, _⟩ => ⟨S_, .i32⟩
  | .hbm, ⟨88, _⟩ => ⟨S330000, .i32⟩
  | .hbm, ⟨89, _⟩ => ⟨S330000, .i32⟩
  | .hbm, ⟨90, _⟩ => ⟨S330000, .i32⟩
  | .hbm, ⟨91, _⟩ => ⟨S330000x1, .i32⟩
  | .hbm, ⟨92, _⟩ => ⟨S330000, .f32⟩
  | .hbm, ⟨93, _⟩ => ⟨S_, .i32⟩
  | .hbm, ⟨94, _⟩ => ⟨S330000, .i32⟩
  | .hbm, ⟨95, _⟩ => ⟨S330000, .i1⟩
  | .hbm, ⟨96, _⟩ => ⟨S_, .i32⟩
  | .hbm, ⟨97, _⟩ => ⟨S330000, .i32⟩
  | .hbm, ⟨98, _⟩ => ⟨S330000, .i32⟩
  | .hbm, ⟨99, _⟩ => ⟨S330000, .i32⟩
  | .hbm, ⟨100, _⟩ => ⟨S330000x1, .i32⟩
  | .hbm, ⟨101, _⟩ => ⟨S330000, .f32⟩
  | .hbm, ⟨102, _⟩ => ⟨S330000, .f32⟩
  | .hbm, ⟨103, _⟩ => ⟨S_, .i32⟩
  | .hbm, ⟨104, _⟩ => ⟨S330000, .i32⟩
  | .hbm, ⟨105, _⟩ => ⟨S330000, .i1⟩
  | .hbm, ⟨106, _⟩ => ⟨S_, .i32⟩
  | .hbm, ⟨107, _⟩ => ⟨S330000, .i32⟩
  | .hbm, ⟨108, _⟩ => ⟨S330000, .i32⟩
  | .hbm, ⟨109, _⟩ => ⟨S330000, .i32⟩
  | .hbm, ⟨110, _⟩ => ⟨S330000x1, .i32⟩
  | .hbm, ⟨111, _⟩ => ⟨S330000x64, .f32⟩
  | .hbm, ⟨112, _⟩ => ⟨S330000x1, .f32⟩
  | .hbm, ⟨113, _⟩ => ⟨S330000x64, .f32⟩
  | .hbm, ⟨114, _⟩ => ⟨S330000x64, .f32⟩
  | .hbm, ⟨115, _⟩ => ⟨S_, .f32⟩
  | .hbm, ⟨116, _⟩ => ⟨S10000x64, .f32⟩
  | .hbm, ⟨117, _⟩ => ⟨S330000x1, .i32⟩
  | .hbm, ⟨118, _⟩ => ⟨S10000x64, .f32⟩
  | .hbm, ⟨119, _⟩ => ⟨S1x64, .f32⟩
  | .hbm, ⟨120, _⟩ => ⟨S10000x64, .f32⟩
  | .hbm, ⟨121, _⟩ => ⟨S10000x64, .f32⟩
  | .hbm, ⟨122, _⟩ => ⟨S10000x64, .bf16⟩
  | .hbm, ⟨123, _⟩ => ⟨S10000x10000, .f32⟩
  | .local _ .vmem, ⟨0, _⟩ => ⟨S2048x64, .bf16⟩
  | .local _ .vmem, ⟨1, _⟩ => ⟨S2048x64, .bf16⟩
  | .local _ .vmem, ⟨2, _⟩ => ⟨S2048x64, .bf16⟩
  | .local _ .vmem, ⟨3, _⟩ => ⟨S2048x64, .bf16⟩
  | .local _ .vmem, ⟨4, _⟩ => ⟨S2048x2048, .f32⟩
  | .local _ .vmem, ⟨5, _⟩ => ⟨S2048x2048, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![5, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  slices_S2x320000_S1x320000_0_0 : S2x320000.Slices ![0, 0] S1x320000
  shapeCasts_S1x320000_S320000 : S1x320000.ShapeCasts S320000
  concatenates_S320000_S10000_S330000_d0 : Shape.Concatenates [S320000, S10000] S330000 0
  slices_S2x320000_S1x320000_1_0 : S2x320000.Slices ![1, 0] S1x320000
  bcast_S_S330000 : S_.BroadcastsInDim S330000 (![] : Fin 0 → Fin S330000.rank)
  bcast_S_S10000 : S_.BroadcastsInDim S10000 (![] : Fin 0 → Fin S10000.rank)
  bcast_S330000_S330000x1_0 : S330000.BroadcastsInDim S330000x1 (![0] : Fin 1 → Fin S330000x1.rank)
  bcast_S330000x1_S330000x64_0_1 : S330000x1.BroadcastsInDim S330000x64 (![0, 1] : Fin 2 → Fin S330000x64.rank)
  bcast_S_S10000x64 : S_.BroadcastsInDim S10000x64 (![] : Fin 0 → Fin S10000x64.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bitsLt_bf16_f32 : FTy.bits .bf16 < FTy.bits .f32
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S2048x2048_S2048x2048_0_0 : ∀ a, (![0, 0] : Fin 2 → Nat) a + S2048x2048.size a ≤ S2048x2048.size a
  h_S2048x2048 : 0 < S2048x2048.numel
  dot_S10000x128_S128x64_S10000x64_1_0_0_1_n_n_wf : DotDims.WF S10000x128 S128x64 S10000x64 [1] [0] [0] [1] [] []
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  gather_S10000x64_S330000x1_S330000x64_1_0_n_n_0_1_164_wf : GatherDims.WF S10000x64 S330000x1 S330000x64 [1] [0] [] [0] [] 1 ![1, 64]
  scatter_S10000x64_S330000x1_S330000x64_1_0_0_1_wf : ScatterDims.WF S10000x64 S330000x1 S330000x64 [1] [0] [0] 1
  dot_S10000x64_S64x64_S10000x64_1_0_0_1_n_n_wf : DotDims.WF S10000x64 S64x64 S10000x64 [1] [0] [0] [1] [] []
  dot_S2048x64_S2048x64_S2048x2048_1_1_0_0_n_n_wf : DotDims.WF S2048x64 S2048x64 S2048x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S2048x64.size a < S10000x64.size a
  hwx0_0 : ∀ i : grid0.Coords, EltTy.bits .bf16 = 32 ∨ (Rect.unit (s := S10000x64) (fun a => cc0_transform_0 i a * S2048x64.size a) (fun a => (Pipeline.Clip.of (cc0_transform_0 i a) (S2048x64.size a) (S10000x64.size a)).extent (S2048x64.size a)) fun a => Pipeline.Clip.inb (Pipeline.Clip.ok_of (hstart0_0 i a))).WholeWords (EltTy.packing .bf16)
  hwxs0_0 : ∀ i : grid0.Coords, EltTy.bits .bf16 = 32 ∨ (Rect.unit (s := S2048x64) (fun _ => 0) (fun a => (Pipeline.Clip.of (cc0_transform_0 i a) (S2048x64.size a) (S10000x64.size a)).extent (S2048x64.size a)) fun a => (Nat.zero_add _).trans_le (Pipeline.Clip.extent_le (Pipeline.Clip.ok_of (hstart0_0 i a)))).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S2048x64.size a < S10000x64.size a
  hwx0_1 : ∀ i : grid0.Coords, EltTy.bits .bf16 = 32 ∨ (Rect.unit (s := S10000x64) (fun a => cc0_transform_1 i a * S2048x64.size a) (fun a => (Pipeline.Clip.of (cc0_transform_1 i a) (S2048x64.size a) (S10000x64.size a)).extent (S2048x64.size a)) fun a => Pipeline.Clip.inb (Pipeline.Clip.ok_of (hstart0_1 i a))).WholeWords (EltTy.packing .bf16)
  hwxs0_1 : ∀ i : grid0.Coords, EltTy.bits .bf16 = 32 ∨ (Rect.unit (s := S2048x64) (fun _ => 0) (fun a => (Pipeline.Clip.of (cc0_transform_1 i a) (S2048x64.size a) (S10000x64.size a)).extent (S2048x64.size a)) fun a => (Nat.zero_add _).trans_le (Pipeline.Clip.extent_le (Pipeline.Clip.ok_of (hstart0_1 i a)))).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S2048x2048.size a < S10000x10000.size a
  hwx0_2 : ∀ i : grid0.Coords, EltTy.bits .f32 = 32 ∨ (Rect.unit (s := S10000x10000) (fun a => cc0_transform_2 i a * S2048x2048.size a) (fun a => (Pipeline.Clip.of (cc0_transform_2 i a) (S2048x2048.size a) (S10000x10000.size a)).extent (S2048x2048.size a)) fun a => Pipeline.Clip.inb (Pipeline.Clip.ok_of (hstart0_2 i a))).WholeWords (EltTy.packing .f32)
  hwxs0_2 : ∀ i : grid0.Coords, EltTy.bits .f32 = 32 ∨ (Rect.unit (s := S2048x2048) (fun _ => 0) (fun a => (Pipeline.Clip.of (cc0_transform_2 i a) (S2048x2048.size a) (S10000x10000.size a)).extent (S2048x2048.size a)) fun a => (Nat.zero_add _).trans_le (Pipeline.Clip.extent_le (Pipeline.Clip.ok_of (hstart0_2 i a)))).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def gather_S10000x64_S330000x1_S330000x64_1_0_n_n_0_1_164 : GatherDims S10000x64 S330000x1 S330000x64 where
  offsetDims := [1]
  collapsedSliceDims := [0]
  operandBatchingDims := []
  startIndicesBatchingDims := []
  startIndexMap := [0]
  indexVectorDim := 1
  sliceSizes := ![1, 64]
  wf := gather_S10000x64_S330000x1_S330000x64_1_0_n_n_0_1_164_wf
def scatter_S10000x64_S330000x1_S330000x64_1_0_0_1 : ScatterDims S10000x64 S330000x1 S330000x64 where
  updateWindowDims := [1]
  insertedWindowDims := [0]
  scatterDimsToOperandDims := [0]
  indexVectorDim := 1
  wf := scatter_S10000x64_S330000x1_S330000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S2048x64_S2048x64_S2048x2048_1_1_0_0_n_n : DotDims S2048x64 S2048x64 S2048x2048 where
  lhsContracting := [1]
  rhsContracting := [1]
  lhsNonContracting := [0]
  rhsNonContracting := [0]
  lhsBatch := []
  rhsBatch := []
  wf := dot_S2048x64_S2048x64_S2048x2048_1_1_0_0_n_n_wf

abbrev win0_0 : Pipeline.Window sig grid0 :=
  Pipeline.Window.ofSpecClip (Memref.whole main_v88) S2048x64.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v88) S2048x64.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v89) S2048x2048.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S10000x128 : Shape := ⟨2, ![10000, 128]⟩
abbrev S2x320000 : Shape := ⟨2, ![2, 320000]⟩
abbrev S128x64 : Shape := ⟨2, ![128, 64]⟩
abbrev S64 : Shape := ⟨1, ![64]⟩
abbrev S64x64 : Shape := ⟨2, ![64, 64]⟩
abbrev S10000 : Shape := ⟨1, ![10000]⟩
abbrev S1x320000 : Shape := ⟨2, ![1, 320000]⟩
abbrev S320000 : Shape := ⟨1, ![320000]⟩
abbrev S330000 : Shape := ⟨1, ![330000]⟩
abbrev S10000x64 : Shape := ⟨2, ![10000, 64]⟩
abbrev S_ : Shape := ⟨0, ![]⟩
abbrev S330000x1 : Shape := ⟨2, ![330000, 1]⟩
abbrev S330000x64 : Shape := ⟨2, ![330000, 64]⟩
abbrev S1x64 : Shape := ⟨2, ![1, 64]⟩
abbrev S64x10000 : Shape := ⟨2, ![64, 10000]⟩
abbrev S10000x10000 : Shape := ⟨2, ![10000, 10000]⟩

abbrev nBuf : Space → Nat
  | .hbm => 132
  | .vmem => 0
  | .smem => 0
  | _ => 0

abbrev hbmTy0_0 (i : Nat) : BufTy := match i % 128 with
  | 0 => ⟨S10000x128, .f32⟩
  | 1 => ⟨S2x320000, .i32⟩
  | 2 => ⟨S128x64, .f32⟩
  | 3 => ⟨S64, .f32⟩
  | 4 => ⟨S64x64, .f32⟩
  | 5 => ⟨S64, .f32⟩
  | 6 => ⟨S10000, .i32⟩
  | 7 => ⟨S1x320000, .i32⟩
  | 8 => ⟨S320000, .i32⟩
  | 9 => ⟨S330000, .i32⟩
  | 10 => ⟨S1x320000, .i32⟩
  | 11 => ⟨S320000, .i32⟩
  | 12 => ⟨S330000, .i32⟩
  | 13 => ⟨S10000x64, .f32⟩
  | 14 => ⟨S_, .f32⟩
  | 15 => ⟨S330000, .f32⟩
  | 16 => ⟨S_, .f32⟩
  | 17 => ⟨S10000, .f32⟩
  | 18 => ⟨S330000x1, .i32⟩
  | 19 => ⟨S10000, .f32⟩
  | 20 => ⟨S_, .f32⟩
  | 21 => ⟨S10000, .f32⟩
  | 22 => ⟨S10000, .i1⟩
  | 23 => ⟨S10000, .f32⟩
  | 24 => ⟨S_, .f32⟩
  | 25 => ⟨S_, .f32⟩
  | 26 => ⟨S10000, .f32⟩
  | 27 => ⟨S10000, .f32⟩
  | 28 => ⟨S_, .i32⟩
  | 29 => ⟨S330000, .i32⟩
  | 30 => ⟨S330000, .i1⟩
  | 31 => ⟨S_, .i32⟩
  | 32 => ⟨S330000, .i32⟩
  | 33 => ⟨S330000, .i32⟩
  | 34 => ⟨S330000, .i32⟩
  | 35 => ⟨S330000x1, .i32⟩
  | 36 => ⟨S330000, .f32⟩
  | 37 => ⟨S_, .i32⟩
  | 38 => ⟨S330000, .i32⟩
  | 39 => ⟨S330000, .i1⟩
  | 40 => ⟨S_, .i32⟩
  | 41 => ⟨S330000, .i32⟩
  | 42 => ⟨S330000, .i32⟩
  | 43 => ⟨S330000, .i32⟩
  | 44 => ⟨S330000x1, .i32⟩
  | 45 => ⟨S330000, .f32⟩
  | 46 => ⟨S330000, .f32⟩
  | 47 => ⟨S_, .i32⟩
  | 48 => ⟨S330000, .i32⟩
  | 49 => ⟨S330000, .i1⟩
  | 50 => ⟨S_, .i32⟩
  | 51 => ⟨S330000, .i32⟩
  | 52 => ⟨S330000, .i32⟩
  | 53 => ⟨S330000, .i32⟩
  | 54 => ⟨S330000x1, .i32⟩
  | 55 => ⟨S330000x64, .f32⟩
  | 56 => ⟨S330000x1, .f32⟩
  | 57 => ⟨S330000x64, .f32⟩
  | 58 => ⟨S330000x64, .f32⟩
  | 59 => ⟨S_, .f32⟩
  | 60 => ⟨S10000x64, .f32⟩
  | 61 => ⟨S330000x1, .i32⟩
  | 62 => ⟨S10000x64, .f32⟩
  | 63 => ⟨S1x64, .f32⟩
  | 64 => ⟨S10000x64, .f32⟩
  | 65 => ⟨S10000x64, .f32⟩
  | 66 => ⟨S_, .f32⟩
  | 67 => ⟨S10000x64, .f32⟩
  | 68 => ⟨S10000x64, .f32⟩
  | 69 => ⟨S10000x64, .f32⟩
  | 70 => ⟨S_, .f32⟩
  | 71 => ⟨S330000, .f32⟩
  | 72 => ⟨S_, .f32⟩
  | 73 => ⟨S10000, .f32⟩
  | 74 => ⟨S330000x1, .i32⟩
  | 75 => ⟨S10000, .f32⟩
  | 76 => ⟨S_, .f32⟩
  | 77 => ⟨S10000, .f32⟩
  | 78 => ⟨S10000, .i1⟩
  | 79 => ⟨S10000, .f32⟩
  | 80 => ⟨S_, .f32⟩
  | 81 => ⟨S_, .f32⟩
  | 82 => ⟨S10000, .f32⟩
  | 83 => ⟨S10000, .f32⟩
  | 84 => ⟨S_, .i32⟩
  | 85 => ⟨S330000, .i32⟩
  | 86 => ⟨S330000, .i1⟩
  | 87 => ⟨S_, .i32⟩
  | 88 => ⟨S330000, .i32⟩
  | 89 => ⟨S330000, .i32⟩
  | 90 => ⟨S330000, .i32⟩
  | 91 => ⟨S330000x1, .i32⟩
  | 92 => ⟨S330000, .f32⟩
  | 93 => ⟨S_, .i32⟩
  | 94 => ⟨S330000, .i32⟩
  | 95 => ⟨S330000, .i1⟩
  | 96 => ⟨S_, .i32⟩
  | 97 => ⟨S330000, .i32⟩
  | 98 => ⟨S330000, .i32⟩
  | 99 => ⟨S330000, .i32⟩
  | 100 => ⟨S330000x1, .i32⟩
  | 101 => ⟨S330000, .f32⟩
  | 102 => ⟨S330000, .f32⟩
  | 103 => ⟨S_, .i32⟩
  | 104 => ⟨S330000, .i32⟩
  | 105 => ⟨S330000, .i1⟩
  | 106 => ⟨S_, .i32⟩
  | 107 => ⟨S330000, .i32⟩
  | 108 => ⟨S330000, .i32⟩
  | 109 => ⟨S330000, .i32⟩
  | 110 => ⟨S330000x1, .i32⟩
  | 111 => ⟨S330000x64, .f32⟩
  | 112 => ⟨S330000x1, .f32⟩
  | 113 => ⟨S330000x64, .f32⟩
  | 114 => ⟨S330000x64, .f32⟩
  | 115 => ⟨S_, .f32⟩
  | 116 => ⟨S10000x64, .f32⟩
  | 117 => ⟨S330000x1, .i32⟩
  | 118 => ⟨S10000x64, .f32⟩
  | 119 => ⟨S1x64, .f32⟩
  | 120 => ⟨S10000x64, .f32⟩
  | 121 => ⟨S10000x64, .f32⟩
  | 122 => ⟨S64x10000, .f32⟩
  | 123 => ⟨S10000x10000, .f32⟩
  | 124 => ⟨S10000x10000, .f32⟩
  | 125 => ⟨S10000x10000, .f32⟩
  | 126 => ⟨S_, .f32⟩
  | 127 => ⟨S10000x10000, .f32⟩
  | _ => ⟨S10000x128, .f32⟩

abbrev hbmTy0_1 (i : Nat) : BufTy := match i % 128 with
  | 0 => ⟨S10000x10000, .f32⟩
  | 1 => ⟨S_, .f32⟩
  | 2 => ⟨S10000x10000, .f32⟩
  | 3 => ⟨S10000x10000, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_cst_20 : Ref sig .tc := ⟨.hbm, 126, rfl⟩
abbrev main_v92 : Ref sig .tc := ⟨.hbm, 127, rfl⟩
abbrev main_v93 : Ref sig .tc := ⟨.hbm, 128, rfl⟩
abbrev main_cst_21 : Ref sig .tc := ⟨.hbm, 129, rfl⟩
abbrev main_v94 : Ref sig .tc := ⟨.hbm, 130, rfl⟩
abbrev main_v95 : Ref sig .tc := ⟨.hbm, 131, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  concatenates_S320000_S10000_S330000_d0 : Shape.Concatenates [S320000, S10000] S330000 0
  slices_S2x320000_S1x320000_1_0 : S2x320000.Slices ![1, 0] S1x320000
  bcast_S_S330000 : S_.BroadcastsInDim S330000 (![] : Fin 0 → Fin S330000.rank)
  bcast_S_S10000 : S_.BroadcastsInDim S10000 (![] : Fin 0 → Fin S10000.rank)
  bcast_S330000_S330000x1_0 : S330000.BroadcastsInDim S330000x1 (![0] : Fin 1 → Fin S330000x1.rank)
  bcast_S330000x1_S330000x64_0_1 : S330000x1.BroadcastsInDim S330000x64 (![0, 1] : Fin 2 → Fin S330000x64.rank)
  bcast_S_S10000x64 : S_.BroadcastsInDim S10000x64 (![] : Fin 0 → Fin S10000x64.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  transposes_S10000x64_S64x10000_1_0 : S10000x64.Transposes [1, 0] S64x10000
  bcast_S_S10000x10000 : S_.BroadcastsInDim S10000x10000 (![] : Fin 0 → Fin S10000x10000.rank)
  dot_S10000x128_S128x64_S10000x64_1_0_0_1_n_n_wf : DotDims.WF S10000x128 S128x64 S10000x64 [1] [0] [0] [1] [] []
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  gather_S10000x64_S330000x1_S330000x64_1_0_n_n_0_1_164_wf : GatherDims.WF S10000x64 S330000x1 S330000x64 [1] [0] [] [0] [] 1 ![1, 64]
  scatter_S10000x64_S330000x1_S330000x64_1_0_0_1_wf : ScatterDims.WF S10000x64 S330000x1 S330000x64 [1] [0] [0] 1
  dot_S10000x64_S64x64_S10000x64_1_0_0_1_n_n_wf : DotDims.WF S10000x64 S64x64 S10000x64 [1] [0] [0] [1] [] []
  dot_S10000x64_S64x10000_S10000x10000_1_0_0_1_n_n_wf : DotDims.WF S10000x64 S64x10000 S10000x10000 [1] [0] [0] [1] [] []

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def gather_S10000x64_S330000x1_S330000x64_1_0_n_n_0_1_164 : GatherDims S10000x64 S330000x1 S330000x64 where
  offsetDims := [1]
  collapsedSliceDims := [0]
  operandBatchingDims := []
  startIndicesBatchingDims := []
  startIndexMap := [0]
  indexVectorDim := 1
  sliceSizes := ![1, 64]
  wf := gather_S10000x64_S330000x1_S330000x64_1_0_n_n_0_1_164_wf
def scatter_S10000x64_S330000x1_S330000x64_1_0_0_1 : ScatterDims S10000x64 S330000x1 S330000x64 where
  updateWindowDims := [1]
  insertedWindowDims := [0]
  scatterDimsToOperandDims := [0]
  indexVectorDim := 1
  wf := scatter_S10000x64_S330000x1_S330000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x10000_S10000x10000_1_0_0_1_n_n : DotDims S10000x64 S64x10000 S10000x10000 where
  lhsContracting := [1]
  rhsContracting := [0]
  lhsNonContracting := [0]
  rhsNonContracting := [1]
  lhsBatch := []
  rhsBatch := []
  wf := dot_S10000x64_S64x10000_S10000x10000_1_0_0_1_n_n_wf

class Facts : Prop extends Facts₀ where

variable [Facts]
-- ==== Proof.KHost.lean ====
import proofs.«180243_j86045374808276_2_alg».proof.Proof.Gen.Kernel.Launch
import proofs.«180243_j86045374808276_2_alg».proof.Proof.Gen.Kernel.Points
import Idealize.ShloMosaic.Lib.Pipeline.FrameBody
import Idealize.ShloMosaic.Lib.Tactic

/-!
# The host lines before the region

Before its one region the entry function runs seven stretches of host operations: the two graph-convolution
layers that compute the node features. The region is entered with every buffer at the contents those
stretches leave (`V`). None of them writes an argument array, so the region finds each argument as launched.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ)

/-- The stretches of host operations before the region, in order. -/
abbrev hostLines : List (List (HloOp τ sig (Elt F))) :=
  [hostOps0, hostOps0_1, hostOps0_2, hostOps0_3, hostOps0_4, hostOps0_5, hostOps0_6]

/-- Core `c`'s buffers when the region is entered: after all the host stretches. -/
abbrev V (c : Dev nD) (b : Ref sig .tc) : Buf (Elt F) ((c : Thread nD τ).loc b) :=
  StableHlo.after (List.flatten (hostLines (F := F))) (fun b => m (c, b)) b

theorem hostLines_sub :
    (hostLines (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub⟩

theorem hostLines_fresh :
    (hostLines (F := F)).Forall fun ops => ops.Forall fun op => op.fresh = ∅ := by
  simp only [List.Forall]; repeat' constructor

/-- The entry function up to the region: the host stretches, then the region entered at `V`. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefixes cfgs 0 defs₀ 𝒱₀ m main hostLines hostLines_sub hostLines_fresh main_chain

/-- Every operation of the host stretches writes one buffer, its result, and none of them is the argument
    in question: the list is opened to a conjunction, one inequality of references per operation. -/
local macro "arg_kept" : tactic => `(tactic| (
  simp only [hostLines, hostOps0, hostOps0_1, hostOps0_2, hostOps0_3, hostOps0_4, hostOps0_5, hostOps0_6,
    List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-- No host stretch before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by arg_kept))
/-- No host stretch before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by arg_kept))
/-- No host stretch before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by arg_kept))
/-- No host stretch before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by arg_kept))
/-- No host stretch before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by arg_kept))
/-- No host stretch before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by arg_kept))

end Cert.Kernel.Hand

end
-- ==== Proof.KBody.lean ====
/-
  The kernel body on whole staging buffers: it loads the whole left and right blocks, forms the payload (the
  matrix product of the left block with the transposed right block, then the pointwise map s ↦ ½·(tanh (½·s) + 1)),
  loads the result's buffer without using it, and stores the payload over the whole result buffer. So the two
  input buffers are left as found and the result buffer holds the payload of what the inputs held.
-/
import proofs.«180243_j86045374808276_2_alg».proof.Proof.Gen.Kernel.Launch
import proofs.«180243_j86045374808276_2_alg».proof.Proof.Gen.Kernel.Skeleton
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The whole input buffer, as the rectangle the loads go through. -/
abbrev rIn : Rect S2048x64 := Rect.unit (s := S2048x64) ![0, 0] S2048x64.size inb_S2048x64_S2048x64_0_0
/-- The whole result buffer, as the rectangle the store goes through. -/
abbrev rOut : Rect S2048x2048 := Rect.unit (s := S2048x2048) ![0, 0] S2048x2048.size inb_S2048x2048_S2048x2048_0_0

/-- What the result buffer holds after the body: its one store, over what the two loads read. -/
def outBlock (x0 x1 : Vec F S2048x64 .bf16) : Vec F S2048x2048 .f32 :=
  View.canon [⟨rOut, k0_pay1 (View.ld x0 rIn) (View.ld x1 rIn)⟩]

/-- The one store covers the buffer. -/
theorem cover_out (p0 : Vec F S2048x2048 .f32) (y : S2048x2048.Idx) :
    ∃ pc ∈ ([⟨rOut, p0⟩] : List (View.Piece (Elt F) S2048x2048 .f32)), y ∈ pc.1.set :=
  View.cover_of_tiled [⟨rOut, p0⟩] S2048x2048.size (by rfl) y

theorem zero_off : (![0, 0] : Fin 2 → Nat) = fun _ => 0 := funext fun a => by fin_cases a <;> rfl

/-- The loads and the store go through whole buffers: the result is the payload of the inputs' contents. -/
theorem outBlock_eq (x0 x1 : Vec F S2048x64 .bf16) : outBlock x0 x1 = k0_pay1 x0 x1 := by
  unfold outBlock
  rw [View.canon_unit_zero zero_off]
  simp only [View.ld_unit_zero (S := S2048x64) zero_off]

set_option maxHeartbeats 1000000 in
/-- The body's triple, on any whole staging buffers. -/
theorem sound_kernel (c : Dev nD) (E : Set ℕ) (i : grid0.Coords)
    (arg2 : Memref sig .tc .vmem S2048x64 .bf16) (harg2 : arg2.IsWhole)
    (arg3 : Memref sig .tc .vmem S2048x64 .bf16) (harg3 : arg3.IsWhole)
    (arg4 : Memref sig .tc .vmem S2048x2048 .f32) (harg4 : arg4.IsWhole)
    (x0 x1 : Vec F S2048x64 .bf16) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
              ∗ owns (c : Thread nD τ) arg4 fullShare (outBlock x0 x1)) -∗ K ⟨⟩))
      ⊢ wp frame (wpE (defs₀ (F := F)) Variants.none c none) E
          (cc0__sigmoid_outer_kernel i arg2 harg2 arg3 harg3 arg4 harg4) K := by
  simp only [cc0__sigmoid_outer_kernel_eq_skeleton]; unfold cc0__sigmoid_outer_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

end Cert.Kernel.Hand

end
-- ==== Proof.KFrame.lean ====
import proofs.«180243_j86045374808276_2_alg».proof.Proof.KHost
import proofs.«180243_j86045374808276_2_alg».proof.Proof.KBody
import Idealize.ShloMosaic.Lib.Pipeline.FrameSuffix

/-!
# The word-level program runs and leaves its arguments unchanged

The region stages one array, the node features, through two input windows (a block of rows for the left factor, a
block of rows for the right factor) and writes the result array through a third. None of the three is an argument of
the entry function, so the claim reads none of them: the proof data constrain nothing about what the body leaves in a
staging buffer. The features' buffer, held whole when the region is entered, is dealt to the two input windows half
and half. The six arguments bypass the region and are read back at the end as the host stretches left them, which is
as launched.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf arrRef arrBufs unscopedRestP restRefsP restRefs ΦA scopedRest
  ownSems0 ownSems0_none OwnSemFacts PreFacts pin cells launchToks)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The proof data of the one pipeline on core `c`: the arrays as the region finds them; of what the body leaves in a
    staging buffer, nothing; the invariant the scoped rest and the generator register, untouched; the features'
    buffer lent half to each input window; nothing owed. -/
def rdats (_ : Fin 1) (c : Dev nD) : RDat τ (Elt F) Unit ℕ (UR sig nD τ) ℕ cfg0 c where
  A w := V m c (arrRef spec0 w)
  after _ _ _ _ := True
  Φ _ := ΦA spec0 c
  q w := match w with
    | ⟨0, _⟩ => fullShare.left
    | ⟨1, _⟩ => fullShare.right
    | ⟨2, _⟩ => fullShare
  owed _ := 0

/-! ## The arrays' buffers dealt to the windows -/

/-- The windows' arrays are two buffers: the features (read by both input windows) and the result. -/
theorem arrImage : Finset.univ.image (arrRef spec0) = ([main_v88, main_v89] : List (Ref sig .tc)).toFinset := by decide

set_option maxHeartbeats 4000000 in
/-- The two buffers behind the windows' arrays, each held whole at entry contents `Vc`, make the windows' arrays
    at their shares, for any proof data that lend the features' left half to the window of the left factor and the
    right half to the window of the right factor: the features' points-to splits along the share; the result's goes
    whole to the output window. Stated at contents `Vc` of which nothing is known, so that no step looks inside them. -/
theorem hsplit_of (c : Dev nD) (Vc : (b : Ref sig .tc) → Buf (Elt F) ((c.tc : Thread nD τ).loc b))
    (rd : RDat τ (Elt F) Unit ℕ (UR sig nD τ) ℕ cfg0 c) (hq0 : rd.q 0 = fullShare.left) (hq1 : rd.q 1 = fullShare.right)
    (Fw : (w : Fin cfg0.W) → Buf (Elt F) ((cfg0.win w).arr.view.loc (c.tc : Thread nD τ)))
    (hF : ∀ w, Fw w = Vc (arrRef spec0 w)) :
    (arrBufs spec0 c Vc : sProp 𝕄) ⊢ rd.arrays Fw := by
  unfold arrBufs RDat.arrays
  rw [BI.bigSep_eq_bigSepL_of_eq [main_v88, main_v89] arrImage (by decide), bigSep_W0]
  rw [(arr_whole0 0).set_eq_univ, (arr_whole0 2).set_eq_univ]
  rw [show rd.share 0 = rd.q 0 from rfl, show rd.share 1 = rd.q 1 from rfl, show rd.share 2 = fullShare from rfl,
    hq0, hq1, hF 0, hF 1, hF 2]
  show iprop((_ ↦{fullShare} Vc main_v88) ∗ (_ ↦{fullShare} Vc main_v89)) ⊢ _
  iintro ⟨H88, H89⟩
  ihave H := (pointsTo_share (PosShare.mem_left_op_right fullShare)).1 $$ H88
  icases H with ⟨Hl, Hr⟩
  isplitl [Hl]; · iexact Hl
  isplitl [Hr]; · iexact Hr
  iexact H89

theorem A_eq (c : Dev nD) (w : Fin cfg0.W) : (rdats m 0 c).A w = V m c (arrRef spec0 w) := by
  dsimp only [rdats]

theorem hsplit (c : Dev nD) :
    (arrBufs spec0 c (V m c) : sProp 𝕄) ⊢ (rdats m 0 c).arrays (rdats m 0 c).A :=
  hsplit_of c (V m c) (rdats m 0 c) (by dsimp only [rdats]) (by dsimp only [rdats]) _ (A_eq m c)

/-! ## The body obligation -/

set_option maxHeartbeats 4000000 in
/-- At any point, whatever the three current staging buffers hold, the body runs and hands them back: the inputs' as
    they were, the result's at the payload of what the inputs held. The invariant and what the core owes pass through
    unread; of the contents handed back nothing is recorded. -/
theorem sound_body (c : Dev nD) (t : Fin cfg0.N) (Y : (w : Fin cfg0.W) → (cfg0.win w).block.Idx → Elt F (cfg0.win w).elt) :
    iprop((rdats m 0 c).Φ t.castSucc ∗ (rdats m 0 c).owesAt () t.castSucc
        ∗ owns (c : Thread nD τ) (st0_0 t) fullShare (Y 0)
        ∗ owns (c : Thread nD τ) (st0_1 t) fullShare (Y 1)
        ∗ owns (c : Thread nD τ) (st0_2 t) fullShare (Y 2))
      ⊢ wp frame (wpE (defs₀ (F := F)) Variants.none c none) Set.univ (bodyAt0 t) (fun _ =>
        iprop((rdats m 0 c).Φ t.succ ∗ (rdats m 0 c).owesAt () t.succ
          ∗ (∃ X, ⌜(rdats m 0 c).after 0 t (Y 0) X⌝ ∗ owns (c : Thread nD τ) (st0_0 t) fullShare X)
          ∗ (∃ X, ⌜(rdats m 0 c).after 1 t (Y 1) X⌝ ∗ owns (c : Thread nD τ) (st0_1 t) fullShare X)
          ∗ (∃ X, ⌜(rdats m 0 c).after 2 t (Y 2) X⌝ ∗ owns (c : Thread nD τ) (st0_2 t) fullShare X))) := by
  unfold bodyAt0
  rw [show (rdats m 0 c).Φ t.succ = (rdats m 0 c).Φ t.castSucc from rfl,
    show (rdats m 0 c).owesAt () t.succ = (rdats m 0 c).owesAt () t.castSucc from rfl]
  iintro ⟨HΦ, Ho, H0, H1, H2⟩
  iapply (sound_kernel c Set.univ (grid0.coords t) _ _ _ _ _ _ (Y 0) (Y 1) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists (Y 0); isplitr; · ipureintro; trivial
    iexact H0
  isplitl [H1]
  · iexists (Y 1); isplitr; · ipureintro; trivial
    iexact H1
  iexists (outBlock (Y 0) (Y 1)); isplitr; · ipureintro; trivial
  iexact H2

/-- The library's body obligation for relational proof data, at every point. -/
theorem body_obligation (c : Dev nD) :
    (rdats (F := F) m 0 c).BodyObligation (defs₀ (F := F)) Variants.none () Set.univ := fun t Y _ => by
  rw [bigSep_W0, bigSep_W0]
  exact sound_body m c t Y

/-! ## The run and the frame -/

/-- An unscoped buffer that is no window's array bypasses the region (the region prefetches no table). -/
theorem mem_rest (b : Ref sig .tc) (hs : b.isScoped = false) (ha : ∀ w, (spec0 w).arr.view.ref ≠ b) :
    b ∈ restRefsP sig (pcfgs (F := F) 0).pre spec0 :=
  Finset.mem_sdiff.mpr ⟨Pipeline.mem_restRefs_of b hs ha, fun h => by
    obtain ⟨k, -, -⟩ := Finset.mem_image.mp h; exact k.elim0⟩

set_option maxHeartbeats 4000000 in
/-- At the compiled mesh, from any memory with zero counters, every weakly fair execution of the entry function on the
    TensorCores terminates, nothing faulting, and every final state has the six argument arrays as launched: each
    bypasses the region, so it ends as the host stretches left it, and no host stretch writes it. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  classical
  exact RDat.θ_run_region_pf (pcfgs (F := F)) (fun p => (cfgs p).toPCfg_adm) (rdats m) () cellOf_inj 0 winFacts₀0
    (OwnSemFacts.none _) (PreFacts.none _) emb₁ defs₀ Variants.none m ρ main
    (body_obligation m) block_pos0 arr_whole0 stage_whole0 (fun _ _ => rfl)
    (G := fun _ => iprop(emp))
    (u₀ := initOf (cells (pin (pcfgs (F := F)) fun p => (cfgs p).toPCfg_adm) cellOf_inj)
      (launchToks (pin (pcfgs (F := F)) fun p => (cfgs p).toPCfg_adm) cellOf_inj))
    (hu₀ := by
      iintro Hu; imodintro
      isplitl [Hu]
      · iapply (show (ownU _ : sProp 𝕄) ⊢ BI.own (emb₁ (initOf (cells (pin (pcfgs (F := F)) fun p => (cfgs p).toPCfg_adm) cellOf_inj)
          (launchToks (pin (pcfgs (F := F)) fun p => (cfgs p).toPCfg_adm) cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) (pcfgs (F := F) 0).pre spec0 c (V m c))
    (hX := fun c => by
      iintro ⟨HU, -, -, -, Hp, -⟩; imodintro
      isplitl [Hp]; · iexists _; iexact Hp
      iexact HU)
    (hin := fun c => by
      show _ ⊢ ΦA spec0 c
      unfold ΦA
      iintro ⟨Hp, -, Hr⟩
      isplitl [Hr] <;> iassumption)
    (hout := fun c => by
      show ΦA spec0 c ⊢ _
      rw [ownSems0_none]; unfold ΦA
      iintro ⟨Hr, Hp⟩
      isplitl [Hp]; · iexact Hp
      isplitr; · iempintro
      iexact Hr)
    (QY := fun c s => ∀ b ∈ restRefsP sig (pcfgs (F := F) 0).pre spec0, s.mem ((c.tc : Thread nD τ).loc b) = V m c b)
    (hY := fun c s' => by
      iintro ⟨-, HU, HSI⟩
      unfold unscopedRestP
      imodintro
      iapply (pointsTo_read_all (restRefsP sig (pcfgs (F := F) 0).pre spec0) (fun b => (c.tc : Thread nD τ).loc b) (V m c) s')
      isplitl [HU] <;> iassumption)
    (hQ := fun s h c =>
      have hr := (h c).2.2
      ⟨(hr main_arg0 (mem_rest main_arg0 (by decide) (by decide))).trans (V_main_arg0 m c),
       (hr main_arg1 (mem_rest main_arg1 (by decide) (by decide))).trans (V_main_arg1 m c),
       (hr main_arg2 (mem_rest main_arg2 (by decide) (by decide))).trans (V_main_arg2 m c),
       (hr main_arg3 (mem_rest main_arg3 (by decide) (by decide))).trans (V_main_arg3 m c),
       (hr main_arg4 (mem_rest main_arg4 (by decide) (by decide))).trans (V_main_arg4 m c),
       (hr main_arg5 (mem_rest main_arg5 (by decide) (by decide))).trans (V_main_arg5 m c)⟩)

end Cert.Kernel.Hand

end
-- ==== Proof.KClaim.lean ====
import proofs.«180243_j86045374808276_2_alg».proof.Defs
import proofs.«180243_j86045374808276_2_alg».proof.Proof.Gen.Pre_finite_inputs
import proofs.«180243_j86045374808276_2_alg».proof.Proof.KFrame

/-!
# The frame claim of the word-level program

The claim is the run of the previous module read at the word-level values: the precondition on the arguments is not
needed, the program leaves its arguments unchanged from any memory.
-/

noncomputable section

namespace Cert.Kernel.Hand

open Idealize.ShloMosaic Idealize.SL.Sem

/-- The word-level program runs and its argument arrays end unchanged. -/
theorem frame_p : Cert.frame_Kernel := fun m g _ => frame m g

/-- info: 'Cert.Kernel.Hand.frame_p' depends on axioms: [propext, Classical.choice, Quot.sound] -/
#guard_msgs in #print axioms frame_p

end Cert.Kernel.Hand

end
-- ==== Proof.IHost.lean ====
/-
  @main up to the launch: seven stretches of host operations (the two graph-convolution layers, with the called
  functions' bodies as stretches of their own), then the one region. The region finds every buffer at the
  stretches' composed contents `V`; no stretch writes an argument array, so the region finds the six arguments as
  they were at the start.
-/
import proofs.«180243_j86045374808276_2_alg».proof.Proof.Gen.KernelIdeal.Launch
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

variable (m : (ℓ : Loc nD τ sig) → Buf (Elt F) ℓ)

/-- The stretches of host operations before the region, in order. -/
abbrev stretches : List (List (HloOp τ sig (Elt F))) :=
  [hostOps0, hostOps0_1, hostOps0_2, hostOps0_3, hostOps0_4, hostOps0_5, hostOps0_6]

/-- Core `c`'s buffers when the region is entered: the launch contents run through the stretches. -/
abbrev V (c : Dev nD) (b : Ref sig .tc) : Buf (Elt F) ((c : Thread nD τ).loc b) :=
  StableHlo.after (stretches (F := F)).flatten (fun b => m (c, b)) b

theorem stretches_sub :
    (stretches (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub⟩

theorem stretches_fresh : (stretches (F := F)).Forall fun ops => ops.Forall fun op => op.fresh = ∅ := by
  simp only [List.Forall]; repeat' constructor

/-- @main is the stretches, then the region. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefixes cfgs 0 defs₀ 𝒱₀ m main stretches stretches_sub stretches_fresh main_chain

/-- No stretch writes `main_arg0`: the region finds it as it was at the start. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [stretches, hostOps0, hostOps0_1, hostOps0_2, hostOps0_3, hostOps0_4, hostOps0_5, hostOps0_6,
      List.flatten_cons, List.flatten_nil, List.append_nil, List.cons_append, List.nil_append, List.Forall,
      StableHlo.TRef.nullary, StableHlo.TRef.unary, StableHlo.TRef.binary, StableHlo.TRef.ternary,
      StableHlo.nullary_writes, StableHlo.unary_writes, StableHlo.binary_writes, StableHlo.ternary_writes,
      StableHlo.reshape_writes, Finset.mem_singleton]
    repeat' apply And.intro
    all_goals exact StableHlo.devRef_ne_of_ne (by decide)))

/-- No stretch writes `main_arg1`: the region finds it as it was at the start. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [stretches, hostOps0, hostOps0_1, hostOps0_2, hostOps0_3, hostOps0_4, hostOps0_5, hostOps0_6,
      List.flatten_cons, List.flatten_nil, List.append_nil, List.cons_append, List.nil_append, List.Forall,
      StableHlo.TRef.nullary, StableHlo.TRef.unary, StableHlo.TRef.binary, StableHlo.TRef.ternary,
      StableHlo.nullary_writes, StableHlo.unary_writes, StableHlo.binary_writes, StableHlo.ternary_writes,
      StableHlo.reshape_writes, Finset.mem_singleton]
    repeat' apply And.intro
    all_goals exact StableHlo.devRef_ne_of_ne (by decide)))

/-- No stretch writes `main_arg2`: the region finds it as it was at the start. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [stretches, hostOps0, hostOps0_1, hostOps0_2, hostOps0_3, hostOps0_4, hostOps0_5, hostOps0_6,
      List.flatten_cons, List.flatten_nil, List.append_nil, List.cons_append, List.nil_append, List.Forall,
      StableHlo.TRef.nullary, StableHlo.TRef.unary, StableHlo.TRef.binary, StableHlo.TRef.ternary,
      StableHlo.nullary_writes, StableHlo.unary_writes, StableHlo.binary_writes, StableHlo.ternary_writes,
      StableHlo.reshape_writes, Finset.mem_singleton]
    repeat' apply And.intro
    all_goals exact StableHlo.devRef_ne_of_ne (by decide)))

/-- No stretch writes `main_arg3`: the region finds it as it was at the start. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [stretches, hostOps0, hostOps0_1, hostOps0_2, hostOps0_3, hostOps0_4, hostOps0_5, hostOps0_6,
      List.flatten_cons, List.flatten_nil, List.append_nil, List.cons_append, List.nil_append, List.Forall,
      StableHlo.TRef.nullary, StableHlo.TRef.unary, StableHlo.TRef.binary, StableHlo.TRef.ternary,
      StableHlo.nullary_writes, StableHlo.unary_writes, StableHlo.binary_writes, StableHlo.ternary_writes,
      StableHlo.reshape_writes, Finset.mem_singleton]
    repeat' apply And.intro
    all_goals exact StableHlo.devRef_ne_of_ne (by decide)))

/-- No stretch writes `main_arg4`: the region finds it as it was at the start. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [stretches, hostOps0, hostOps0_1, hostOps0_2, hostOps0_3, hostOps0_4, hostOps0_5, hostOps0_6,
      List.flatten_cons, List.flatten_nil, List.append_nil, List.cons_append, List.nil_append, List.Forall,
      StableHlo.TRef.nullary, StableHlo.TRef.unary, StableHlo.TRef.binary, StableHlo.TRef.ternary,
      StableHlo.nullary_writes, StableHlo.unary_writes, StableHlo.binary_writes, StableHlo.ternary_writes,
      StableHlo.reshape_writes, Finset.mem_singleton]
    repeat' apply And.intro
    all_goals exact StableHlo.devRef_ne_of_ne (by decide)))

/-- No stretch writes `main_arg5`: the region finds it as it was at the start. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [stretches, hostOps0, hostOps0_1, hostOps0_2, hostOps0_3, hostOps0_4, hostOps0_5, hostOps0_6,
      List.flatten_cons, List.flatten_nil, List.append_nil, List.cons_append, List.nil_append, List.Forall,
      StableHlo.TRef.nullary, StableHlo.TRef.unary, StableHlo.TRef.binary, StableHlo.TRef.ternary,
      StableHlo.nullary_writes, StableHlo.unary_writes, StableHlo.binary_writes, StableHlo.ternary_writes,
      StableHlo.reshape_writes, Finset.mem_singleton]
    repeat' apply And.intro
    all_goals exact StableHlo.devRef_ne_of_ne (by decide)))

end Cert.KernelIdeal.Hand

end
-- ==== Proof.IBody.lean ====
/-
  The kernel body on whole staging buffers: it loads the whole left and right blocks, forms the payload (the
  matrix product of the left block with the transposed right block, then the pointwise map s ↦ ½·(tanh (½·s) + 1)),
  loads the result's buffer without using it, and stores the payload over the whole result buffer. So the two
  input buffers are left as found and the result buffer holds the payload of what the inputs held.
-/
import proofs.«180243_j86045374808276_2_alg».proof.Proof.Gen.KernelIdeal.Launch
import proofs.«180243_j86045374808276_2_alg».proof.Proof.Gen.KernelIdeal.Skeleton
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The whole input buffer, as the rectangle the loads go through. -/
abbrev rIn : Rect S2048x64 := Rect.unit (s := S2048x64) ![0, 0] S2048x64.size inb_S2048x64_S2048x64_0_0
/-- The whole result buffer, as the rectangle the store goes through. -/
abbrev rOut : Rect S2048x2048 := Rect.unit (s := S2048x2048) ![0, 0] S2048x2048.size inb_S2048x2048_S2048x2048_0_0

/-- What the result buffer holds after the body: its one store, over what the two loads read. -/
def outBlock (x0 x1 : Vec F S2048x64 .bf16) : Vec F S2048x2048 .f32 :=
  View.canon [⟨rOut, k0_pay1 (View.ld x0 rIn) (View.ld x1 rIn)⟩]

/-- The one store covers the buffer. -/
theorem cover_out (p0 : Vec F S2048x2048 .f32) (y : S2048x2048.Idx) :
    ∃ pc ∈ ([⟨rOut, p0⟩] : List (View.Piece (Elt F) S2048x2048 .f32)), y ∈ pc.1.set :=
  View.cover_of_tiled [⟨rOut, p0⟩] S2048x2048.size (by rfl) y

theorem zero_off : (![0, 0] : Fin 2 → Nat) = fun _ => 0 := funext fun a => by fin_cases a <;> rfl

/-- The loads and the store go through whole buffers: the result is the payload of the inputs' contents. -/
theorem outBlock_eq (x0 x1 : Vec F S2048x64 .bf16) : outBlock x0 x1 = k0_pay1 x0 x1 := by
  unfold outBlock
  rw [View.canon_unit_zero zero_off]
  simp only [View.ld_unit_zero (S := S2048x64) zero_off]

set_option maxHeartbeats 1000000 in
/-- The body's triple, on any whole staging buffers. -/
theorem sound_kernel (c : Dev nD) (E : Set ℕ) (i : grid0.Coords)
    (arg2 : Memref sig .tc .vmem S2048x64 .bf16) (harg2 : arg2.IsWhole)
    (arg3 : Memref sig .tc .vmem S2048x64 .bf16) (harg3 : arg3.IsWhole)
    (arg4 : Memref sig .tc .vmem S2048x2048 .f32) (harg4 : arg4.IsWhole)
    (x0 x1 : Vec F S2048x64 .bf16) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
              ∗ owns (c : Thread nD τ) arg4 fullShare (outBlock x0 x1)) -∗ K ⟨⟩))
      ⊢ wp frame (wpE (defs₀ (F := F)) Variants.none c none) E
          (cc0__sigmoid_outer_kernel i arg2 harg2 arg3 harg3 arg4 harg4) K := by
  simp only [cc0__sigmoid_outer_kernel_eq_skeleton]; unfold cc0__sigmoid_outer_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

end Cert.KernelIdeal.Hand

end
-- ==== Proof.LibRowOps.lean ====
/-
  Two row operations read at an index, on the extended reals.

  A matrix product `[a, k] × [b, k] → [a, b]` that contracts the SECOND axis of both operands ("left times the
  transpose of right"), into the zero accumulator, is at entry `(p, c)` the sum over `j` of `lhs (p, j) · rhs (c, j)` —
  stated from four facts about the dimension record's operand indices, which each use proves by evaluating its record.
  A maximum over the last axis of an `[a, b]` array from the accumulator `−∞` is at row `r` the fold of `max` from `⊥`
  over the row's entries.
-/
import Idealize.ShloMosaic.Lib.ValueIdx
import Idealize.ShloMosaic.PureOps.Ideal.Laws

noncomputable section

namespace Idealize.ShloMosaic.RowOps

open Idealize.ShloMosaic Idealize.ShloMosaic.ValueIdx

variable {a k b : ℕ} {φ₁ φ₂ : FTy}

/-- The contraction sum of "left times right transposed" at entry `(p, c)`, re-indexed by the contracted coordinate. -/
theorem sumT_eq (D : DotDims ⟨2, ![a, k]⟩ ⟨2, ![b, k]⟩ ⟨2, ![a, b]⟩)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (lhs : FVec Ideal ⟨2, ![a, k]⟩ φ₁) (rhs : FVec Ideal ⟨2, ![b, k]⟩ φ₂) (p : Fin a) (c : Fin b) :
    ∑ q : D.contr.Idx, lhs (D.lhsIdx (ix2 p c) q) * rhs (D.rhsIdx (ix2 p c) q)
      = ∑ j : Fin k, lhs (ix2 p j) * rhs (ix2 c j) := by
  rw [← Equiv.sum_comp (contrEquiv1 D k hr hs).symm]
  refine Finset.sum_congr rfl fun j _ => ?_
  have hk := contrEquiv1_symm_val D k hr hs j
  have el : D.lhsIdx (ix2 p c) ((contrEquiv1 D k hr hs).symm j) = ix2 p j := funext fun ax => Fin.ext (by
    match ax with
    | ⟨0, _⟩ => exact hl0 _ _
    | ⟨1, _⟩ => exact (hl1 _ _).trans hk)
  have er : D.rhsIdx (ix2 p c) ((contrEquiv1 D k hr hs).symm j) = ix2 c j := funext fun ax => Fin.ext (by
    match ax with
    | ⟨0, _⟩ => exact hr0 _ _
    | ⟨1, _⟩ => exact (hr1 _ _).trans hk)
  rw [el, er]

/-- The matrix unit into the zero accumulator, "left times right transposed", at entry `(p, c)`. -/
theorem matmulT_zero_apply (D : DotDims ⟨2, ![a, k]⟩ ⟨2, ![b, k]⟩ ⟨2, ![a, b]⟩) (prec : Option ContractPrecision)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (lhs : FVec Ideal ⟨2, ![a, k]⟩ φ₁) (rhs : FVec Ideal ⟨2, ![b, k]⟩ φ₂) (p : Fin a) (c : Fin b) :
    matmul D prec lhs rhs (constant (F := Ideal) ⟨2, ![a, b]⟩ .f32 0x00000000#32) (ix2 p c)
      = ∑ j : Fin k, lhs (ix2 p j) * rhs (ix2 c j) :=
  (Ideal.matmul_constant_zero_apply D prec lhs rhs (ix2 p c)).trans (sumT_eq D hr hs hl0 hl1 hr0 hr1 lhs rhs p c)

/-- The binary32 word of `−∞` denotes `⊥`. -/
theorem ofBits_neg_inf : Ideal.ofBits .f32 0xFF800000#32 = (⊥ : EReal) := by
  simp [Ideal.ofBits, Ideal.ieee]

/-- The lane maximum of an `[a, b]` array from the accumulator `−∞`, at row `r`, is the fold of `max` from `⊥` over the
    row's entries. -/
theorem rowMax_apply (v : FVec Ideal ⟨2, ![a, b]⟩ .f32) (h : (⟨2, ![a, b]⟩ : Shape).Reduces [1] ⟨1, ![a]⟩)
    (hacc : (0xFF800000#32 : BitVec 32) = FKind.maximumf.neutral .f32 (.inl rfl)) (r : Fin a) :
    multiReduction .maximumf [1] ⟨1, ![a]⟩ v 0xFF800000#32 h (.inl rfl) hacc (ix1 r)
      = (Finset.univ : Finset (Fin b)).fold max ⊥ (fun k => v (ix2 r k)) := by
  refine (Ideal.multiReduction_maximumf_single v 0xFF800000#32 h (.inl rfl) hacc (ix1 r)).trans ?_
  rw [show (FloatOps.ofBits (F := Ideal) .f32 0xFF800000#32 : EReal) = ⊥ from ofBits_neg_inf]
  refine congrArg (fun f => (Finset.univ : Finset (Fin b)).fold max ⊥ f) (funext fun k => ?_)
  exact congrArg v (funext fun ax => Fin.ext (by
    match ax with
    | ⟨0, _⟩ => rfl
    | ⟨1, _⟩ => rfl))

end Idealize.ShloMosaic.RowOps

end
-- ==== Proof.SigmoidLaw.lean ====
/-
  The one law that joins the two programs, and the float words they spell.

  On the extended reals, with `tanh ⊥ = -1`, `tanh ⊤ = 1`, `exp ⊥ = 0`, `exp ⊤ = ⊤` and the quotient
  `1 / y = y⁻¹` off zero:  ½ · (tanh (½ · s) + 1) = 1 / (1 + exp (−s))  for EVERY `s`, the infinities included.
  For a real `r`, with `a = e^{r/2} > 0`:  tanh (r/2) = (a − a⁻¹)/(a + a⁻¹), so ½ (tanh (r/2) + 1) = a/(a + a⁻¹)
  = 1/(1 + a⁻²) = 1/(1 + e^{−r}).  At `⊤` both sides are `1`, at `⊥` both are `0`.
-/
import Idealize.ShloMosaic.PureOps.Ideal

noncomputable section

namespace Cert.SigmoidLaw

open Idealize.ShloMosaic

/-- The binary32 word of `0.5` denotes the real `1/2`. -/
theorem ofBits_half : Ideal.ofBits .f32 0x3F000000#32 = ((1 / 2 : ℝ) : EReal) := by
  simp [Ideal.ofBits, Ideal.ieee, -EReal.coe_mul]; norm_num

/-- The binary32 word of `1.0` denotes `1`. -/
theorem ofBits_one : Ideal.ofBits .f32 0x3F800000#32 = (1 : EReal) := by
  simp [Ideal.ofBits, Ideal.ieee, -EReal.coe_mul]; norm_num

/-- The real identity: half of `tanh (r/2) + 1` is the logistic function of `r`. -/
theorem half_tanh_real (r : ℝ) : (1 / 2 : ℝ) * (Real.tanh ((1 / 2 : ℝ) * r) + 1) = (1 + Real.exp (-r))⁻¹ := by
  have ha : 0 < Real.exp (r / 2) := Real.exp_pos _
  have h1 : Real.exp (-(r / 2)) = (Real.exp (r / 2))⁻¹ := Real.exp_neg _
  have h2 : Real.exp (-r) = (Real.exp (r / 2))⁻¹ * (Real.exp (r / 2))⁻¹ := by
    rw [← h1, ← Real.exp_add]; congr 1; ring
  rw [show (1 / 2 : ℝ) * r = r / 2 by ring, Real.tanh_eq_sinh_div_cosh, Real.sinh_eq, Real.cosh_eq, h1, h2]
  have hne : Real.exp (r / 2) ≠ 0 := ha.ne'
  field_simp
  ring

/-- The law on all of the extended reals. -/
theorem half_tanh (s : EReal) :
    ((1 / 2 : ℝ) : EReal) * (Ideal.tanh (((1 / 2 : ℝ) : EReal) * s) + 1) = Ideal.logistic s := by
  have hpos : (0 : ℝ) < 1 / 2 := by norm_num
  induction s using EReal.rec with
  | bot =>
    rw [EReal.coe_mul_bot_of_pos hpos, Ideal.tanh_bot, Ideal.logistic_bot]
    rw [show ((-1 : EReal) + 1) = 0 by
      rw [show (-1 : EReal) = ((-1 : ℝ) : EReal) by rw [EReal.coe_neg, EReal.coe_one], ← EReal.coe_one,
        ← EReal.coe_add]; norm_num]
    exact mul_zero _
  | coe r =>
    rw [← EReal.coe_mul, Ideal.tanh_coe, ← EReal.coe_one, ← EReal.coe_add, ← EReal.coe_mul, Ideal.logistic_coe,
      half_tanh_real]
  | top =>
    rw [EReal.coe_mul_top_of_pos hpos, Ideal.tanh_top, Ideal.logistic_top]
    rw [show ((1 : EReal) + 1) = ((2 : ℝ) : EReal) by rw [← EReal.coe_one, ← EReal.coe_add]; norm_num,
      ← EReal.coe_mul]
    norm_num

end Cert.SigmoidLaw

end
-- ==== Proof.IPay.lean ====
/-
  The kernel's payload at an entry, on the extended reals: with left block `A` and right block `B` (both
  `[2048, 64]`), entry `(p, q)` of the `[2048, 2048]` result is ½·(tanh (½·s) + 1) at the inner product
  s = Σₖ A (p, k) · B (q, k) of row `p` of `A` with row `q` of `B`, which is the logistic function of `s`.
  In particular the entry depends on row `p` of `A` and row `q` of `B` only.
-/
import proofs.«180243_j86045374808276_2_alg».proof.Proof.Gen.KernelIdeal.Skeleton
import proofs.«180243_j86045374808276_2_alg».proof.Proof.LibRowOps
import proofs.«180243_j86045374808276_2_alg».proof.Proof.SigmoidLaw
import Idealize.ShloMosaic.Lib.Pipeline.Value

set_option maxRecDepth 16384

noncomputable section

namespace Cert.KernelIdeal.Hand

open Cert.KernelIdeal Cert.KernelIdeal.Gen
open Idealize.ShloMosaic Idealize.ShloMosaic.ValueIdx

/-- The matrix product inside the payload at entry `(p, q)`: rows `p` and `q` contracted. -/
theorem pay_matmul (A B : Vec Ideal S2048x64 .bf16) (p q : Fin 2048) :
    matmul (F := Ideal) (φ₁ := .bf16) (φ₂ := .bf16) dot_S2048x64_S2048x64_S2048x2048_1_1_0_0_n_n none
        (shapeCast S2048x64 A shapeCasts_S2048x64_S2048x64) (shapeCast S2048x64 B shapeCasts_S2048x64_S2048x64)
        (constant S2048x2048 .f32 0x00000000#32) (ix2 p q)
      = ∑ k : Fin 64, A (ix2 p k) * B (ix2 q k) := by
  rw [shapeCast_self, shapeCast_self]
  exact RowOps.matmulT_zero_apply dot_S2048x64_S2048x64_S2048x2048_1_1_0_0_n_n none rfl rfl
    (fun _ _ => rfl) (fun _ _ => rfl) (fun _ _ => rfl) (fun _ _ => rfl) A B p q

/-- The payload at entry `(p, q)`. -/
theorem pay_apply (A B : Vec Ideal S2048x64 .bf16) (p q : Fin 2048) :
    k0_pay1 (F := Ideal) A B (ix2 p q) = Ideal.logistic (∑ k : Fin 64, A (ix2 p k) * B (ix2 q k)) := by
  refine (show k0_pay1 (F := Ideal) A B (ix2 p q)
      = Ideal.ofBits .f32 0x3F000000#32 * (Ideal.tanh (Ideal.ofBits .f32 0x3F000000#32
          * (matmul (F := Ideal) (φ₁ := .bf16) (φ₂ := .bf16) dot_S2048x64_S2048x64_S2048x2048_1_1_0_0_n_n none
              (shapeCast S2048x64 A shapeCasts_S2048x64_S2048x64) (shapeCast S2048x64 B shapeCasts_S2048x64_S2048x64)
              (constant S2048x2048 .f32 0x00000000#32) (ix2 p q))) + Ideal.ofBits .f32 0x3F800000#32) from rfl).trans ?_
  rw [pay_matmul, Cert.SigmoidLaw.ofBits_half, Cert.SigmoidLaw.ofBits_one]
  exact Cert.SigmoidLaw.half_tanh _

/-- The payload at an entry reads one row of each block. -/
theorem pay_local (A A' B B' : Vec Ideal S2048x64 .bf16) (p q : Fin 2048)
    (hA : ∀ k : Fin 64, A (ix2 p k) = A' (ix2 p k)) (hB : ∀ k : Fin 64, B (ix2 q k) = B' (ix2 q k)) :
    k0_pay1 (F := Ideal) A B (ix2 p q) = k0_pay1 (F := Ideal) A' B' (ix2 p q) := by
  rw [pay_apply, pay_apply]
  exact congrArg Ideal.logistic (Finset.sum_congr rfl fun k _ => by rw [hA k, hB k])

end Cert.KernelIdeal.Hand

end
-- ==== Proof.IDat.lean ====
/-
  The proof data of the one launch, on the extended reals.

  At grid point `t = (i, j)` the left window holds rows `2048·i …` of the embedding array `h` (the region-entry
  contents of the staged array), the right window rows `2048·j …`; the last block of either overhangs the array's
  10000 rows and only its first 1808 rows are rows of `h`: past them the staging buffer holds words nothing names.
  The result block's entry `(p, q)` is a function of row `p` of the left block and row `q` of the right block
  alone, so the part of the result block that lies inside the result array does not depend on those words: it is
  the payload of the two blocks filled out with zeros.
-/
import proofs.«180243_j86045374808276_2_alg».proof.Proof.IHost
import proofs.«180243_j86045374808276_2_alg».proof.Proof.IBody
import proofs.«180243_j86045374808276_2_alg».proof.Proof.IPay
import proofs.«180243_j86045374808276_2_alg».proof.Proof.Gen.KernelIdeal.Points
import Idealize.ShloMosaic.Lib.Pipeline.Kit
import Idealize.ShloMosaic.Lib.Pipeline.FrameBody

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ)

/-- The left window's block at point `t`: its part inside the array, read off the region-entry contents. -/
def lblk (c : Dev nD) (t : Fin cfg0.N) : (win0_0.xblock (grid0.coords t)).Idx → Elt Ideal .bf16 :=
  (win0_0.blk t).view.read (Elt Ideal) (V m c main_v88)
/-- The right window's block at point `t`. -/
def rblk (c : Dev nD) (t : Fin cfg0.N) : (win0_1.xblock (grid0.coords t)).Idx → Elt Ideal .bf16 :=
  (win0_1.blk t).view.read (Elt Ideal) (V m c main_v88)

/-- The filler past the array's end: zero. -/
def zpad : S2048x64.Idx → Elt Ideal .bf16 := fun _ => (0 : EReal)

/-- The blocks filled out with zeros past the array's end, and the payload of those. -/
def lblkZ (c : Dev nD) (t : Fin cfg0.N) : S2048x64.Idx → Elt Ideal .bf16 :=
  win0_0.fill (grid0.coords t) zpad (lblk m c t)
def rblkZ (c : Dev nD) (t : Fin cfg0.N) : S2048x64.Idx → Elt Ideal .bf16 :=
  win0_1.fill (grid0.coords t) zpad (rblk m c t)
def oblkZ (c : Dev nD) (t : Fin cfg0.N) : S2048x2048.Idx → Elt Ideal .f32 :=
  k0_pay1 (F := Ideal) (lblkZ m c t) (rblkZ m c t)

set_option maxHeartbeats 4000000 in
/-- The proof data: the arrays at their region-entry contents; after the body the two input buffers at their
    blocks and the result's at the payload (each filled out with zeros); no invariant, nothing owed; the staged
    array's share dealt in halves to the two windows on it. -/
def dats (_ : Fin 1) (c : Dev nD) : Dat τ (Elt Ideal) Unit ℕ (UR sig nD τ) ℕ cfg0 c where
  A w := V m c (Pipeline.arrRef spec0 w)
  after w t := match w with
    | ⟨0, _⟩ => lblkZ m c t
    | ⟨1, _⟩ => rblkZ m c t
    | ⟨2, _⟩ => oblkZ m c t
  Φ _ := iprop(emp)
  q w := match w with
    | ⟨0, _⟩ => fullShare.left
    | ⟨1, _⟩ => fullShare.right
    | ⟨2, _⟩ => fullShare
  owed _ := 0

/-- The cuts of a clipped window are a function of its block index. -/
theorem clip_of_index_0 (t t' : Fin cfg0.N) (h : (cfg0.win 0).index t = (cfg0.win 0).index t') :
    (cfg0.win 0).clip (cfg0.grid.coords t) = (cfg0.win 0).clip (cfg0.grid.coords t') := by
  have h' : cc0_transform_0 (grid0.coords t) = cc0_transform_0 (grid0.coords t') := h
  funext a
  show Pipeline.Clip.of (cc0_transform_0 (grid0.coords t) a) _ _ = Pipeline.Clip.of (cc0_transform_0 (grid0.coords t') a) _ _
  rw [h']

/-- The proof data's fields, projected (never by unfolding the region-entry contents). -/
theorem A_eq (c : Dev nD) (w : Fin cfg0.W) : (dats m 0 c).A w = V m c (Pipeline.arrRef spec0 w) := by
  dsimp only [dats]
theorem after_0 (c : Dev nD) (t : Fin cfg0.N) : (dats m 0 c).after 0 t = lblkZ m c t := by dsimp only [dats]
theorem after_1 (c : Dev nD) (t : Fin cfg0.N) : (dats m 0 c).after 1 t = rblkZ m c t := by dsimp only [dats]
theorem after_2 (c : Dev nD) (t : Fin cfg0.N) : (dats m 0 c).after 2 t = oblkZ m c t := by dsimp only [dats]

/-- What the body finds in the left window's buffer, fetched at this point or kept from the point before (the
    block index then has not moved): the block, and past the array's end whatever was there. -/
theorem before_0 (c : Dev nD) (t : Fin cfg0.N) (d) :
    (dats m 0 c).before (0 : Fin 3) t d = win0_0.fill (grid0.coords t) d (lblk m c t) :=
  ((dats m 0 c).before_in_eq_fetched (0 : Fin 3) rfl (fun _ => rfl) clip_of_index_0
    (fun t => by rw [after_0]; unfold lblkZ; rw [Window.cut_fill]; unfold Dat.blockOf lblk; rw [A_eq]; try rfl) t d).trans
    (by unfold Dat.fetched Dat.blockOf lblk; rw [A_eq]; try rfl)

/-- The right window is fetched at every point. -/
theorem before_1 (c : Dev nD) (t : Fin cfg0.N) (d) :
    (dats m 0 c).before (1 : Fin 3) t d = win0_1.fill (grid0.coords t) d (rblk m c t) := by
  unfold Dat.before; rw [if_pos (fetch0_1 t)]
  unfold Dat.fetched Dat.blockOf rblk; rw [A_eq]; try rfl

/-! ## The part of the result block inside the array does not see the padding -/

/-- What is moved of the result block: as many rows as of the left block, as many columns as rows of the right
    block; the 64 lanes of an input block are never cut. -/
theorem xsize_0_0 (i : grid0.Coords) : win0_0.xsize i 0 = win0_2.xsize i 0 := rfl
theorem xsize_1_0 (i : grid0.Coords) : win0_1.xsize i 0 = win0_2.xsize i 1 := rfl
theorem xsize_0_1 (i : grid0.Coords) : win0_0.xsize i 1 = 64 := rfl
theorem xsize_1_1 (i : grid0.Coords) : win0_1.xsize i 1 = 64 := rfl

/-- A row of the left block that lies inside the array reads the block, whatever fills the buffer out. -/
theorem fill_left_row (c : Dev nD) (t : Fin cfg0.N) (d : S2048x64.Idx → Elt Ideal .bf16) (p : Fin 2048)
    (hp : p.val < win0_2.xsize (grid0.coords t) 0) (k : Fin 64) :
    win0_0.fill (grid0.coords t) d (lblk m c t) (ix2 p k) = lblkZ m c t (ix2 p k) := by
  have hm : win0_0.moved (grid0.coords t) (ix2 p k) = true := (win0_0.moved_iff _ _).mpr fun a => by
    match a with
    | ⟨0, _⟩ => exact hp
    | ⟨1, _⟩ => exact k.isLt
  unfold lblkZ Window.fill; rw [dif_pos hm, dif_pos hm]

/-- A row of the right block that lies inside the array likewise. -/
theorem fill_right_row (c : Dev nD) (t : Fin cfg0.N) (d : S2048x64.Idx → Elt Ideal .bf16) (q : Fin 2048)
    (hq : q.val < win0_2.xsize (grid0.coords t) 1) (k : Fin 64) :
    win0_1.fill (grid0.coords t) d (rblk m c t) (ix2 q k) = rblkZ m c t (ix2 q k) := by
  have hm : win0_1.moved (grid0.coords t) (ix2 q k) = true := (win0_1.moved_iff _ _).mpr fun a => by
    match a with
    | ⟨0, _⟩ => exact hq
    | ⟨1, _⟩ => exact k.isLt
  unfold rblkZ Window.fill; rw [dif_pos hm, dif_pos hm]

/-- The result block's part inside the array is the payload of the zero-filled blocks' part there: entry
    `(p, q)` reads row `p` of the left block and row `q` of the right block, both inside their arrays. -/
theorem cut_out (c : Dev nD) (t : Fin cfg0.N) (d0 d1 : S2048x64.Idx → Elt Ideal .bf16) :
    win0_2.cut (grid0.coords t)
        (k0_pay1 (F := Ideal) (win0_0.fill (grid0.coords t) d0 (lblk m c t)) (win0_1.fill (grid0.coords t) d1 (rblk m c t)))
      = win0_2.cut (grid0.coords t) (oblkZ m c t) := by
  funext j
  have h0 : (j 0).val < win0_2.xsize (grid0.coords t) 0 := (j 0).isLt
  have h1 : (j 1).val < win0_2.xsize (grid0.coords t) 1 := (j 1).isLt
  have l0 : win0_2.xsize (grid0.coords t) 0 ≤ 2048 := win0_2.xsize_le (grid0.coords t) 0
  have l1 : win0_2.xsize (grid0.coords t) 1 ≤ 2048 := win0_2.xsize_le (grid0.coords t) 1
  have hj : win0_2.xinj (grid0.coords t) j
      = ix2 (⟨(j 0).val, lt_of_lt_of_le h0 l0⟩ : Fin 2048) (⟨(j 1).val, lt_of_lt_of_le h1 l1⟩ : Fin 2048) :=
    funext fun a => by match a with | ⟨0, _⟩ => rfl | ⟨1, _⟩ => rfl
  show k0_pay1 (F := Ideal) _ _ (win0_2.xinj (grid0.coords t) j) = oblkZ m c t (win0_2.xinj (grid0.coords t) j)
  rw [hj]; unfold oblkZ
  exact pay_local _ _ _ _ _ _ (fun k => fill_left_row m c t d0 _ h0 k) (fun k => fill_right_row m c t d1 _ h1 k)

end Cert.KernelIdeal.Hand

end
-- ==== Proof.ISplit.lean ====
/-
  The launch hands the region the two DISTINCT buffers behind its three windows' arrays, each whole at the full
  share. The embedding array is staged by two windows, so its one points-to is cut along the share into a left
  and a right half, one per window; the result array goes whole to the third window.
-/
import proofs.«180243_j86045374808276_2_alg».proof.Proof.Gen.KernelIdeal.Launch
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf arrRef arrBufs)

variable {F : FTy → Type} [FloatOps F]

local notation "𝕄" => MT nD τ sig Unit (Elt F) ℕ (UR sig nD τ) ℕ

/-- The windows' arrays are two buffers: the embeddings (read by both input windows) and the result. -/
theorem arrImage : Finset.univ.image (arrRef spec0) = ([main_v88, main_v89] : List (Ref sig .tc)).toFinset := by decide

set_option maxHeartbeats 4000000 in
/-- The buffers behind the arrays at contents `Vc` make the windows' arrays at the same contents, when the two
    windows on the shared array hold its left and right half share. -/
theorem arrays_of_bufs (c : Dev nD) (Vc : (b : Ref sig .tc) → Buf (Elt F) ((c.tc : Thread nD τ).loc b))
    (dat : Dat τ (Elt F) Unit ℕ (UR sig nD τ) ℕ cfg0 c)
    (hq0 : dat.q 0 = fullShare.left) (hq1 : dat.q 1 = fullShare.right)
    (Fw : (w : Fin cfg0.W) → Buf (Elt F) ((cfg0.win w).arr.view.loc (c.tc : Thread nD τ)))
    (hF : ∀ w, Fw w = Vc (arrRef spec0 w)) :
    (arrBufs spec0 c Vc : sProp 𝕄) ⊢ dat.arrays Fw := by
  unfold arrBufs Dat.arrays
  rw [BI.bigSep_eq_bigSepL_of_eq [main_v88, main_v89] arrImage (by decide), bigSep_W0]
  rw [(arr_whole0 0).set_eq_univ, (arr_whole0 2).set_eq_univ]
  rw [show dat.share 0 = dat.q 0 from rfl, show dat.share 1 = dat.q 1 from rfl, show dat.share 2 = fullShare from rfl,
    hq0, hq1, hF 0, hF 1, hF 2]
  show iprop((_ ↦{fullShare} Vc main_v88) ∗ (_ ↦{fullShare} Vc main_v89)) ⊢ _
  iintro ⟨H88, H89⟩
  ihave H := (pointsTo_share (PosShare.mem_left_op_right fullShare)).1 $$ H88
  icases H with ⟨Hl, Hr⟩
  isplitl [Hl]; · iexact Hl
  isplitl [Hr]; · iexact Hr
  iexact H89

end Cert.KernelIdeal.Hand

end
-- ==== Proof.IRun.lean ====
/-
  The idealized kernel's run: the body obligation at every grid point, and the launch.

  At a point the body is handed the two input buffers at their blocks (whatever fills them out past the array's
  end) and the result's buffer at anything. It leaves the inputs as found and the result's buffer at the payload of
  what the inputs held; on the part inside the result array that is the payload of the zero-filled blocks, which is
  all the obligation of a clipped window states.
-/
import proofs.«180243_j86045374808276_2_alg».proof.Proof.IDat
import proofs.«180243_j86045374808276_2_alg».proof.Proof.ISplit
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf arrRef arrBufs restRefs unscopedRest)

local notation "𝕄" => MT nD τ sig Unit (Elt Ideal) ℕ (UR sig nD τ) ℕ

/-- The proof's resource algebra: the pipeline library's. -/
abbrev EP : Emb (UR sig nD τ) (MT nD τ sig Unit (Elt Ideal) ℕ (UR sig nD τ) ℕ) := emb₁

variable (m : (ℓ : Loc nD τ sig) → Buf (Elt Ideal) ℓ) (ρ : Dev nD → PrngReg)

/-- The kernel's variants: none. -/
abbrev 𝒱₀ : Variants := Variants.none

/-- An input buffer is handed back as found: on the part inside the array, its block. -/
theorem keep_left (c : Dev nD) (t : Fin cfg0.N) (d : S2048x64.Idx → Elt Ideal .bf16) :
    win0_0.fill (grid0.coords t) d (win0_0.cut (grid0.coords t) (lblkZ m c t)) = win0_0.fill (grid0.coords t) d (lblk m c t) := by
  unfold lblkZ; rw [Window.cut_fill]
theorem keep_right (c : Dev nD) (t : Fin cfg0.N) (d : S2048x64.Idx → Elt Ideal .bf16) :
    win0_1.fill (grid0.coords t) d (win0_1.cut (grid0.coords t) (rblkZ m c t)) = win0_1.fill (grid0.coords t) d (rblk m c t) := by
  unfold rblkZ; rw [Window.cut_fill]
/-- The result buffer: what the body stored agrees, inside the array, with the payload of the zero-filled blocks. -/
theorem keep_out (c : Dev nD) (t : Fin cfg0.N) (d0 d1 : S2048x64.Idx → Elt Ideal .bf16) :
    win0_2.fill (grid0.coords t)
        (outBlock (F := Ideal) (win0_0.fill (grid0.coords t) d0 (lblk m c t)) (win0_1.fill (grid0.coords t) d1 (rblk m c t)))
        (win0_2.cut (grid0.coords t) (oblkZ m c t))
      = outBlock (F := Ideal) (win0_0.fill (grid0.coords t) d0 (lblk m c t)) (win0_1.fill (grid0.coords t) d1 (rblk m c t)) := by
  rw [← cut_out m c t d0 d1, ← outBlock_eq]; exact win0_2.fill_cut _ _

set_option maxHeartbeats 8000000 in
/-- The body obligation at every point. -/
theorem body_obligation (c : Dev nD) : BodyObligationLoose (dats m 0 c) (defs₀ (F := Ideal)) 𝒱₀ () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  rw [after_0, after_1, after_2]
  iintro ⟨HΦ, Ho, ⟨%d0, H0⟩, ⟨%d1, H1⟩, ⟨%d2, H2⟩⟩
  rw [before_0 m c t d0, before_1 m c t d1]
  iapply (sound_kernel (F := Ideal) c Set.univ (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_0.fill (grid0.coords t) d0 (lblk m c t)) (win0_1.fill (grid0.coords t) d1 (rblk m c t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0
    change _ ⊢ owns (c : Thread nD τ) (win0_0.stage (cfg0.slots t 0)) fullShare
      (win0_0.fill (grid0.coords t) d0 (win0_0.cut (grid0.coords t) (lblkZ m c t)))
    rw [keep_left]; try iexact H0
  isplitl [H1]
  · iexists d1
    change _ ⊢ owns (c : Thread nD τ) (win0_1.stage (cfg0.slots t 1)) fullShare
      (win0_1.fill (grid0.coords t) d1 (win0_1.cut (grid0.coords t) (rblkZ m c t)))
    rw [keep_right]; try iexact H1
  · iexists outBlock (F := Ideal) (win0_0.fill (grid0.coords t) d0 (lblk m c t)) (win0_1.fill (grid0.coords t) d1 (rblk m c t))
    change _ ⊢ owns (c : Thread nD τ) (win0_2.stage (cfg0.slots t 2)) fullShare
      (win0_2.fill (grid0.coords t)
        (outBlock (F := Ideal) (win0_0.fill (grid0.coords t) d0 (lblk m c t)) (win0_1.fill (grid0.coords t) d1 (rblk m c t)))
        (win0_2.cut (grid0.coords t) (oblkZ m c t)))
    rw [keep_out]; try iexact H2

/-! ## The launch -/

set_option maxHeartbeats 8000000 in
/-- Every weakly fair execution of the idealized kernel program terminates, faulting nowhere, with each window's
    array at what the proof data compute for it after the last write-back, and every buffer no window stages at
    its region-entry contents. -/
theorem run_main : θ_run defs (onTc (τ := τ) (main (F := Ideal))) ⟨m, fun _ => 0, ρ⟩ (fun r => ∀ c : Dev nD,
    (∀ w, r.2.mem ((spec0 w).arr.view.loc (c.tc : Thread nD τ)) = (dats m 0 c).arrAt w cfg0.N)
    ∧ ∀ b ∈ restRefs sig spec0, r.2.mem ((c.tc : Thread nD τ).loc b) = V m c b) :=
  Pipeline.θ_run_region_noSem_shared cfgs (dats m) () cellOf_inj (0 : Fin 1) winFacts₀0 EP defs₀ 𝒱₀ m ρ main
    (hbody := body_obligation m) (hne := block_pos0) (harr := arr_whole0) (hstage := stage_whole0)
    (howed := fun _ _ => rfl)
    (u₀ := initOf (Pipeline.cells cfgs cellOf_inj) (Pipeline.launchToks cfgs cellOf_inj)) (hu₀ := BI.Entails.refl _)
    (V := V m) (hmain := hmain m 𝒱₀)
    (hsplit := fun c => arrays_of_bufs c (V m c) (dats m 0 c) (by dsimp only [dats]) (by dsimp only [dats]) _
      (fun w => A_eq m c w))
    (X := fun _ => iprop(emp)) (Y := fun _ => iprop(emp)) (Z := fun c => unscopedRest spec0 c (V m c))
    (hX := fun c => by
      iintro H
      isplitr
      · iempintro
      · iexact H)
    (hin := fun _ => by rw [scopedRest0_eq]; iintro ⟨-, -⟩; iempintro)
    (hout := fun _ => by rw [scopedRest0_eq]; iintro -; isplitr <;> iempintro)
    (QY := fun c s => ∀ b ∈ restRefs sig spec0, s.mem ((c.tc : Thread nD τ).loc b) = V m c b)
    (hY := fun c s' => by
      iintro ⟨-, HU, HSI⟩
      unfold unscopedRest
      imodintro
      iapply (pointsTo_read_all (restRefs sig spec0) (fun b => (c.tc : Thread nD τ).loc b) (V m c) s')
      isplitl [HU] <;> iassumption)
    (hQ := fun _ h => h)

end Cert.KernelIdeal.Hand

end
-- ==== Proof.OuterSpec.lean ====
/-
  The result both programs compute, as one function of the node-embedding array `h : [10000, 64]`:
  entry `(p, q)` of the `[10000, 10000]` result is the logistic function of the inner product of rows `p` and `q`
  of `h`,  G h (p, q) = 1 / (1 + exp (− Σₖ h (p, k) · h (q, k))),  on the extended reals.
-/
import Idealize.ShloMosaic.PureOps.Ideal
import Idealize.ShloMosaic.Lib.ValueIdx

noncomputable section

namespace Cert.OuterSpec

open Idealize.ShloMosaic Idealize.ShloMosaic.ValueIdx

/-- The inner product of rows `p` and `q` of `h`. -/
def rowDot (h : (⟨2, ![10000, 64]⟩ : Shape).Idx → EReal) (p q : Fin 10000) : EReal :=
  ∑ k : Fin 64, h (ix2 p k) * h (ix2 q k)

/-- Entry `(p, q)` of the result. -/
def Gpq (h : (⟨2, ![10000, 64]⟩ : Shape).Idx → EReal) (p q : Fin 10000) : EReal :=
  Ideal.logistic (rowDot h p q)

/-- The whole result array. -/
def G (h : (⟨2, ![10000, 64]⟩ : Shape).Idx → EReal) : (⟨2, ![10000, 10000]⟩ : Shape).Idx → EReal :=
  fun i => Gpq h (show Fin 10000 from i 0) (show Fin 10000 from i 1)

theorem G_ix2 (h : (⟨2, ![10000, 64]⟩ : Shape).Idx → EReal) (p q : Fin 10000) : G h (ix2 p q) = Gpq h p q := rfl

end Cert.OuterSpec

end
-- ==== Proof.IFinalA.lean ====
/-
  The blocks of the result, read entry by entry off the embeddings.

  Grid point `t = (a, b)` holds rows `2048·a …` of the embeddings `h` in its left block and rows `2048·b …` in its
  right block; entry `(p, q)` of its result block, inside the array, is the logistic function of the inner product
  of rows `2048·a + p` and `2048·b + q` of `h`: entry `(2048·a + p, 2048·b + q)` of the one array
  G h (P, Q) = logistic (Σₖ h (P, k) · h (Q, k)).
-/
import proofs.«180243_j86045374808276_2_alg».proof.Proof.IDat
import proofs.«180243_j86045374808276_2_alg».proof.Proof.OuterSpec
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- The embeddings as the region finds them. -/
def hK (c : Dev nD) : (⟨2, ![10000, 64]⟩ : Shape).Idx → EReal := V m c main_v88

/-- Where the blocks sit and how much of each lies inside the array, decided over the 25 grid points. -/
theorem idx_facts : ∀ t : Fin cfg0.N, win0_2.index t 0 = t.val / 5 ∧ win0_2.index t 1 = t.val % 5
    ∧ win0_2.xsize (grid0.coords t) 0 = min 2048 (10000 - (t.val / 5) * 2048)
    ∧ win0_2.xsize (grid0.coords t) 1 = min 2048 (10000 - (t.val % 5) * 2048) :=
  (by decide +kernel : ∀ t : Fin grid0.N, win0_2.index t 0 = t.val / 5 ∧ win0_2.index t 1 = t.val % 5
    ∧ win0_2.xsize (grid0.coords t) 0 = min 2048 (10000 - (t.val / 5) * 2048)
    ∧ win0_2.xsize (grid0.coords t) 1 = min 2048 (10000 - (t.val % 5) * 2048))

set_option maxHeartbeats 4000000 in
/-- Row `p` of the zero-filled left block, inside the array, is row `2048·a + p` of the embeddings. -/
theorem lblkZ_row (c : Dev nD) (t : Fin cfg0.N) (p : Fin 2048) (hp : p.val < win0_2.xsize (grid0.coords t) 0)
    (k : Fin 64) (P : Fin 10000) (hP : P.val = win0_2.index t 0 * 2048 + p.val) :
    lblkZ m c t (ix2 p k) = hK m c (ix2 P k) := by
  have hm : win0_0.moved (grid0.coords t) (ix2 p k) = true := (win0_0.moved_iff _ _).mpr fun a => by
    match a with
    | ⟨0, _⟩ => exact hp
    | ⟨1, _⟩ => exact k.isLt
  unfold lblkZ Window.fill; rw [dif_pos hm]
  unfold lblk hK; rw [View.read_apply]
  refine congrArg (V m c main_v88) (funext fun a => Fin.ext ?_)
  match a with
  | ⟨0, _⟩ =>
    show win0_0.index t 0 * 2048 + 1 * p.val = P.val
    have e : win0_0.index t 0 = win0_2.index t 0 := rfl
    omega
  | ⟨1, _⟩ =>
    show win0_0.index t 1 * 64 + 1 * k.val = k.val
    have e : win0_0.index t 1 = 0 := rfl
    omega

set_option maxHeartbeats 4000000 in
/-- Row `q` of the zero-filled right block, inside the array, is row `2048·b + q` of the embeddings. -/
theorem rblkZ_row (c : Dev nD) (t : Fin cfg0.N) (q : Fin 2048) (hq : q.val < win0_2.xsize (grid0.coords t) 1)
    (k : Fin 64) (Q : Fin 10000) (hQ : Q.val = win0_2.index t 1 * 2048 + q.val) :
    rblkZ m c t (ix2 q k) = hK m c (ix2 Q k) := by
  have hm : win0_1.moved (grid0.coords t) (ix2 q k) = true := (win0_1.moved_iff _ _).mpr fun a => by
    match a with
    | ⟨0, _⟩ => exact hq
    | ⟨1, _⟩ => exact k.isLt
  unfold rblkZ Window.fill; rw [dif_pos hm]
  unfold rblk hK; rw [View.read_apply]
  refine congrArg (V m c main_v88) (funext fun a => Fin.ext ?_)
  match a with
  | ⟨0, _⟩ =>
    show win0_1.index t 0 * 2048 + 1 * q.val = Q.val
    have e : win0_1.index t 0 = win0_2.index t 1 := rfl
    omega
  | ⟨1, _⟩ =>
    show win0_1.index t 1 * 64 + 1 * k.val = k.val
    have e : win0_1.index t 1 = 0 := rfl
    omega

/-- Entry `(p, q)` of the zero-filled blocks' payload, inside the array: the logistic function of the inner product
    of rows `2048·a + p` and `2048·b + q` of the embeddings. -/
theorem oblkZ_apply (c : Dev nD) (t : Fin cfg0.N) (p q : Fin 2048)
    (hp : p.val < win0_2.xsize (grid0.coords t) 0) (hq : q.val < win0_2.xsize (grid0.coords t) 1)
    (P Q : Fin 10000) (hP : P.val = win0_2.index t 0 * 2048 + p.val) (hQ : Q.val = win0_2.index t 1 * 2048 + q.val) :
    oblkZ m c t (ix2 p q) = Ideal.logistic (∑ k : Fin 64, hK m c (ix2 P k) * hK m c (ix2 Q k)) := by
  unfold oblkZ; rw [pay_apply]
  exact congrArg Ideal.logistic (Finset.sum_congr rfl fun k _ => by
    rw [lblkZ_row m c t p hp k P hP, rblkZ_row m c t q hq k Q hQ])

/-- `G h` at an index whose coordinates are `P` and `Q`. -/
theorem G_at (h : (⟨2, ![10000, 64]⟩ : Shape).Idx → EReal) (i : (⟨2, ![10000, 10000]⟩ : Shape).Idx) (P Q : Fin 10000)
    (hP : (i 0).val = P.val) (hQ : (i 1).val = Q.val) :
    Cert.OuterSpec.G h i = Ideal.logistic (∑ k : Fin 64, h (ix2 P k) * h (ix2 Q k)) := by
  have e : i = ix2 P Q := funext fun a => Fin.ext (by
    match a with
    | ⟨0, _⟩ => exact hP
    | ⟨1, _⟩ => exact hQ)
  rw [e]; rfl

end Cert.KernelIdeal.Hand

end
-- ==== Proof.IFinal.lean ====
/-
  The result array after the run: what each grid point writes back is a block of one array `G h`, and the 25 clipped
  blocks cover the `10000 × 10000` array, so it ends holding `G h`.
-/
import proofs.«180243_j86045374808276_2_alg».proof.Proof.IFinalA
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- Entry `(p, q)` of the zero-filled blocks' payload is `G h` at any index of the array whose coordinates are
    `2048·a + p` and `2048·b + q`. -/
theorem out_at (c : Dev nD) (t : Fin cfg0.N) (p q : Fin 2048)
    (hp : p.val < win0_2.xsize (grid0.coords t) 0) (hq : q.val < win0_2.xsize (grid0.coords t) 1)
    (i : (⟨2, ![10000, 10000]⟩ : Shape).Idx)
    (e0 : (i 0).val = win0_2.index t 0 * 2048 + p.val) (e1 : (i 1).val = win0_2.index t 1 * 2048 + q.val) :
    oblkZ m c t (ix2 p q) = Cert.OuterSpec.G (hK m c) i := by
  rw [G_at (hK m c) i ⟨(i 0).val, (i 0).isLt⟩ ⟨(i 1).val, (i 1).isLt⟩ rfl rfl]
  exact oblkZ_apply m c t p q hp hq ⟨(i 0).val, (i 0).isLt⟩ ⟨(i 1).val, (i 1).isLt⟩ e0 e1

set_option maxHeartbeats 4000000 in
set_option maxRecDepth 1000000 in
/-- What point `t` writes back is block `t` of `G h`. -/
theorem flushed_eq (c : Dev nD) (t : Fin cfg0.N) :
    (dats m 0 c).flushed 2 t = ((cfg0.win 2).blk t).view.read (Elt Ideal) (Cert.OuterSpec.G (hK m c)) := by
  show win0_2.cut (grid0.coords t) ((dats m 0 c).after 2 t) = _
  rw [after_2]
  funext j
  rw [View.read_apply]
  have h0 : (j 0).val < win0_2.xsize (grid0.coords t) 0 := (j 0).isLt
  have h1 : (j 1).val < win0_2.xsize (grid0.coords t) 1 := (j 1).isLt
  have l0 : win0_2.xsize (grid0.coords t) 0 ≤ 2048 := win0_2.xsize_le (grid0.coords t) 0
  have l1 : win0_2.xsize (grid0.coords t) 1 ≤ 2048 := win0_2.xsize_le (grid0.coords t) 1
  have hj : win0_2.xinj (grid0.coords t) j
      = ix2 (⟨(j 0).val, lt_of_lt_of_le h0 l0⟩ : Fin 2048) (⟨(j 1).val, lt_of_lt_of_le h1 l1⟩ : Fin 2048) :=
    funext fun a => by match a with | ⟨0, _⟩ => rfl | ⟨1, _⟩ => rfl
  show oblkZ m c t (win0_2.xinj (grid0.coords t) j) = _
  rw [hj]
  have e0 : ((((cfg0.win 2).blk t).view.emb j) 0).val = win0_2.index t 0 * 2048 + (j 0).val := by
    show win0_2.index t 0 * 2048 + 1 * (j 0).val = _; omega
  have e1 : ((((cfg0.win 2).blk t).view.emb j) 1).val = win0_2.index t 1 * 2048 + (j 1).val := by
    show win0_2.index t 1 * 2048 + 1 * (j 1).val = _; omega
  have key := out_at m c t (⟨(j 0).val, lt_of_lt_of_le h0 l0⟩ : Fin 2048) (⟨(j 1).val, lt_of_lt_of_le h1 l1⟩ : Fin 2048) h0 h1
  have key2 := key (((cfg0.win 2).blk t).view.emb j)
  have key3 := key2 e0
  exact key3 e1

/-- An index of the result array lies in point `t`'s block iff, on each axis, it lies among the block's
    coordinates inside the array. -/
theorem mem_blk (t : Fin cfg0.N) (i : S10000x10000.Idx) :
    i ∈ ((cfg0.win 2).blk t).view.set ↔
      ∀ a, win0_2.index t a * win0_2.size a ≤ (i a).val ∧ (i a).val < win0_2.index t a * win0_2.size a + win0_2.xsize (grid0.coords t) a := by
  show i ∈ ((View.whole main_v89).slice (win0_2.rect t)).set ↔ _
  rw [View.set_slice_whole, Rect.mem_set_unit]; first | done | exact Iff.rfl

/-- The blocks cover the array: index `(P, Q)` lies in the block of point `(P / 2048, Q / 2048)`. -/
theorem cover (i : S10000x10000.Idx) :
    ∃ t : Fin cfg0.N, (cfg0.win 2).flush t = true ∧ i ∈ ((cfg0.win 2).blk t).view.set := by
  have hi0 : (i 0).val < 10000 := (i 0).isLt
  have hi1 : (i 1).val < 10000 := (i 1).isLt
  refine ⟨⟨(i 0).val / 2048 * 5 + (i 1).val / 2048, by show _ < 25; omega⟩, flush0_2 _, ?_⟩
  rw [mem_blk]
  obtain ⟨f0, f1, f2, f3⟩ := idx_facts ⟨(i 0).val / 2048 * 5 + (i 1).val / 2048, by show _ < 25; omega⟩
  intro a
  match a with
  | ⟨0, _⟩ =>
    show win0_2.index _ 0 * 2048 ≤ (i 0).val ∧ (i 0).val < win0_2.index _ 0 * 2048 + win0_2.xsize _ 0
    rw [f0, f2]; simp only; omega
  | ⟨1, _⟩ =>
    show win0_2.index _ 1 * 2048 ≤ (i 1).val ∧ (i 1).val < win0_2.index _ 1 * 2048 + win0_2.xsize _ 1
    rw [f1, f3]; simp only; omega

/-- The result array ends holding `G h`. -/
theorem final_out (c : Dev nD) : (dats m 0 c).arrAt 2 cfg0.N = Cert.OuterSpec.G (hK m c) :=
  (dats m 0 c).arrAt_eq_of_cover 2 (Cert.OuterSpec.G (hK m c)) (fun t _ => flushed_eq m c t) cover

end Cert.KernelIdeal.Hand

end
-- ==== Proof.IClaims.lean ====
/-
  The idealized kernel's run, read at the result and at the six arguments: the result array ends holding
  `G h` (`h` the embeddings as the region finds them), and no argument array is staged by a window or written by a
  host line, so each ends as it started.
-/
import proofs.«180243_j86045374808276_2_alg».proof.Defs
import proofs.«180243_j86045374808276_2_alg».proof.Proof.IRun
import proofs.«180243_j86045374808276_2_alg».proof.Proof.IFinal

set_option maxRecDepth 16384

noncomputable section

namespace Cert.KernelIdeal.Hand

open Cert.KernelIdeal Cert.KernelIdeal.Gen
open Idealize.ShloMosaic Idealize.ShloMosaic.TcCoe
open Idealize.SL Idealize.SL.Sem

variable (m : (ℓ : Loc nD τ sig) → Buf (Elt Ideal) ℓ) (ρ : Dev nD → PrngReg)

set_option maxHeartbeats 4000000 in
/-- The run with its result named and its arguments unchanged. -/
theorem value_run : θ_run (Cert.KernelIdeal.defs (F := Ideal)) (onTc (τ := Cert.KernelIdeal.τ) (Cert.KernelIdeal.main (F := Ideal)))
    ⟨m, fun _ => 0, ρ⟩ (fun r => ∀ c : Dev Cert.KernelIdeal.nD,
      r.2.mem ((c.tc : Thread Cert.KernelIdeal.nD Cert.KernelIdeal.τ).loc Cert.KernelIdeal.main_v89) = Cert.OuterSpec.G (hK m c)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) :=
  (θ_run Cert.KernelIdeal.defs _ _).mono (fun _ h c =>
    ⟨((h c).1 2).trans (final_out m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩)
    (run_main m ρ)

end Cert.KernelIdeal.Hand

end
-- ==== Proof.RefOps.lean ====
/-
  The reference program as a straight line of array operations, in two parts.

  The first part forms the node embeddings `h : [10000, 64]`: two rounds, each a linear map, a sum over neighbours weighted
  by the inverse square roots of the two end degrees, and a bias, with a maximum with zero between the rounds.  The second part forms, from `h` alone, the array whose entry `(p, q)` is
  1 / (1 + exp (− Σₖ h (p, k) · h (q, k))):  transpose, contraction over the 64 columns, negation, exponential, the
  sum with one and the quotient of one by it.  Running the line leaves every argument array as it was.
-/
import proofs.«180243_j86045374808276_2_alg».proof.Defs
import proofs.«180243_j86045374808276_2_alg».proof.Proof.Gen.ReferenceIdeal
import proofs.«180243_j86045374808276_2_alg».proof.Proof.Gen.Pre_finite_inputs
import Idealize.ShloMosaic.Lib.StableHlo.Run
import Idealize.ShloMosaic.Lib.Pipeline.Frame

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- The operations that form the node embeddings, in order. -/
abbrev headOps : List (HloOp τ sig (Elt F)) :=
  [ nullary main_v0 (iotaInDim S10000 32 0),
    unary main_arg1 main_v1 ((extractStridedSlice S1x320000 ![0, 0] · slices_S2x320000_S1x320000_0_0) : (⟨S2x320000, .i32⟩ : BufTy).Contents (Elt F) → (⟨S1x320000, .i32⟩ : BufTy).Contents (Elt F)),
    reshape main_v1 main_v2 rfl shapeCasts_S1x320000_S320000,
    binary main_v2 main_v0 main_v3 ((fun a b => concatenate S330000 0 [⟨S320000, a⟩, ⟨S10000, b⟩] concatenates_S320000_S10000_S330000_d0) : (⟨S320000, .i32⟩ : BufTy).Contents (Elt F) → (⟨S10000, .i32⟩ : BufTy).Contents (Elt F) → (⟨S330000, .i32⟩ : BufTy).Contents (Elt F)),
    unary main_arg1 main_v4 ((extractStridedSlice S1x320000 ![1, 0] · slices_S2x320000_S1x320000_1_0) : (⟨S2x320000, .i32⟩ : BufTy).Contents (Elt F) → (⟨S1x320000, .i32⟩ : BufTy).Contents (Elt F)),
    reshape main_v4 main_v5 rfl shapeCasts_S1x320000_S320000,
    binary main_v5 main_v0 main_v6 ((fun a b => concatenate S330000 0 [⟨S320000, a⟩, ⟨S10000, b⟩] concatenates_S320000_S10000_S330000_d0) : (⟨S320000, .i32⟩ : BufTy).Contents (Elt F) → (⟨S10000, .i32⟩ : BufTy).Contents (Elt F) → (⟨S330000, .i32⟩ : BufTy).Contents (Elt F)),
    binary main_arg0 main_arg2 main_v7 ((fun l r => Host.dotGeneral dot_S10000x128_S128x64_S10000x64_1_0_0_1_n_n none l r) : (⟨S10000x128, .f32⟩ : BufTy).Contents (Elt F) → (⟨S128x64, .f32⟩ : BufTy).Contents (Elt F) → (⟨S10000x64, .f32⟩ : BufTy).Contents (Elt F)),
    nullary main_cst (constant S_ .f32 0x3F800000#32),
    unary main_cst main_v8 (broadcastInDim S330000 ![] bcast_S_S330000 : (⟨S_, .f32⟩ : BufTy).Contents (Elt F) → (⟨S330000, .f32⟩ : BufTy).Contents (Elt F)),
    nullary main_cst_0 (constant S_ .f32 0x00000000#32),
    unary main_cst_0 main_v9 (broadcastInDim S10000 ![] bcast_S_S10000 : (⟨S_, .f32⟩ : BufTy).Contents (Elt F) → (⟨S10000, .f32⟩ : BufTy).Contents (Elt F)),
    unary main_v6 main_v10 (broadcastInDim S330000x1 ![0] bcast_S330000_S330000x1_0 : (⟨S330000, .i32⟩ : BufTy).Contents (Elt F) → (⟨S330000x1, .i32⟩ : BufTy).Contents (Elt F)),
    ternary main_v9 main_v10 main_v8 main_v11 ((fun x i u => Host.scatterAdd scatter_S10000_S330000x1_S330000_n_0_0_1 x i u) : (⟨S10000, .f32⟩ : BufTy).Contents (Elt F) → (⟨S330000x1, .i32⟩ : BufTy).Contents (Elt F) → (⟨S330000, .f32⟩ : BufTy).Contents (Elt F) → (⟨S10000, .f32⟩ : BufTy).Contents (Elt F)),
    nullary main_cst_1 (constant S_ .f32 0x00000000#32),
    unary main_cst_1 main_v12 (broadcastInDim S10000 ![] bcast_S_S10000 : (⟨S_, .f32⟩ : BufTy).Contents (Elt F) → (⟨S10000, .f32⟩ : BufTy).Contents (Elt F)),
    binary main_v11 main_v12 main_v13 (cmpf .ogt : (⟨S10000, .f32⟩ : BufTy).Contents (Elt F) → (⟨S10000, .f32⟩ : BufTy).Contents (Elt F) → (⟨S10000, .i1⟩ : BufTy).Contents (Elt F)),
    unary main_v11 main_v14 (Host.rsqrt : (⟨S10000, .f32⟩ : BufTy).Contents (Elt F) → (⟨S10000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S10000, .f32⟩) main_call0_v1) (broadcastInDim S10000 ![] bcast_S_S10000),
    TRef.ternary (TRef.of (T := ⟨S10000, .i1⟩) main_v13) (TRef.of (T := ⟨S10000, .f32⟩) main_v14) (TRef.of (T := ⟨S10000, .f32⟩) main_call0_v1) (TRef.of (T := ⟨S10000, .f32⟩) main_v15) select,
    nullary main_c (constantI S_ 32 0#32),
    unary main_c main_v16 (broadcastInDim S330000 ![] bcast_S_S330000 : (⟨S_, .i32⟩ : BufTy).Contents (Elt F) → (⟨S330000, .i32⟩ : BufTy).Contents (Elt F)),
    binary main_v3 main_v16 main_v17 (cmpi .slt : (⟨S330000, .i32⟩ : BufTy).Contents (Elt F) → (⟨S330000, .i32⟩ : BufTy).Contents (Elt F) → (⟨S330000, .i1⟩ : BufTy).Contents (Elt F)),
    nullary main_c_3 (constantI S_ 32 10000#32),
    unary main_c_3 main_v18 (broadcastInDim S330000 ![] bcast_S_S330000 : (⟨S_, .i32⟩ : BufTy).Contents (Elt F) → (⟨S330000, .i32⟩ : BufTy).Contents (Elt F)),
    binary main_v3 main_v18 main_v19 (addi : (⟨S330000, .i32⟩ : BufTy).Contents (Elt F) → (⟨S330000, .i32⟩ : BufTy).Contents (Elt F) → (⟨S330000, .i32⟩ : BufTy).Contents (Elt F)),
    ternary main_v17 main_v19 main_v3 main_v20 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    unary main_v20 main_v21 (broadcastInDim S330000x1 ![0] bcast_S330000_S330000x1_0 : (⟨S330000, .i32⟩ : BufTy).Contents (Elt F) → (⟨S330000x1, .i32⟩ : BufTy).Contents (Elt F)),
    binary main_v15 main_v21 main_v22 ((fun x i => Host.gather gather_S10000_S330000x1_S330000_n_0_n_n_0_1_1 x i) : (⟨S10000, .f32⟩ : BufTy).Contents (Elt F) → (⟨S330000x1, .i32⟩ : BufTy).Contents (Elt F) → (⟨S330000, .f32⟩ : BufTy).Contents (Elt F)),
    nullary main_c_4 (constantI S_ 32 0#32),
    unary main_c_4 main_v23 (broadcastInDim S330000 ![] bcast_S_S330000 : (⟨S_, .i32⟩ : BufTy).Contents (Elt F) → (⟨S330000, .i32⟩ : BufTy).Contents (Elt F)),
    binary main_v6 main_v23 main_v24 (cmpi .slt : (⟨S330000, .i32⟩ : BufTy).Contents (Elt F) → (⟨S330000, .i32⟩ : BufTy).Contents (Elt F) → (⟨S330000, .i1⟩ : BufTy).Contents (Elt F)),
    nullary main_c_5 (constantI S_ 32 10000#32),
    unary main_c_5 main_v25 (broadcastInDim S330000 ![] bcast_S_S330000 : (⟨S_, .i32⟩ : BufTy).Contents (Elt F) → (⟨S330000, .i32⟩ : BufTy).Contents (Elt F)),
    binary main_v6 main_v25 main_v26 (addi : (⟨S330000, .i32⟩ : BufTy).Contents (Elt F) → (⟨S330000, .i32⟩ : BufTy).Contents (Elt F) → (⟨S330000, .i32⟩ : BufTy).Contents (Elt F)),
    ternary main_v24 main_v26 main_v6 main_v27 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    unary main_v27 main_v28 (broadcastInDim S330000x1 ![0] bcast_S330000_S330000x1_0 : (⟨S330000, .i32⟩ : BufTy).Contents (Elt F) → (⟨S330000x1, .i32⟩ : BufTy).Contents (Elt F)),
    binary main_v15 main_v28 main_v29 ((fun x i => Host.gather gather_S10000_S330000x1_S330000_n_0_n_n_0_1_1 x i) : (⟨S10000, .f32⟩ : BufTy).Contents (Elt F) → (⟨S330000x1, .i32⟩ : BufTy).Contents (Elt F) → (⟨S330000, .f32⟩ : BufTy).Contents (Elt F)),
    binary main_v22 main_v29 main_v30 (mulf : (⟨S330000, .f32⟩ : BufTy).Contents (Elt F) → (⟨S330000, .f32⟩ : BufTy).Contents (Elt F) → (⟨S330000, .f32⟩ : BufTy).Contents (Elt F)),
    nullary main_c_6 (constantI S_ 32 0#32),
    unary main_c_6 main_v31 (broadcastInDim S330000 ![] bcast_S_S330000 : (⟨S_, .i32⟩ : BufTy).Contents (Elt F) → (⟨S330000, .i32⟩ : BufTy).Contents (Elt F)),
    binary main_v3 main_v31 main_v32 (cmpi .slt : (⟨S330000, .i32⟩ : BufTy).Contents (Elt F) → (⟨S330000, .i32⟩ : BufTy).Contents (Elt F) → (⟨S330000, .i1⟩ : BufTy).Contents (Elt F)),
    nullary main_c_7 (constantI S_ 32 10000#32),
    unary main_c_7 main_v33 (broadcastInDim S330000 ![] bcast_S_S330000 : (⟨S_, .i32⟩ : BufTy).Contents (Elt F) → (⟨S330000, .i32⟩ : BufTy).Contents (Elt F)),
    binary main_v3 main_v33 main_v34 (addi : (⟨S330000, .i32⟩ : BufTy).Contents (Elt F) → (⟨S330000, .i32⟩ : BufTy).Contents (Elt F) → (⟨S330000, .i32⟩ : BufTy).Contents (Elt F)),
    ternary main_v32 main_v34 main_v3 main_v35 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    unary main_v35 main_v36 (broadcastInDim S330000x1 ![0] bcast_S330000_S330000x1_0 : (⟨S330000, .i32⟩ : BufTy).Contents (Elt F) → (⟨S330000x1, .i32⟩ : BufTy).Contents (Elt F)),
    binary main_v7 main_v36 main_v37 ((fun x i => Host.gather gather_S10000x64_S330000x1_S330000x64_1_0_n_n_0_1_164 x i) : (⟨S10000x64, .f32⟩ : BufTy).Contents (Elt F) → (⟨S330000x1, .i32⟩ : BufTy).Contents (Elt F) → (⟨S330000x64, .f32⟩ : BufTy).Contents (Elt F)),
    unary main_v30 main_v38 (broadcastInDim S330000x1 ![0] bcast_S330000_S330000x1_0 : (⟨S330000, .f32⟩ : BufTy).Contents (Elt F) → (⟨S330000x1, .f32⟩ : BufTy).Contents (Elt F)),
    unary main_v38 main_v39 (broadcastInDim S330000x64 ![0, 1] bcast_S330000x1_S330000x64_0_1 : (⟨S330000x1, .f32⟩ : BufTy).Contents (Elt F) → (⟨S330000x64, .f32⟩ : BufTy).Contents (Elt F)),
    binary main_v37 main_v39 main_v40 (mulf : (⟨S330000x64, .f32⟩ : BufTy).Contents (Elt F) → (⟨S330000x64, .f32⟩ : BufTy).Contents (Elt F) → (⟨S330000x64, .f32⟩ : BufTy).Contents (Elt F)),
    nullary main_cst_8 (constant S_ .f32 0x00000000#32),
    unary main_cst_8 main_v41 (broadcastInDim S10000x64 ![] bcast_S_S10000x64 : (⟨S_, .f32⟩ : BufTy).Contents (Elt F) → (⟨S10000x64, .f32⟩ : BufTy).Contents (Elt F)),
    unary main_v6 main_v42 (broadcastInDim S330000x1 ![0] bcast_S330000_S330000x1_0 : (⟨S330000, .i32⟩ : BufTy).Contents (Elt F) → (⟨S330000x1, .i32⟩ : BufTy).Contents (Elt F)),
    ternary main_v41 main_v42 main_v40 main_v43 ((fun x i u => Host.scatterAdd scatter_S10000x64_S330000x1_S330000x64_1_0_0_1 x i u) : (⟨S10000x64, .f32⟩ : BufTy).Contents (Elt F) → (⟨S330000x1, .i32⟩ : BufTy).Contents (Elt F) → (⟨S330000x64, .f32⟩ : BufTy).Contents (Elt F) → (⟨S10000x64, .f32⟩ : BufTy).Contents (Elt F)),
    unary main_arg3 main_v44 (broadcastInDim S1x64 ![1] bcast_S64_S1x64_1 : (⟨S64, .f32⟩ : BufTy).Contents (Elt F) → (⟨S1x64, .f32⟩ : BufTy).Contents (Elt F)),
    unary main_v44 main_v45 (broadcastInDim S10000x64 ![0, 1] bcast_S1x64_S10000x64_0_1 : (⟨S1x64, .f32⟩ : BufTy).Contents (Elt F) → (⟨S10000x64, .f32⟩ : BufTy).Contents (Elt F)),
    binary main_v43 main_v45 main_v46 (addf : (⟨S10000x64, .f32⟩ : BufTy).Contents (Elt F) → (⟨S10000x64, .f32⟩ : BufTy).Contents (Elt F) → (⟨S10000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S10000x64, .f32⟩) main_call1_v0) (broadcastInDim S10000x64 ![] bcast_S_S10000x64),
    TRef.binary (TRef.of (T := ⟨S10000x64, .f32⟩) main_v46) (TRef.of (T := ⟨S10000x64, .f32⟩) main_call1_v0) (TRef.of (T := ⟨S10000x64, .f32⟩) main_v47) maximumf,
    binary main_v47 main_arg4 main_v48 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)),
    nullary main_cst_9 (constant S_ .f32 0x3F800000#32),
    unary main_cst_9 main_v49 (broadcastInDim S330000 ![] bcast_S_S330000 : (⟨S_, .f32⟩ : BufTy).Contents (Elt F) → (⟨S330000, .f32⟩ : BufTy).Contents (Elt F)),
    nullary main_cst_10 (constant S_ .f32 0x00000000#32),
    unary main_cst_10 main_v50 (broadcastInDim S10000 ![] bcast_S_S10000 : (⟨S_, .f32⟩ : BufTy).Contents (Elt F) → (⟨S10000, .f32⟩ : BufTy).Contents (Elt F)),
    unary main_v6 main_v51 (broadcastInDim S330000x1 ![0] bcast_S330000_S330000x1_0 : (⟨S330000, .i32⟩ : BufTy).Contents (Elt F) → (⟨S330000x1, .i32⟩ : BufTy).Contents (Elt F)),
    ternary main_v50 main_v51 main_v49 main_v52 ((fun x i u => Host.scatterAdd scatter_S10000_S330000x1_S330000_n_0_0_1 x i u) : (⟨S10000, .f32⟩ : BufTy).Contents (Elt F) → (⟨S330000x1, .i32⟩ : BufTy).Contents (Elt F) → (⟨S330000, .f32⟩ : BufTy).Contents (Elt F) → (⟨S10000, .f32⟩ : BufTy).Contents (Elt F)),
    nullary main_cst_11 (constant S_ .f32 0x00000000#32),
    unary main_cst_11 main_v53 (broadcastInDim S10000 ![] bcast_S_S10000 : (⟨S_, .f32⟩ : BufTy).Contents (Elt F) → (⟨S10000, .f32⟩ : BufTy).Contents (Elt F)),
    binary main_v52 main_v53 main_v54 (cmpf .ogt : (⟨S10000, .f32⟩ : BufTy).Contents (Elt F) → (⟨S10000, .f32⟩ : BufTy).Contents (Elt F) → (⟨S10000, .i1⟩ : BufTy).Contents (Elt F)),
    unary main_v52 main_v55 (Host.rsqrt : (⟨S10000, .f32⟩ : BufTy).Contents (Elt F) → (⟨S10000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S10000, .f32⟩) main_call2_v1) (broadcastInDim S10000 ![] bcast_S_S10000),
    TRef.ternary (TRef.of (T := ⟨S10000, .i1⟩) main_v54) (TRef.of (T := ⟨S10000, .f32⟩) main_v55) (TRef.of (T := ⟨S10000, .f32⟩) main_call2_v1) (TRef.of (T := ⟨S10000, .f32⟩) main_v56) select,
    nullary main_c_13 (constantI S_ 32 0#32),
    unary main_c_13 main_v57 (broadcastInDim S330000 ![] bcast_S_S330000 : (⟨S_, .i32⟩ : BufTy).Contents (Elt F) → (⟨S330000, .i32⟩ : BufTy).Contents (Elt F)),
    binary main_v3 main_v57 main_v58 (cmpi .slt : (⟨S330000, .i32⟩ : BufTy).Contents (Elt F) → (⟨S330000, .i32⟩ : BufTy).Contents (Elt F) → (⟨S330000, .i1⟩ : BufTy).Contents (Elt F)),
    nullary main_c_14 (constantI S_ 32 10000#32),
    unary main_c_14 main_v59 (broadcastInDim S330000 ![] bcast_S_S330000 : (⟨S_, .i32⟩ : BufTy).Contents (Elt F) → (⟨S330000, .i32⟩ : BufTy).Contents (Elt F)),
    binary main_v3 main_v59 main_v60 (addi : (⟨S330000, .i32⟩ : BufTy).Contents (Elt F) → (⟨S330000, .i32⟩ : BufTy).Contents (Elt F) → (⟨S330000, .i32⟩ : BufTy).Contents (Elt F)),
    ternary main_v58 main_v60 main_v3 main_v61 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    unary main_v61 main_v62 (broadcastInDim S330000x1 ![0] bcast_S330000_S330000x1_0 : (⟨S330000, .i32⟩ : BufTy).Contents (Elt F) → (⟨S330000x1, .i32⟩ : BufTy).Contents (Elt F)),
    binary main_v56 main_v62 main_v63 ((fun x i => Host.gather gather_S10000_S330000x1_S330000_n_0_n_n_0_1_1 x i) : (⟨S10000, .f32⟩ : BufTy).Contents (Elt F) → (⟨S330000x1, .i32⟩ : BufTy).Contents (Elt F) → (⟨S330000, .f32⟩ : BufTy).Contents (Elt F)),
    nullary main_c_15 (constantI S_ 32 0#32),
    unary main_c_15 main_v64 (broadcastInDim S330000 ![] bcast_S_S330000 : (⟨S_, .i32⟩ : BufTy).Contents (Elt F) → (⟨S330000, .i32⟩ : BufTy).Contents (Elt F)),
    binary main_v6 main_v64 main_v65 (cmpi .slt : (⟨S330000, .i32⟩ : BufTy).Contents (Elt F) → (⟨S330000, .i32⟩ : BufTy).Contents (Elt F) → (⟨S330000, .i1⟩ : BufTy).Contents (Elt F)),
    nullary main_c_16 (constantI S_ 32 10000#32),
    unary main_c_16 main_v66 (broadcastInDim S330000 ![] bcast_S_S330000 : (⟨S_, .i32⟩ : BufTy).Contents (Elt F) → (⟨S330000, .i32⟩ : BufTy).Contents (Elt F)),
    binary main_v6 main_v66 main_v67 (addi : (⟨S330000, .i32⟩ : BufTy).Contents (Elt F) → (⟨S330000, .i32⟩ : BufTy).Contents (Elt F) → (⟨S330000, .i32⟩ : BufTy).Contents (Elt F)),
    ternary main_v65 main_v67 main_v6 main_v68 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    unary main_v68 main_v69 (broadcastInDim S330000x1 ![0] bcast_S330000_S330000x1_0 : (⟨S330000, .i32⟩ : BufTy).Contents (Elt F) → (⟨S330000x1, .i32⟩ : BufTy).Contents (Elt F)),
    binary main_v56 main_v69 main_v70 ((fun x i => Host.gather gather_S10000_S330000x1_S330000_n_0_n_n_0_1_1 x i) : (⟨S10000, .f32⟩ : BufTy).Contents (Elt F) → (⟨S330000x1, .i32⟩ : BufTy).Contents (Elt F) → (⟨S330000, .f32⟩ : BufTy).Contents (Elt F)),
    binary main_v63 main_v70 main_v71 (mulf : (⟨S330000, .f32⟩ : BufTy).Contents (Elt F) → (⟨S330000, .f32⟩ : BufTy).Contents (Elt F) → (⟨S330000, .f32⟩ : BufTy).Contents (Elt F)),
    nullary main_c_17 (constantI S_ 32 0#32),
    unary main_c_17 main_v72 (broadcastInDim S330000 ![] bcast_S_S330000 : (⟨S_, .i32⟩ : BufTy).Contents (Elt F) → (⟨S330000, .i32⟩ : BufTy).Contents (Elt F)),
    binary main_v3 main_v72 main_v73 (cmpi .slt : (⟨S330000, .i32⟩ : BufTy).Contents (Elt F) → (⟨S330000, .i32⟩ : BufTy).Contents (Elt F) → (⟨S330000, .i1⟩ : BufTy).Contents (Elt F)),
    nullary main_c_18 (constantI S_ 32 10000#32),
    unary main_c_18 main_v74 (broadcastInDim S330000 ![] bcast_S_S330000 : (⟨S_, .i32⟩ : BufTy).Contents (Elt F) → (⟨S330000, .i32⟩ : BufTy).Contents (Elt F)),
    binary main_v3 main_v74 main_v75 (addi : (⟨S330000, .i32⟩ : BufTy).Contents (Elt F) → (⟨S330000, .i32⟩ : BufTy).Contents (Elt F) → (⟨S330000, .i32⟩ : BufTy).Contents (Elt F)),
    ternary main_v73 main_v75 main_v3 main_v76 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    unary main_v76 main_v77 (broadcastInDim S330000x1 ![0] bcast_S330000_S330000x1_0 : (⟨S330000, .i32⟩ : BufTy).Contents (Elt F) → (⟨S330000x1, .i32⟩ : BufTy).Contents (Elt F)),
    binary main_v48 main_v77 main_v78 ((fun x i => Host.gather gather_S10000x64_S330000x1_S330000x64_1_0_n_n_0_1_164 x i) : (⟨S10000x64, .f32⟩ : BufTy).Contents (Elt F) → (⟨S330000x1, .i32⟩ : BufTy).Contents (Elt F) → (⟨S330000x64, .f32⟩ : BufTy).Contents (Elt F)),
    unary main_v71 main_v79 (broadcastInDim S330000x1 ![0] bcast_S330000_S330000x1_0 : (⟨S330000, .f32⟩ : BufTy).Contents (Elt F) → (⟨S330000x1, .f32⟩ : BufTy).Contents (Elt F)),
    unary main_v79 main_v80 (broadcastInDim S330000x64 ![0, 1] bcast_S330000x1_S330000x64_0_1 : (⟨S330000x1, .f32⟩ : BufTy).Contents (Elt F) → (⟨S330000x64, .f32⟩ : BufTy).Contents (Elt F)),
    binary main_v78 main_v80 main_v81 (mulf : (⟨S330000x64, .f32⟩ : BufTy).Contents (Elt F) → (⟨S330000x64, .f32⟩ : BufTy).Contents (Elt F) → (⟨S330000x64, .f32⟩ : BufTy).Contents (Elt F)),
    nullary main_cst_19 (constant S_ .f32 0x00000000#32),
    unary main_cst_19 main_v82 (broadcastInDim S10000x64 ![] bcast_S_S10000x64 : (⟨S_, .f32⟩ : BufTy).Contents (Elt F) → (⟨S10000x64, .f32⟩ : BufTy).Contents (Elt F)),
    unary main_v6 main_v83 (broadcastInDim S330000x1 ![0] bcast_S330000_S330000x1_0 : (⟨S330000, .i32⟩ : BufTy).Contents (Elt F) → (⟨S330000x1, .i32⟩ : BufTy).Contents (Elt F)),
    ternary main_v82 main_v83 main_v81 main_v84 ((fun x i u => Host.scatterAdd scatter_S10000x64_S330000x1_S330000x64_1_0_0_1 x i u) : (⟨S10000x64, .f32⟩ : BufTy).Contents (Elt F) → (⟨S330000x1, .i32⟩ : BufTy).Contents (Elt F) → (⟨S330000x64, .f32⟩ : BufTy).Contents (Elt F) → (⟨S10000x64, .f32⟩ : BufTy).Contents (Elt F)),
    unary main_arg5 main_v85 (broadcastInDim S1x64 ![1] bcast_S64_S1x64_1 : (⟨S64, .f32⟩ : BufTy).Contents (Elt F) → (⟨S1x64, .f32⟩ : BufTy).Contents (Elt F)),
    unary main_v85 main_v86 (broadcastInDim S10000x64 ![0, 1] bcast_S1x64_S10000x64_0_1 : (⟨S1x64, .f32⟩ : BufTy).Contents (Elt F) → (⟨S10000x64, .f32⟩ : BufTy).Contents (Elt F)),
    binary main_v84 main_v86 main_v87 (addf : (⟨S10000x64, .f32⟩ : BufTy).Contents (Elt F) → (⟨S10000x64, .f32⟩ : BufTy).Contents (Elt F) → (⟨S10000x64, .f32⟩ : BufTy).Contents (Elt F)) ]

/-- The operations that form the result from the node embeddings, in order. -/
abbrev tailOps : List (HloOp τ sig (Elt F)) :=
  [ unary main_v87 main_v88 ((transpose S64x10000 [1, 0] · transposes_S10000x64_S64x10000_1_0) : (⟨S10000x64, .f32⟩ : BufTy).Contents (Elt F) → (⟨S64x10000, .f32⟩ : BufTy).Contents (Elt F)),
    binary main_v87 main_v88 main_v89 ((fun l r => Host.dotGeneral dot_S10000x64_S64x10000_S10000x10000_1_0_0_1_n_n none l r) : (⟨S10000x64, .f32⟩ : BufTy).Contents (Elt F) → (⟨S64x10000, .f32⟩ : BufTy).Contents (Elt F) → (⟨S10000x10000, .f32⟩ : BufTy).Contents (Elt F)),
    unary main_v89 main_v90 (Host.negf : (⟨S10000x10000, .f32⟩ : BufTy).Contents (Elt F) → (⟨S10000x10000, .f32⟩ : BufTy).Contents (Elt F)),
    unary main_v90 main_v91 (Host.exp : (⟨S10000x10000, .f32⟩ : BufTy).Contents (Elt F) → (⟨S10000x10000, .f32⟩ : BufTy).Contents (Elt F)),
    nullary main_cst_20 (constant S_ .f32 0x3F800000#32),
    unary main_cst_20 main_v92 (broadcastInDim S10000x10000 ![] bcast_S_S10000x10000 : (⟨S_, .f32⟩ : BufTy).Contents (Elt F) → (⟨S10000x10000, .f32⟩ : BufTy).Contents (Elt F)),
    binary main_v92 main_v91 main_v93 (addf : (⟨S10000x10000, .f32⟩ : BufTy).Contents (Elt F) → (⟨S10000x10000, .f32⟩ : BufTy).Contents (Elt F) → (⟨S10000x10000, .f32⟩ : BufTy).Contents (Elt F)),
    nullary main_cst_21 (constant S_ .f32 0x3F800000#32),
    unary main_cst_21 main_v94 (broadcastInDim S10000x10000 ![] bcast_S_S10000x10000 : (⟨S_, .f32⟩ : BufTy).Contents (Elt F) → (⟨S10000x10000, .f32⟩ : BufTy).Contents (Elt F)),
    binary main_v94 main_v93 main_v95 (Host.divf : (⟨S10000x10000, .f32⟩ : BufTy).Contents (Elt F) → (⟨S10000x10000, .f32⟩ : BufTy).Contents (Elt F) → (⟨S10000x10000, .f32⟩ : BufTy).Contents (Elt F)) ]

/-- The whole line. -/
abbrev ops : List (HloOp τ sig (Elt F)) := headOps ++ tailOps

set_option maxRecDepth 8192 in
set_option maxHeartbeats 4000000 in
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem headOps_sub : (headOps : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩

theorem tailOps_sub : (tailOps : List (HloOp τ sig (Elt F))).Forall fun op => op.bufs ⊆ tcRefs τ sig :=
  ⟨unary_bufs_sub .., binary_bufs_sub .., unary_bufs_sub .., unary_bufs_sub .., nullary_bufs_sub .., unary_bufs_sub .., binary_bufs_sub .., nullary_bufs_sub .., unary_bufs_sub .., binary_bufs_sub ..⟩

theorem ops_sub : (ops : List (HloOp τ sig (Elt F))).Forall fun op => op.bufs ⊆ tcRefs τ sig :=
  List.forall_iff_forall_mem.2 fun op h => (List.mem_append.1 h).elim
    (List.forall_iff_forall_mem.1 headOps_sub op) (List.forall_iff_forall_mem.1 tailOps_sub op)

set_option maxRecDepth 8192 in
theorem headOps_fresh : ∀ op ∈ (headOps : List (HloOp τ sig (Elt F))), op.fresh = ∅ := by
  intro _ h; (repeat (cases h with | head => rfl | tail _ h => ?_)); exact nomatch h

theorem tailOps_fresh : ∀ op ∈ (tailOps : List (HloOp τ sig (Elt F))), op.fresh = ∅ := by
  intro _ h; (repeat (cases h with | head => rfl | tail _ h => ?_)); exact nomatch h

theorem ops_fresh : ∀ op ∈ (ops : List (HloOp τ sig (Elt F))), op.fresh = ∅ :=
  fun op h => (List.mem_append.1 h).elim (headOps_fresh op) (tailOps_fresh op)

/-- Every execution of the line terminates, and each array ends at what the operations, in order, make of the
    arrays it started from. -/
theorem run_all (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after (ops (F := F)) (launchContents m d) (Proc.devRef .tc b) :=
  run_seq scopedRefs_eq scopedSems_eq defs main (fun _ => ops) main_eq (fun _ => ops_sub) m ρ (fun _ => ops_fresh)

/-! No operation writes an argument array. -/

set_option maxRecDepth 8192
set_option maxHeartbeats 8000000

theorem arg0_kept (V : Valuation τ sig (Elt F)) :
    after (ops (F := F)) V (Proc.devRef .tc main_arg0) = V (Proc.devRef .tc main_arg0) := by
  show after (headOps ++ tailOps) V _ = _
  rw [after_append]; after_results_simp <;> rfl

theorem arg1_kept (V : Valuation τ sig (Elt F)) :
    after (ops (F := F)) V (Proc.devRef .tc main_arg1) = V (Proc.devRef .tc main_arg1) := by
  show after (headOps ++ tailOps) V _ = _
  rw [after_append]; after_results_simp <;> rfl

theorem arg2_kept (V : Valuation τ sig (Elt F)) :
    after (ops (F := F)) V (Proc.devRef .tc main_arg2) = V (Proc.devRef .tc main_arg2) := by
  show after (headOps ++ tailOps) V _ = _
  rw [after_append]; after_results_simp <;> rfl

theorem arg3_kept (V : Valuation τ sig (Elt F)) :
    after (ops (F := F)) V (Proc.devRef .tc main_arg3) = V (Proc.devRef .tc main_arg3) := by
  show after (headOps ++ tailOps) V _ = _
  rw [after_append]; after_results_simp <;> rfl

theorem arg4_kept (V : Valuation τ sig (Elt F)) :
    after (ops (F := F)) V (Proc.devRef .tc main_arg4) = V (Proc.devRef .tc main_arg4) := by
  show after (headOps ++ tailOps) V _ = _
  rw [after_append]; after_results_simp <;> rfl

theorem arg5_kept (V : Valuation τ sig (Elt F)) :
    after (ops (F := F)) V (Proc.devRef .tc main_arg5) = V (Proc.devRef .tc main_arg5) := by
  show after (headOps ++ tailOps) V _ = _
  rw [after_append]; after_results_simp <;> rfl

/-- The reference runs and leaves its argument arrays unchanged. -/
theorem frame_ri : Cert.frame_ReferenceIdeal := fun m ρ _ =>
  (θ_run Cert.ReferenceIdeal.defs _ _).mono
    (fun _ h c => ⟨(h c main_arg0).trans (arg0_kept _), (h c main_arg1).trans (arg1_kept _), (h c main_arg2).trans (arg2_kept _),
      (h c main_arg3).trans (arg3_kept _), (h c main_arg4).trans (arg4_kept _), (h c main_arg5).trans (arg5_kept _)⟩)
    (run_all (F := Ideal) m ρ)

end Cert.RefSide

end
-- ==== Proof.RefTail.lean ====
/-
  The second part of the reference program, read at the extended reals, as one function of the node embeddings.

  From `h : [10000, 64]` the line forms the transpose `hᵀ`, the contraction `h · hᵀ` over the 64 columns, its negation,
  the exponential, the sum with the constant one and the quotient of one by that sum.  At entry `(p, q)` the transpose reads
  `h (q, k)` where the contraction asks for `hᵀ (k, q)`, so the contraction is  Σₖ h (p, k) · h (q, k),  and the result is
  1 / (1 + exp (− Σₖ h (p, k) · h (q, k))):  the logistic function of the inner product of rows `p` and `q`.
-/
import proofs.«180243_j86045374808276_2_alg».proof.Proof.RefOps
import proofs.«180243_j86045374808276_2_alg».proof.Proof.OuterSpec
import proofs.«180243_j86045374808276_2_alg».proof.Proof.SigmoidLaw
import Idealize.ShloMosaic.Lib.Pipeline.Value
import Idealize.ShloMosaic.Lib.ValueIdx
import Idealize.ShloMosaic.PureOps.Ideal.Laws

noncomputable section

namespace Cert.RefSide

open Cert.ReferenceIdeal Cert.ReferenceIdeal.Gen Idealize.ShloMosaic Idealize.ShloMosaic.TcCoe Idealize.SL.Sem Idealize.ShloMosaic.StableHlo
open Idealize.ShloMosaic.ValueIdx

/-! ## The constant one -/

/-- The array that repeats the word of `1.0` reads `1` at every entry. -/
theorem ones_apply (i : S10000x10000.Idx) : (broadcastInDim S10000x10000 ![] bcast_S_S10000x10000 (constant (F := Ideal) S_ .f32 0x3F800000#32)) i = (1 : EReal) := by
  rw [broadcastInDim_apply _ bcast_S_S10000x10000 _ i (fun a => a.elim0) (fun a => a.elim0)]
  exact (constant_apply _ _).trans Cert.SigmoidLaw.ofBits_one

/-! ## The transpose -/

/-- Entry `(k, q)` of the transpose is entry `(q, k)`. -/
theorem transpose_at (h : (⟨S10000x64, .f32⟩ : BufTy).Contents (Elt Ideal)) (k : Fin 64) (q : Fin 10000) :
    transpose S64x10000 [1, 0] h transposes_S10000x64_S64x10000_1_0 (ix2 k q) = h (ix2 q k) :=
  transpose_apply [1, 0] h transposes_S10000x64_S64x10000_1_0 (ix2 k q) (ix2 q k) (fun b => match b with
    | ⟨0, _⟩ => rfl
    | ⟨1, _⟩ => rfl)

/-! ## The contraction -/

theorem lhs_0 (i : S10000x10000.Idx) (r : dot_S10000x64_S64x10000_S10000x10000_1_0_0_1_n_n.contr.Idx) :
    (dot_S10000x64_S64x10000_S10000x10000_1_0_0_1_n_n.lhsIdx i r 0).val = (i 0).val := by
  unfold DotDims.lhsIdx
  rw [dif_neg (show ¬(0 : Fin S10000x64.rank) ∈ dot_S10000x64_S64x10000_S10000x10000_1_0_0_1_n_n.lhsBatch by decide),
    dif_pos (show (0 : Fin S10000x64.rank) ∈ dot_S10000x64_S64x10000_S10000x10000_1_0_0_1_n_n.lhsNonContracting by decide)]
  rfl
theorem lhs_1 (i : S10000x10000.Idx) (r : dot_S10000x64_S64x10000_S10000x10000_1_0_0_1_n_n.contr.Idx) :
    (dot_S10000x64_S64x10000_S10000x10000_1_0_0_1_n_n.lhsIdx i r 1).val = (r ⟨0, by decide⟩).val :=
  dot_S10000x64_S64x10000_S10000x10000_1_0_0_1_n_n.lhsIdx_val_of_single rfl i r
theorem rhs_0 (i : S10000x10000.Idx) (r : dot_S10000x64_S64x10000_S10000x10000_1_0_0_1_n_n.contr.Idx) :
    (dot_S10000x64_S64x10000_S10000x10000_1_0_0_1_n_n.rhsIdx i r 0).val = (r ⟨0, by decide⟩).val :=
  dot_S10000x64_S64x10000_S10000x10000_1_0_0_1_n_n.rhsIdx_val_of_single rfl i r
theorem rhs_1 (i : S10000x10000.Idx) (r : dot_S10000x64_S64x10000_S10000x10000_1_0_0_1_n_n.contr.Idx) :
    (dot_S10000x64_S64x10000_S10000x10000_1_0_0_1_n_n.rhsIdx i r 1).val = (i 1).val := by
  unfold DotDims.rhsIdx
  rw [dif_neg (show ¬(1 : Fin S64x10000.rank) ∈ dot_S10000x64_S64x10000_S10000x10000_1_0_0_1_n_n.rhsBatch by decide),
    dif_pos (show (1 : Fin S64x10000.rank) ∈ dot_S10000x64_S64x10000_S10000x10000_1_0_0_1_n_n.rhsNonContracting by decide)]
  rfl

/-- Entry `(p, q)` of the contraction of `y0 : [10000, 64]` with `y1 : [64, 10000]` is  Σₖ y0 (p, k) · y1 (k, q). -/
theorem dot_at (y0 : (⟨S10000x64, .f32⟩ : BufTy).Contents (Elt Ideal)) (y1 : (⟨S64x10000, .f32⟩ : BufTy).Contents (Elt Ideal)) (p q : Fin 10000) :
    Host.dotGeneral (F := Ideal) (φ₁ := .f32) (φ₂ := .f32) dot_S10000x64_S64x10000_S10000x10000_1_0_0_1_n_n none y0 y1 (ix2 p q) = ∑ k : Fin 64, y0 (ix2 p k) * y1 (ix2 k q) := by
  simp only [Host.dotGeneral]
  rw [Ideal.dotGeneral_apply, ← Equiv.sum_comp (ValueIdx.contrEquiv1 dot_S10000x64_S64x10000_S10000x10000_1_0_0_1_n_n 64 rfl rfl).symm]
  refine Finset.sum_congr rfl fun k _ => ?_
  have hk := ValueIdx.contrEquiv1_symm_val dot_S10000x64_S64x10000_S10000x10000_1_0_0_1_n_n 64 rfl rfl k
  have el : dot_S10000x64_S64x10000_S10000x10000_1_0_0_1_n_n.lhsIdx (ix2 p q) ((ValueIdx.contrEquiv1 dot_S10000x64_S64x10000_S10000x10000_1_0_0_1_n_n 64 rfl rfl).symm k) = ix2 p k := funext fun a => Fin.ext (by
    match a with
    | ⟨0, _⟩ => exact lhs_0 _ _
    | ⟨1, _⟩ => exact (lhs_1 _ _).trans hk)
  have er : dot_S10000x64_S64x10000_S10000x10000_1_0_0_1_n_n.rhsIdx (ix2 p q) ((ValueIdx.contrEquiv1 dot_S10000x64_S64x10000_S10000x10000_1_0_0_1_n_n 64 rfl rfl).symm k) = ix2 k q := funext fun a => Fin.ext (by
    match a with
    | ⟨0, _⟩ => exact (rhs_0 _ _).trans hk
    | ⟨1, _⟩ => exact rhs_1 _ _)
  rw [el, er]

/-- Entry `(p, q)` of the contraction of `h` with its transpose is the inner product of rows `p` and `q` of `h`. -/
theorem gram_at (h : (⟨S10000x64, .f32⟩ : BufTy).Contents (Elt Ideal)) (p q : Fin 10000) :
    Host.dotGeneral (F := Ideal) (φ₁ := .f32) (φ₂ := .f32) dot_S10000x64_S64x10000_S10000x10000_1_0_0_1_n_n none h
      (transpose S64x10000 [1, 0] h transposes_S10000x64_S64x10000_1_0) (ix2 p q) = ∑ k : Fin 64, h (ix2 p k) * h (ix2 q k) :=
  (dot_at h _ p q).trans (Finset.sum_congr rfl fun k _ => congrArg (fun z => h (ix2 p k) * z) (transpose_at h k q))

/-! ## The second part as one function -/

/-- What the second part makes of node embeddings `h` is the logistic function of the row inner products of `h`. -/
theorem tail_fn (h : (⟨S10000x64, .f32⟩ : BufTy).Contents (Elt Ideal)) :
    Host.divf (F := Ideal) (broadcastInDim S10000x10000 ![] bcast_S_S10000x10000 (constant (F := Ideal) S_ .f32 0x3F800000#32))
      (addf (broadcastInDim S10000x10000 ![] bcast_S_S10000x10000 (constant (F := Ideal) S_ .f32 0x3F800000#32))
        (Host.exp (Host.negf (Host.dotGeneral (F := Ideal) (φ₁ := .f32) (φ₂ := .f32) dot_S10000x64_S64x10000_S10000x10000_1_0_0_1_n_n none h
          (transpose S64x10000 [1, 0] h transposes_S10000x64_S64x10000_1_0)))))
    = Cert.OuterSpec.G h := by
  funext i
  obtain ⟨p, q, rfl⟩ : ∃ (p q : Fin 10000), i = ix2 p q := ⟨i 0, i 1, eq_ix2 i⟩
  show Ideal.div ((broadcastInDim S10000x10000 ![] bcast_S_S10000x10000 (constant (F := Ideal) S_ .f32 0x3F800000#32)) (ix2 p q))
      ((broadcastInDim S10000x10000 ![] bcast_S_S10000x10000 (constant (F := Ideal) S_ .f32 0x3F800000#32)) (ix2 p q)
        + Ideal.exp (-(Host.dotGeneral (F := Ideal) (φ₁ := .f32) (φ₂ := .f32) dot_S10000x64_S64x10000_S10000x10000_1_0_0_1_n_n none h
          (transpose S64x10000 [1, 0] h transposes_S10000x64_S64x10000_1_0) (ix2 p q)))) = _
  rw [ones_apply, gram_at]
  rfl

/-! ## The node embeddings the first part leaves, and the result of the whole line -/

/-- The node embeddings: what the first part of the line leaves in its last array. -/
def hRef (m : (ℓ : Loc nD τ sig) → Buf (Elt Ideal) ℓ) (c : Dev nD) : (⟨2, ![10000, 64]⟩ : Shape).Idx → EReal :=
  after (headOps (F := Ideal)) (launchContents m c) (Proc.devRef .tc main_v87)

set_option maxRecDepth 8192 in
/-- After the whole line the result array holds the logistic function of the row inner products of the node embeddings. -/
theorem tail_eq (m : (ℓ : Loc nD τ sig) → Buf (Elt Ideal) ℓ) (c : Dev nD) :
    after (ops (F := Ideal)) (launchContents m c) (Proc.devRef .tc main_v95) = Cert.OuterSpec.G (hRef m c) := by
  show after (headOps ++ tailOps) (launchContents m c) (Proc.devRef .tc main_v95)
    = Cert.OuterSpec.G (after (headOps (F := Ideal)) (launchContents m c) (Proc.devRef .tc main_v87))
  rw [after_append]
  generalize after (headOps (F := Ideal)) (launchContents m c) = W
  after_results_simp
  exact tail_fn _

end Cert.RefSide

end
-- ==== Proof.RefSide.lean ====
/-
  The reference program's run, read at the extended reals.

  Every execution terminates; the result array ends holding, at entry `(p, q)`, the logistic function
  1 / (1 + exp (− Σₖ h (p, k) · h (q, k)))  of the inner product of rows `p` and `q` of the node embeddings `h` that the
  first part of the program forms from the arguments; and the argument arrays end as they started.
-/
import proofs.«180243_j86045374808276_2_alg».proof.Proof.RefTail

noncomputable section

namespace Cert.RefSide

open Cert.ReferenceIdeal Cert.ReferenceIdeal.Gen Idealize.ShloMosaic Idealize.ShloMosaic.TcCoe Idealize.SL.Sem Idealize.ShloMosaic.StableHlo

/-- The reference runs, ends with the logistic function of the row inner products of its node embeddings in its result
    array, and leaves its argument arrays unchanged. -/
theorem ref_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v95) = Cert.OuterSpec.G (hRef m' c)
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)) :=
  (θ_run Cert.ReferenceIdeal.defs _ _).mono
    (fun _ h c => ⟨(h c main_v95).trans (tail_eq m' c),
      (h c main_arg0).trans (arg0_kept _), (h c main_arg1).trans (arg1_kept _), (h c main_arg2).trans (arg2_kept _),
      (h c main_arg3).trans (arg3_kept _), (h c main_arg4).trans (arg4_kept _), (h c main_arg5).trans (arg5_kept _)⟩)
    (run_all (F := Ideal) m' ρ')

end Cert.RefSide

end
-- ==== Proof.HeadSeg.lean ====
import proofs.«180243_j86045374808276_2_alg».proof.Proof.IHost
import proofs.«180243_j86045374808276_2_alg».proof.Proof.RefTail

/-!
# The two programs form the same node features

The entry function of the kernel's program and the reference program begin with the same computation: two rounds of
a linear map, a degree-normalised sum over neighbours and a bias, with a maximum with zero between them. Operation for
operation the two lines agree; they differ in the names' signatures only. The lines are cut into seven matching
segments, and the agreement of the two memories is carried from cut to cut on the arrays still to be read.
-/

set_option maxRecDepth 16384

noncomputable section

namespace Cert.HeadLayers

open Idealize.ShloMosaic Idealize.ShloMosaic.TcCoe Idealize.SL.Sem Idealize.ShloMosaic.StableHlo

/-! A concatenation of two arrays takes them inside a list that its side condition mentions; stated with the two arrays as
arguments of their own, each can be rewritten separately. -/

/-- The concatenation of two arrays along an axis, the two arrays as arguments of their own. -/
def concat2 {α : Type} (t : Shape) (a : Fin t.rank) (s1 s2 : Shape) (h : Shape.Concatenates [s1, s2] t a)
    (x : s1.Idx → α) (y : s2.Idx → α) : t.Idx → α :=
  concatenate t a [⟨s1, x⟩, ⟨s2, y⟩] h

theorem concat2_def {α : Type} (t : Shape) (a : Fin t.rank) (s1 s2 : Shape) (h : Shape.Concatenates [s1, s2] t a)
    (x : s1.Idx → α) (y : s2.Idx → α) : concatenate t a [⟨s1, x⟩, ⟨s2, y⟩] h = concat2 t a s1 s2 h x y := rfl

/-- The arrays a line of operations leaves, by one simplification pass, concatenations opened. -/
macro "ars" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', concat2_def]))

/-! ## The reference's first part in seven segments -/

section RSide

open Cert.ReferenceIdeal Cert.ReferenceIdeal.Gen

variable {F : FTy → Type} [FloatOps F]

/-- Segment 0 of the reference's first part: 19 operations. -/
abbrev segR0 : List (HloOp τ sig (Elt F)) :=
  [ nullary main_v0 (iotaInDim S10000 32 0),
    unary main_arg1 main_v1 ((extractStridedSlice S1x320000 ![0, 0] · slices_S2x320000_S1x320000_0_0) : (⟨S2x320000, .i32⟩ : BufTy).Contents (Elt F) → (⟨S1x320000, .i32⟩ : BufTy).Contents (Elt F)),
    reshape main_v1 main_v2 rfl shapeCasts_S1x320000_S320000,
    binary main_v2 main_v0 main_v3 ((fun a b => concatenate S330000 0 [⟨S320000, a⟩, ⟨S10000, b⟩] concatenates_S320000_S10000_S330000_d0) : (⟨S320000, .i32⟩ : BufTy).Contents (Elt F) → (⟨S10000, .i32⟩ : BufTy).Contents (Elt F) → (⟨S330000, .i32⟩ : BufTy).Contents (Elt F)),
    unary main_arg1 main_v4 ((extractStridedSlice S1x320000 ![1, 0] · slices_S2x320000_S1x320000_1_0) : (⟨S2x320000, .i32⟩ : BufTy).Contents (Elt F) → (⟨S1x320000, .i32⟩ : BufTy).Contents (Elt F)),
    reshape main_v4 main_v5 rfl shapeCasts_S1x320000_S320000,
    binary main_v5 main_v0 main_v6 ((fun a b => concatenate S330000 0 [⟨S320000, a⟩, ⟨S10000, b⟩] concatenates_S320000_S10000_S330000_d0) : (⟨S320000, .i32⟩ : BufTy).Contents (Elt F) → (⟨S10000, .i32⟩ : BufTy).Contents (Elt F) → (⟨S330000, .i32⟩ : BufTy).Contents (Elt F)),
    binary main_arg0 main_arg2 main_v7 ((fun l r => Host.dotGeneral dot_S10000x128_S128x64_S10000x64_1_0_0_1_n_n none l r) : (⟨S10000x128, .f32⟩ : BufTy).Contents (Elt F) → (⟨S128x64, .f32⟩ : BufTy).Contents (Elt F) → (⟨S10000x64, .f32⟩ : BufTy).Contents (Elt F)),
    nullary main_cst (constant S_ .f32 0x3F800000#32),
    unary main_cst main_v8 (broadcastInDim S330000 ![] bcast_S_S330000 : (⟨S_, .f32⟩ : BufTy).Contents (Elt F) → (⟨S330000, .f32⟩ : BufTy).Contents (Elt F)),
    nullary main_cst_0 (constant S_ .f32 0x00000000#32),
    unary main_cst_0 main_v9 (broadcastInDim S10000 ![] bcast_S_S10000 : (⟨S_, .f32⟩ : BufTy).Contents (Elt F) → (⟨S10000, .f32⟩ : BufTy).Contents (Elt F)),
    unary main_v6 main_v10 (broadcastInDim S330000x1 ![0] bcast_S330000_S330000x1_0 : (⟨S330000, .i32⟩ : BufTy).Contents (Elt F) → (⟨S330000x1, .i32⟩ : BufTy).Contents (Elt F)),
    ternary main_v9 main_v10 main_v8 main_v11 ((fun x i u => Host.scatterAdd scatter_S10000_S330000x1_S330000_n_0_0_1 x i u) : (⟨S10000, .f32⟩ : BufTy).Contents (Elt F) → (⟨S330000x1, .i32⟩ : BufTy).Contents (Elt F) → (⟨S330000, .f32⟩ : BufTy).Contents (Elt F) → (⟨S10000, .f32⟩ : BufTy).Contents (Elt F)),
    nullary main_cst_1 (constant S_ .f32 0x00000000#32),
    unary main_cst_1 main_v12 (broadcastInDim S10000 ![] bcast_S_S10000 : (⟨S_, .f32⟩ : BufTy).Contents (Elt F) → (⟨S10000, .f32⟩ : BufTy).Contents (Elt F)),
    binary main_v11 main_v12 main_v13 (cmpf .ogt : (⟨S10000, .f32⟩ : BufTy).Contents (Elt F) → (⟨S10000, .f32⟩ : BufTy).Contents (Elt F) → (⟨S10000, .i1⟩ : BufTy).Contents (Elt F)),
    unary main_v11 main_v14 (Host.rsqrt : (⟨S10000, .f32⟩ : BufTy).Contents (Elt F) → (⟨S10000, .f32⟩ : BufTy).Contents (Elt F)),
    nullary main_cst_2 (constant S_ .f32 0x00000000#32) ]

/-- Segment 1 of the reference's first part: 3 operations. -/
abbrev segR1 : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S10000, .f32⟩) main_call0_v1) (broadcastInDim S10000 ![] bcast_S_S10000),
    TRef.ternary (TRef.of (T := ⟨S10000, .i1⟩) main_v13) (TRef.of (T := ⟨S10000, .f32⟩) main_v14) (TRef.of (T := ⟨S10000, .f32⟩) main_call0_v1) (TRef.of (T := ⟨S10000, .f32⟩) main_v15) select ]

/-- Segment 2 of the reference's first part: 38 operations. -/
abbrev segR2 : List (HloOp τ sig (Elt F)) :=
  [ nullary main_c (constantI S_ 32 0#32),
    unary main_c main_v16 (broadcastInDim S330000 ![] bcast_S_S330000 : (⟨S_, .i32⟩ : BufTy).Contents (Elt F) → (⟨S330000, .i32⟩ : BufTy).Contents (Elt F)),
    binary main_v3 main_v16 main_v17 (cmpi .slt : (⟨S330000, .i32⟩ : BufTy).Contents (Elt F) → (⟨S330000, .i32⟩ : BufTy).Contents (Elt F) → (⟨S330000, .i1⟩ : BufTy).Contents (Elt F)),
    nullary main_c_3 (constantI S_ 32 10000#32),
    unary main_c_3 main_v18 (broadcastInDim S330000 ![] bcast_S_S330000 : (⟨S_, .i32⟩ : BufTy).Contents (Elt F) → (⟨S330000, .i32⟩ : BufTy).Contents (Elt F)),
    binary main_v3 main_v18 main_v19 (addi : (⟨S330000, .i32⟩ : BufTy).Contents (Elt F) → (⟨S330000, .i32⟩ : BufTy).Contents (Elt F) → (⟨S330000, .i32⟩ : BufTy).Contents (Elt F)),
    ternary main_v17 main_v19 main_v3 main_v20 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    unary main_v20 main_v21 (broadcastInDim S330000x1 ![0] bcast_S330000_S330000x1_0 : (⟨S330000, .i32⟩ : BufTy).Contents (Elt F) → (⟨S330000x1, .i32⟩ : BufTy).Contents (Elt F)),
    binary main_v15 main_v21 main_v22 ((fun x i => Host.gather gather_S10000_S330000x1_S330000_n_0_n_n_0_1_1 x i) : (⟨S10000, .f32⟩ : BufTy).Contents (Elt F) → (⟨S330000x1, .i32⟩ : BufTy).Contents (Elt F) → (⟨S330000, .f32⟩ : BufTy).Contents (Elt F)),
    nullary main_c_4 (constantI S_ 32 0#32),
    unary main_c_4 main_v23 (broadcastInDim S330000 ![] bcast_S_S330000 : (⟨S_, .i32⟩ : BufTy).Contents (Elt F) → (⟨S330000, .i32⟩ : BufTy).Contents (Elt F)),
    binary main_v6 main_v23 main_v24 (cmpi .slt : (⟨S330000, .i32⟩ : BufTy).Contents (Elt F) → (⟨S330000, .i32⟩ : BufTy).Contents (Elt F) → (⟨S330000, .i1⟩ : BufTy).Contents (Elt F)),
    nullary main_c_5 (constantI S_ 32 10000#32),
    unary main_c_5 main_v25 (broadcastInDim S330000 ![] bcast_S_S330000 : (⟨S_, .i32⟩ : BufTy).Contents (Elt F) → (⟨S330000, .i32⟩ : BufTy).Contents (Elt F)),
    binary main_v6 main_v25 main_v26 (addi : (⟨S330000, .i32⟩ : BufTy).Contents (Elt F) → (⟨S330000, .i32⟩ : BufTy).Contents (Elt F) → (⟨S330000, .i32⟩ : BufTy).Contents (Elt F)),
    ternary main_v24 main_v26 main_v6 main_v27 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    unary main_v27 main_v28 (broadcastInDim S330000x1 ![0] bcast_S330000_S330000x1_0 : (⟨S330000, .i32⟩ : BufTy).Contents (Elt F) → (⟨S330000x1, .i32⟩ : BufTy).Contents (Elt F)),
    binary main_v15 main_v28 main_v29 ((fun x i => Host.gather gather_S10000_S330000x1_S330000_n_0_n_n_0_1_1 x i) : (⟨S10000, .f32⟩ : BufTy).Contents (Elt F) → (⟨S330000x1, .i32⟩ : BufTy).Contents (Elt F) → (⟨S330000, .f32⟩ : BufTy).Contents (Elt F)),
    binary main_v22 main_v29 main_v30 (mulf : (⟨S330000, .f32⟩ : BufTy).Contents (Elt F) → (⟨S330000, .f32⟩ : BufTy).Contents (Elt F) → (⟨S330000, .f32⟩ : BufTy).Contents (Elt F)),
    nullary main_c_6 (constantI S_ 32 0#32),
    unary main_c_6 main_v31 (broadcastInDim S330000 ![] bcast_S_S330000 : (⟨S_, .i32⟩ : BufTy).Contents (Elt F) → (⟨S330000, .i32⟩ : BufTy).Contents (Elt F)),
    binary main_v3 main_v31 main_v32 (cmpi .slt : (⟨S330000, .i32⟩ : BufTy).Contents (Elt F) → (⟨S330000, .i32⟩ : BufTy).Contents (Elt F) → (⟨S330000, .i1⟩ : BufTy).Contents (Elt F)),
    nullary main_c_7 (constantI S_ 32 10000#32),
    unary main_c_7 main_v33 (broadcastInDim S330000 ![] bcast_S_S330000 : (⟨S_, .i32⟩ : BufTy).Contents (Elt F) → (⟨S330000, .i32⟩ : BufTy).Contents (Elt F)),
    binary main_v3 main_v33 main_v34 (addi : (⟨S330000, .i32⟩ : BufTy).Contents (Elt F) → (⟨S330000, .i32⟩ : BufTy).Contents (Elt F) → (⟨S330000, .i32⟩ : BufTy).Contents (Elt F)),
    ternary main_v32 main_v34 main_v3 main_v35 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    unary main_v35 main_v36 (broadcastInDim S330000x1 ![0] bcast_S330000_S330000x1_0 : (⟨S330000, .i32⟩ : BufTy).Contents (Elt F) → (⟨S330000x1, .i32⟩ : BufTy).Contents (Elt F)),
    binary main_v7 main_v36 main_v37 ((fun x i => Host.gather gather_S10000x64_S330000x1_S330000x64_1_0_n_n_0_1_164 x i) : (⟨S10000x64, .f32⟩ : BufTy).Contents (Elt F) → (⟨S330000x1, .i32⟩ : BufTy).Contents (Elt F) → (⟨S330000x64, .f32⟩ : BufTy).Contents (Elt F)),
    unary main_v30 main_v38 (broadcastInDim S330000x1 ![0] bcast_S330000_S330000x1_0 : (⟨S330000, .f32⟩ : BufTy).Contents (Elt F) → (⟨S330000x1, .f32⟩ : BufTy).Contents (Elt F)),
    unary main_v38 main_v39 (broadcastInDim S330000x64 ![0, 1] bcast_S330000x1_S330000x64_0_1 : (⟨S330000x1, .f32⟩ : BufTy).Contents (Elt F) → (⟨S330000x64, .f32⟩ : BufTy).Contents (Elt F)),
    binary main_v37 main_v39 main_v40 (mulf : (⟨S330000x64, .f32⟩ : BufTy).Contents (Elt F) → (⟨S330000x64, .f32⟩ : BufTy).Contents (Elt F) → (⟨S330000x64, .f32⟩ : BufTy).Contents (Elt F)),
    nullary main_cst_8 (constant S_ .f32 0x00000000#32),
    unary main_cst_8 main_v41 (broadcastInDim S10000x64 ![] bcast_S_S10000x64 : (⟨S_, .f32⟩ : BufTy).Contents (Elt F) → (⟨S10000x64, .f32⟩ : BufTy).Contents (Elt F)),
    unary main_v6 main_v42 (broadcastInDim S330000x1 ![0] bcast_S330000_S330000x1_0 : (⟨S330000, .i32⟩ : BufTy).Contents (Elt F) → (⟨S330000x1, .i32⟩ : BufTy).Contents (Elt F)),
    ternary main_v41 main_v42 main_v40 main_v43 ((fun x i u => Host.scatterAdd scatter_S10000x64_S330000x1_S330000x64_1_0_0_1 x i u) : (⟨S10000x64, .f32⟩ : BufTy).Contents (Elt F) → (⟨S330000x1, .i32⟩ : BufTy).Contents (Elt F) → (⟨S330000x64, .f32⟩ : BufTy).Contents (Elt F) → (⟨S10000x64, .f32⟩ : BufTy).Contents (Elt F)),
    unary main_arg3 main_v44 (broadcastInDim S1x64 ![1] bcast_S64_S1x64_1 : (⟨S64, .f32⟩ : BufTy).Contents (Elt F) → (⟨S1x64, .f32⟩ : BufTy).Contents (Elt F)),
    unary main_v44 main_v45 (broadcastInDim S10000x64 ![0, 1] bcast_S1x64_S10000x64_0_1 : (⟨S1x64, .f32⟩ : BufTy).Contents (Elt F) → (⟨S10000x64, .f32⟩ : BufTy).Contents (Elt F)),
    binary main_v43 main_v45 main_v46 (addf : (⟨S10000x64, .f32⟩ : BufTy).Contents (Elt F) → (⟨S10000x64, .f32⟩ : BufTy).Contents (Elt F) → (⟨S10000x64, .f32⟩ : BufTy).Contents (Elt F)) ]

/-- Segment 3 of the reference's first part: 3 operations. -/
abbrev segR3 : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S10000x64, .f32⟩) main_call1_v0) (broadcastInDim S10000x64 ![] bcast_S_S10000x64),
    TRef.binary (TRef.of (T := ⟨S10000x64, .f32⟩) main_v46) (TRef.of (T := ⟨S10000x64, .f32⟩) main_call1_v0) (TRef.of (T := ⟨S10000x64, .f32⟩) main_v47) maximumf ]

/-- Segment 4 of the reference's first part: 12 operations. -/
abbrev segR4 : List (HloOp τ sig (Elt F)) :=
  [ binary main_v47 main_arg4 main_v48 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)),
    nullary main_cst_9 (constant S_ .f32 0x3F800000#32),
    unary main_cst_9 main_v49 (broadcastInDim S330000 ![] bcast_S_S330000 : (⟨S_, .f32⟩ : BufTy).Contents (Elt F) → (⟨S330000, .f32⟩ : BufTy).Contents (Elt F)),
    nullary main_cst_10 (constant S_ .f32 0x00000000#32),
    unary main_cst_10 main_v50 (broadcastInDim S10000 ![] bcast_S_S10000 : (⟨S_, .f32⟩ : BufTy).Contents (Elt F) → (⟨S10000, .f32⟩ : BufTy).Contents (Elt F)),
    unary main_v6 main_v51 (broadcastInDim S330000x1 ![0] bcast_S330000_S330000x1_0 : (⟨S330000, .i32⟩ : BufTy).Contents (Elt F) → (⟨S330000x1, .i32⟩ : BufTy).Contents (Elt F)),
    ternary main_v50 main_v51 main_v49 main_v52 ((fun x i u => Host.scatterAdd scatter_S10000_S330000x1_S330000_n_0_0_1 x i u) : (⟨S10000, .f32⟩ : BufTy).Contents (Elt F) → (⟨S330000x1, .i32⟩ : BufTy).Contents (Elt F) → (⟨S330000, .f32⟩ : BufTy).Contents (Elt F) → (⟨S10000, .f32⟩ : BufTy).Contents (Elt F)),
    nullary main_cst_11 (constant S_ .f32 0x00000000#32),
    unary main_cst_11 main_v53 (broadcastInDim S10000 ![] bcast_S_S10000 : (⟨S_, .f32⟩ : BufTy).Contents (Elt F) → (⟨S10000, .f32⟩ : BufTy).Contents (Elt F)),
    binary main_v52 main_v53 main_v54 (cmpf .ogt : (⟨S10000, .f32⟩ : BufTy).Contents (Elt F) → (⟨S10000, .f32⟩ : BufTy).Contents (Elt F) → (⟨S10000, .i1⟩ : BufTy).Contents (Elt F)),
    unary main_v52 main_v55 (Host.rsqrt : (⟨S10000, .f32⟩ : BufTy).Contents (Elt F) → (⟨S10000, .f32⟩ : BufTy).Contents (Elt F)),
    nullary main_cst_12 (constant S_ .f32 0x00000000#32) ]

/-- Segment 5 of the reference's first part: 3 operations. -/
abbrev segR5 : List (HloOp τ sig (Elt F)) :=
  [ TRef.unary (TRef.of (T := ⟨S_, .f32⟩) main_cst_12) (TRef.of (T := ⟨S_, .f32⟩) main_call2_v0) id,
    TRef.unary (TRef.of (T := ⟨S_, .f32⟩) main_call2_v0) (TRef.of (T := ⟨S10000, .f32⟩) main_call2_v1) (broadcastInDim S10000 ![] bcast_S_S10000),
    TRef.ternary (TRef.of (T := ⟨S10000, .i1⟩) main_v54) (TRef.of (T := ⟨S10000, .f32⟩) main_v55) (TRef.of (T := ⟨S10000, .f32⟩) main_call2_v1) (TRef.of (T := ⟨S10000, .f32⟩) main_v56) select ]

/-- Segment 6 of the reference's first part: 38 operations. -/
abbrev segR6 : List (HloOp τ sig (Elt F)) :=
  [ nullary main_c_13 (constantI S_ 32 0#32),
    unary main_c_13 main_v57 (broadcastInDim S330000 ![] bcast_S_S330000 : (⟨S_, .i32⟩ : BufTy).Contents (Elt F) → (⟨S330000, .i32⟩ : BufTy).Contents (Elt F)),
    binary main_v3 main_v57 main_v58 (cmpi .slt : (⟨S330000, .i32⟩ : BufTy).Contents (Elt F) → (⟨S330000, .i32⟩ : BufTy).Contents (Elt F) → (⟨S330000, .i1⟩ : BufTy).Contents (Elt F)),
    nullary main_c_14 (constantI S_ 32 10000#32),
    unary main_c_14 main_v59 (broadcastInDim S330000 ![] bcast_S_S330000 : (⟨S_, .i32⟩ : BufTy).Contents (Elt F) → (⟨S330000, .i32⟩ : BufTy).Contents (Elt F)),
    binary main_v3 main_v59 main_v60 (addi : (⟨S330000, .i32⟩ : BufTy).Contents (Elt F) → (⟨S330000, .i32⟩ : BufTy).Contents (Elt F) → (⟨S330000, .i32⟩ : BufTy).Contents (Elt F)),
    ternary main_v58 main_v60 main_v3 main_v61 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    unary main_v61 main_v62 (broadcastInDim S330000x1 ![0] bcast_S330000_S330000x1_0 : (⟨S330000, .i32⟩ : BufTy).Contents (Elt F) → (⟨S330000x1, .i32⟩ : BufTy).Contents (Elt F)),
    binary main_v56 main_v62 main_v63 ((fun x i => Host.gather gather_S10000_S330000x1_S330000_n_0_n_n_0_1_1 x i) : (⟨S10000, .f32⟩ : BufTy).Contents (Elt F) → (⟨S330000x1, .i32⟩ : BufTy).Contents (Elt F) → (⟨S330000, .f32⟩ : BufTy).Contents (Elt F)),
    nullary main_c_15 (constantI S_ 32 0#32),
    unary main_c_15 main_v64 (broadcastInDim S330000 ![] bcast_S_S330000 : (⟨S_, .i32⟩ : BufTy).Contents (Elt F) → (⟨S330000, .i32⟩ : BufTy).Contents (Elt F)),
    binary main_v6 main_v64 main_v65 (cmpi .slt : (⟨S330000, .i32⟩ : BufTy).Contents (Elt F) → (⟨S330000, .i32⟩ : BufTy).Contents (Elt F) → (⟨S330000, .i1⟩ : BufTy).Contents (Elt F)),
    nullary main_c_16 (constantI S_ 32 10000#32),
    unary main_c_16 main_v66 (broadcastInDim S330000 ![] bcast_S_S330000 : (⟨S_, .i32⟩ : BufTy).Contents (Elt F) → (⟨S330000, .i32⟩ : BufTy).Contents (Elt F)),
    binary main_v6 main_v66 main_v67 (addi : (⟨S330000, .i32⟩ : BufTy).Contents (Elt F) → (⟨S330000, .i32⟩ : BufTy).Contents (Elt F) → (⟨S330000, .i32⟩ : BufTy).Contents (Elt F)),
    ternary main_v65 main_v67 main_v6 main_v68 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    unary main_v68 main_v69 (broadcastInDim S330000x1 ![0] bcast_S330000_S330000x1_0 : (⟨S330000, .i32⟩ : BufTy).Contents (Elt F) → (⟨S330000x1, .i32⟩ : BufTy).Contents (Elt F)),
    binary main_v56 main_v69 main_v70 ((fun x i => Host.gather gather_S10000_S330000x1_S330000_n_0_n_n_0_1_1 x i) : (⟨S10000, .f32⟩ : BufTy).Contents (Elt F) → (⟨S330000x1, .i32⟩ : BufTy).Contents (Elt F) → (⟨S330000, .f32⟩ : BufTy).Contents (Elt F)),
    binary main_v63 main_v70 main_v71 (mulf : (⟨S330000, .f32⟩ : BufTy).Contents (Elt F) → (⟨S330000, .f32⟩ : BufTy).Contents (Elt F) → (⟨S330000, .f32⟩ : BufTy).Contents (Elt F)),
    nullary main_c_17 (constantI S_ 32 0#32),
    unary main_c_17 main_v72 (broadcastInDim S330000 ![] bcast_S_S330000 : (⟨S_, .i32⟩ : BufTy).Contents (Elt F) → (⟨S330000, .i32⟩ : BufTy).Contents (Elt F)),
    binary main_v3 main_v72 main_v73 (cmpi .slt : (⟨S330000, .i32⟩ : BufTy).Contents (Elt F) → (⟨S330000, .i32⟩ : BufTy).Contents (Elt F) → (⟨S330000, .i1⟩ : BufTy).Contents (Elt F)),
    nullary main_c_18 (constantI S_ 32 10000#32),
    unary main_c_18 main_v74 (broadcastInDim S330000 ![] bcast_S_S330000 : (⟨S_, .i32⟩ : BufTy).Contents (Elt F) → (⟨S330000, .i32⟩ : BufTy).Contents (Elt F)),
    binary main_v3 main_v74 main_v75 (addi : (⟨S330000, .i32⟩ : BufTy).Contents (Elt F) → (⟨S330000, .i32⟩ : BufTy).Contents (Elt F) → (⟨S330000, .i32⟩ : BufTy).Contents (Elt F)),
    ternary main_v73 main_v75 main_v3 main_v76 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    unary main_v76 main_v77 (broadcastInDim S330000x1 ![0] bcast_S330000_S330000x1_0 : (⟨S330000, .i32⟩ : BufTy).Contents (Elt F) → (⟨S330000x1, .i32⟩ : BufTy).Contents (Elt F)),
    binary main_v48 main_v77 main_v78 ((fun x i => Host.gather gather_S10000x64_S330000x1_S330000x64_1_0_n_n_0_1_164 x i) : (⟨S10000x64, .f32⟩ : BufTy).Contents (Elt F) → (⟨S330000x1, .i32⟩ : BufTy).Contents (Elt F) → (⟨S330000x64, .f32⟩ : BufTy).Contents (Elt F)),
    unary main_v71 main_v79 (broadcastInDim S330000x1 ![0] bcast_S330000_S330000x1_0 : (⟨S330000, .f32⟩ : BufTy).Contents (Elt F) → (⟨S330000x1, .f32⟩ : BufTy).Contents (Elt F)),
    unary main_v79 main_v80 (broadcastInDim S330000x64 ![0, 1] bcast_S330000x1_S330000x64_0_1 : (⟨S330000x1, .f32⟩ : BufTy).Contents (Elt F) → (⟨S330000x64, .f32⟩ : BufTy).Contents (Elt F)),
    binary main_v78 main_v80 main_v81 (mulf : (⟨S330000x64, .f32⟩ : BufTy).Contents (Elt F) → (⟨S330000x64, .f32⟩ : BufTy).Contents (Elt F) → (⟨S330000x64, .f32⟩ : BufTy).Contents (Elt F)),
    nullary main_cst_19 (constant S_ .f32 0x00000000#32),
    unary main_cst_19 main_v82 (broadcastInDim S10000x64 ![] bcast_S_S10000x64 : (⟨S_, .f32⟩ : BufTy).Contents (Elt F) → (⟨S10000x64, .f32⟩ : BufTy).Contents (Elt F)),
    unary main_v6 main_v83 (broadcastInDim S330000x1 ![0] bcast_S330000_S330000x1_0 : (⟨S330000, .i32⟩ : BufTy).Contents (Elt F) → (⟨S330000x1, .i32⟩ : BufTy).Contents (Elt F)),
    ternary main_v82 main_v83 main_v81 main_v84 ((fun x i u => Host.scatterAdd scatter_S10000x64_S330000x1_S330000x64_1_0_0_1 x i u) : (⟨S10000x64, .f32⟩ : BufTy).Contents (Elt F) → (⟨S330000x1, .i32⟩ : BufTy).Contents (Elt F) → (⟨S330000x64, .f32⟩ : BufTy).Contents (Elt F) → (⟨S10000x64, .f32⟩ : BufTy).Contents (Elt F)),
    unary main_arg5 main_v85 (broadcastInDim S1x64 ![1] bcast_S64_S1x64_1 : (⟨S64, .f32⟩ : BufTy).Contents (Elt F) → (⟨S1x64, .f32⟩ : BufTy).Contents (Elt F)),
    unary main_v85 main_v86 (broadcastInDim S10000x64 ![0, 1] bcast_S1x64_S10000x64_0_1 : (⟨S1x64, .f32⟩ : BufTy).Contents (Elt F) → (⟨S10000x64, .f32⟩ : BufTy).Contents (Elt F)),
    binary main_v84 main_v86 main_v87 (addf : (⟨S10000x64, .f32⟩ : BufTy).Contents (Elt F) → (⟨S10000x64, .f32⟩ : BufTy).Contents (Elt F) → (⟨S10000x64, .f32⟩ : BufTy).Contents (Elt F)) ]

set_option maxHeartbeats 4000000 in
/-- The segments, in order, are the reference's first part. -/
theorem headOps_split : (Cert.RefSide.headOps : List (HloOp τ sig (Elt F)))
    = segR0 ++ (segR1 ++ (segR2 ++ (segR3 ++ (segR4 ++ (segR5 ++ segR6))))) := rfl

end RSide

/-! ## One segment at a time -/

section Cross

set_option maxHeartbeats 8000000

variable (VK : Valuation Cert.KernelIdeal.τ Cert.KernelIdeal.sig (Elt Ideal)) (VR : Valuation Cert.ReferenceIdeal.τ Cert.ReferenceIdeal.sig (Elt Ideal))

/-- The two memories agree on the arrays still to be read at the start. -/
def Agree0 (VK : Valuation Cert.KernelIdeal.τ Cert.KernelIdeal.sig (Elt Ideal)) (VR : Valuation Cert.ReferenceIdeal.τ Cert.ReferenceIdeal.sig (Elt Ideal)) : Prop :=
  ((VK (Proc.devRef (τ := Cert.KernelIdeal.τ) .tc Cert.KernelIdeal.main_arg0) : (Cert.KernelIdeal.main_arg0).ty.Contents (Elt Ideal)) = VR (Proc.devRef (τ := Cert.ReferenceIdeal.τ) .tc Cert.ReferenceIdeal.main_arg0))
  ∧ ((VK (Proc.devRef (τ := Cert.KernelIdeal.τ) .tc Cert.KernelIdeal.main_arg1) : (Cert.KernelIdeal.main_arg1).ty.Contents (Elt Ideal)) = VR (Proc.devRef (τ := Cert.ReferenceIdeal.τ) .tc Cert.ReferenceIdeal.main_arg1))
  ∧ ((VK (Proc.devRef (τ := Cert.KernelIdeal.τ) .tc Cert.KernelIdeal.main_arg2) : (Cert.KernelIdeal.main_arg2).ty.Contents (Elt Ideal)) = VR (Proc.devRef (τ := Cert.ReferenceIdeal.τ) .tc Cert.ReferenceIdeal.main_arg2))
  ∧ ((VK (Proc.devRef (τ := Cert.KernelIdeal.τ) .tc Cert.KernelIdeal.main_arg3) : (Cert.KernelIdeal.main_arg3).ty.Contents (Elt Ideal)) = VR (Proc.devRef (τ := Cert.ReferenceIdeal.τ) .tc Cert.ReferenceIdeal.main_arg3))
  ∧ ((VK (Proc.devRef (τ := Cert.KernelIdeal.τ) .tc Cert.KernelIdeal.main_arg4) : (Cert.KernelIdeal.main_arg4).ty.Contents (Elt Ideal)) = VR (Proc.devRef (τ := Cert.ReferenceIdeal.τ) .tc Cert.ReferenceIdeal.main_arg4))
  ∧ ((VK (Proc.devRef (τ := Cert.KernelIdeal.τ) .tc Cert.KernelIdeal.main_arg5) : (Cert.KernelIdeal.main_arg5).ty.Contents (Elt Ideal)) = VR (Proc.devRef (τ := Cert.ReferenceIdeal.τ) .tc Cert.ReferenceIdeal.main_arg5))

/-- The two memories agree on the arrays still to be read after segment 0. -/
def Agree1 (VK : Valuation Cert.KernelIdeal.τ Cert.KernelIdeal.sig (Elt Ideal)) (VR : Valuation Cert.ReferenceIdeal.τ Cert.ReferenceIdeal.sig (Elt Ideal)) : Prop :=
  ((VK (Proc.devRef (τ := Cert.KernelIdeal.τ) .tc Cert.KernelIdeal.main_v3) : (Cert.KernelIdeal.main_v3).ty.Contents (Elt Ideal)) = VR (Proc.devRef (τ := Cert.ReferenceIdeal.τ) .tc Cert.ReferenceIdeal.main_v3))
  ∧ ((VK (Proc.devRef (τ := Cert.KernelIdeal.τ) .tc Cert.KernelIdeal.main_v6) : (Cert.KernelIdeal.main_v6).ty.Contents (Elt Ideal)) = VR (Proc.devRef (τ := Cert.ReferenceIdeal.τ) .tc Cert.ReferenceIdeal.main_v6))
  ∧ ((VK (Proc.devRef (τ := Cert.KernelIdeal.τ) .tc Cert.KernelIdeal.main_v7) : (Cert.KernelIdeal.main_v7).ty.Contents (Elt Ideal)) = VR (Proc.devRef (τ := Cert.ReferenceIdeal.τ) .tc Cert.ReferenceIdeal.main_v7))
  ∧ ((VK (Proc.devRef (τ := Cert.KernelIdeal.τ) .tc Cert.KernelIdeal.main_v13) : (Cert.KernelIdeal.main_v13).ty.Contents (Elt Ideal)) = VR (Proc.devRef (τ := Cert.ReferenceIdeal.τ) .tc Cert.ReferenceIdeal.main_v13))
  ∧ ((VK (Proc.devRef (τ := Cert.KernelIdeal.τ) .tc Cert.KernelIdeal.main_v14) : (Cert.KernelIdeal.main_v14).ty.Contents (Elt Ideal)) = VR (Proc.devRef (τ := Cert.ReferenceIdeal.τ) .tc Cert.ReferenceIdeal.main_v14))
  ∧ ((VK (Proc.devRef (τ := Cert.KernelIdeal.τ) .tc Cert.KernelIdeal.main_cst_2) : (Cert.KernelIdeal.main_cst_2).ty.Contents (Elt Ideal)) = VR (Proc.devRef (τ := Cert.ReferenceIdeal.τ) .tc Cert.ReferenceIdeal.main_cst_2))
  ∧ ((VK (Proc.devRef (τ := Cert.KernelIdeal.τ) .tc Cert.KernelIdeal.main_arg3) : (Cert.KernelIdeal.main_arg3).ty.Contents (Elt Ideal)) = VR (Proc.devRef (τ := Cert.ReferenceIdeal.τ) .tc Cert.ReferenceIdeal.main_arg3))
  ∧ ((VK (Proc.devRef (τ := Cert.KernelIdeal.τ) .tc Cert.KernelIdeal.main_arg4) : (Cert.KernelIdeal.main_arg4).ty.Contents (Elt Ideal)) = VR (Proc.devRef (τ := Cert.ReferenceIdeal.τ) .tc Cert.ReferenceIdeal.main_arg4))
  ∧ ((VK (Proc.devRef (τ := Cert.KernelIdeal.τ) .tc Cert.KernelIdeal.main_arg5) : (Cert.KernelIdeal.main_arg5).ty.Contents (Elt Ideal)) = VR (Proc.devRef (τ := Cert.ReferenceIdeal.τ) .tc Cert.ReferenceIdeal.main_arg5))

/-- The two memories agree on the arrays still to be read after segment 1. -/
def Agree2 (VK : Valuation Cert.KernelIdeal.τ Cert.KernelIdeal.sig (Elt Ideal)) (VR : Valuation Cert.ReferenceIdeal.τ Cert.ReferenceIdeal.sig (Elt Ideal)) : Prop :=
  ((VK (Proc.devRef (τ := Cert.KernelIdeal.τ) .tc Cert.KernelIdeal.main_v3) : (Cert.KernelIdeal.main_v3).ty.Contents (Elt Ideal)) = VR (Proc.devRef (τ := Cert.ReferenceIdeal.τ) .tc Cert.ReferenceIdeal.main_v3))
  ∧ ((VK (Proc.devRef (τ := Cert.KernelIdeal.τ) .tc Cert.KernelIdeal.main_v6) : (Cert.KernelIdeal.main_v6).ty.Contents (Elt Ideal)) = VR (Proc.devRef (τ := Cert.ReferenceIdeal.τ) .tc Cert.ReferenceIdeal.main_v6))
  ∧ ((VK (Proc.devRef (τ := Cert.KernelIdeal.τ) .tc Cert.KernelIdeal.main_v7) : (Cert.KernelIdeal.main_v7).ty.Contents (Elt Ideal)) = VR (Proc.devRef (τ := Cert.ReferenceIdeal.τ) .tc Cert.ReferenceIdeal.main_v7))
  ∧ ((VK (Proc.devRef (τ := Cert.KernelIdeal.τ) .tc Cert.KernelIdeal.main_v15) : (Cert.KernelIdeal.main_v15).ty.Contents (Elt Ideal)) = VR (Proc.devRef (τ := Cert.ReferenceIdeal.τ) .tc Cert.ReferenceIdeal.main_v15))
  ∧ ((VK (Proc.devRef (τ := Cert.KernelIdeal.τ) .tc Cert.KernelIdeal.main_arg3) : (Cert.KernelIdeal.main_arg3).ty.Contents (Elt Ideal)) = VR (Proc.devRef (τ := Cert.ReferenceIdeal.τ) .tc Cert.ReferenceIdeal.main_arg3))
  ∧ ((VK (Proc.devRef (τ := Cert.KernelIdeal.τ) .tc Cert.KernelIdeal.main_arg4) : (Cert.KernelIdeal.main_arg4).ty.Contents (Elt Ideal)) = VR (Proc.devRef (τ := Cert.ReferenceIdeal.τ) .tc Cert.ReferenceIdeal.main_arg4))
  ∧ ((VK (Proc.devRef (τ := Cert.KernelIdeal.τ) .tc Cert.KernelIdeal.main_arg5) : (Cert.KernelIdeal.main_arg5).ty.Contents (Elt Ideal)) = VR (Proc.devRef (τ := Cert.ReferenceIdeal.τ) .tc Cert.ReferenceIdeal.main_arg5))

/-- The two memories agree on the arrays still to be read after segment 2. -/
def Agree3 (VK : Valuation Cert.KernelIdeal.τ Cert.KernelIdeal.sig (Elt Ideal)) (VR : Valuation Cert.ReferenceIdeal.τ Cert.ReferenceIdeal.sig (Elt Ideal)) : Prop :=
  ((VK (Proc.devRef (τ := Cert.KernelIdeal.τ) .tc Cert.KernelIdeal.main_v3) : (Cert.KernelIdeal.main_v3).ty.Contents (Elt Ideal)) = VR (Proc.devRef (τ := Cert.ReferenceIdeal.τ) .tc Cert.ReferenceIdeal.main_v3))
  ∧ ((VK (Proc.devRef (τ := Cert.KernelIdeal.τ) .tc Cert.KernelIdeal.main_v6) : (Cert.KernelIdeal.main_v6).ty.Contents (Elt Ideal)) = VR (Proc.devRef (τ := Cert.ReferenceIdeal.τ) .tc Cert.ReferenceIdeal.main_v6))
  ∧ ((VK (Proc.devRef (τ := Cert.KernelIdeal.τ) .tc Cert.KernelIdeal.main_v46) : (Cert.KernelIdeal.main_v46).ty.Contents (Elt Ideal)) = VR (Proc.devRef (τ := Cert.ReferenceIdeal.τ) .tc Cert.ReferenceIdeal.main_v46))
  ∧ ((VK (Proc.devRef (τ := Cert.KernelIdeal.τ) .tc Cert.KernelIdeal.main_arg4) : (Cert.KernelIdeal.main_arg4).ty.Contents (Elt Ideal)) = VR (Proc.devRef (τ := Cert.ReferenceIdeal.τ) .tc Cert.ReferenceIdeal.main_arg4))
  ∧ ((VK (Proc.devRef (τ := Cert.KernelIdeal.τ) .tc Cert.KernelIdeal.main_arg5) : (Cert.KernelIdeal.main_arg5).ty.Contents (Elt Ideal)) = VR (Proc.devRef (τ := Cert.ReferenceIdeal.τ) .tc Cert.ReferenceIdeal.main_arg5))

/-- The two memories agree on the arrays still to be read after segment 3. -/
def Agree4 (VK : Valuation Cert.KernelIdeal.τ Cert.KernelIdeal.sig (Elt Ideal)) (VR : Valuation Cert.ReferenceIdeal.τ Cert.ReferenceIdeal.sig (Elt Ideal)) : Prop :=
  ((VK (Proc.devRef (τ := Cert.KernelIdeal.τ) .tc Cert.KernelIdeal.main_v3) : (Cert.KernelIdeal.main_v3).ty.Contents (Elt Ideal)) = VR (Proc.devRef (τ := Cert.ReferenceIdeal.τ) .tc Cert.ReferenceIdeal.main_v3))
  ∧ ((VK (Proc.devRef (τ := Cert.KernelIdeal.τ) .tc Cert.KernelIdeal.main_v6) : (Cert.KernelIdeal.main_v6).ty.Contents (Elt Ideal)) = VR (Proc.devRef (τ := Cert.ReferenceIdeal.τ) .tc Cert.ReferenceIdeal.main_v6))
  ∧ ((VK (Proc.devRef (τ := Cert.KernelIdeal.τ) .tc Cert.KernelIdeal.main_v47) : (Cert.KernelIdeal.main_v47).ty.Contents (Elt Ideal)) = VR (Proc.devRef (τ := Cert.ReferenceIdeal.τ) .tc Cert.ReferenceIdeal.main_v47))
  ∧ ((VK (Proc.devRef (τ := Cert.KernelIdeal.τ) .tc Cert.KernelIdeal.main_arg4) : (Cert.KernelIdeal.main_arg4).ty.Contents (Elt Ideal)) = VR (Proc.devRef (τ := Cert.ReferenceIdeal.τ) .tc Cert.ReferenceIdeal.main_arg4))
  ∧ ((VK (Proc.devRef (τ := Cert.KernelIdeal.τ) .tc Cert.KernelIdeal.main_arg5) : (Cert.KernelIdeal.main_arg5).ty.Contents (Elt Ideal)) = VR (Proc.devRef (τ := Cert.ReferenceIdeal.τ) .tc Cert.ReferenceIdeal.main_arg5))

/-- The two memories agree on the arrays still to be read after segment 4. -/
def Agree5 (VK : Valuation Cert.KernelIdeal.τ Cert.KernelIdeal.sig (Elt Ideal)) (VR : Valuation Cert.ReferenceIdeal.τ Cert.ReferenceIdeal.sig (Elt Ideal)) : Prop :=
  ((VK (Proc.devRef (τ := Cert.KernelIdeal.τ) .tc Cert.KernelIdeal.main_v3) : (Cert.KernelIdeal.main_v3).ty.Contents (Elt Ideal)) = VR (Proc.devRef (τ := Cert.ReferenceIdeal.τ) .tc Cert.ReferenceIdeal.main_v3))
  ∧ ((VK (Proc.devRef (τ := Cert.KernelIdeal.τ) .tc Cert.KernelIdeal.main_v6) : (Cert.KernelIdeal.main_v6).ty.Contents (Elt Ideal)) = VR (Proc.devRef (τ := Cert.ReferenceIdeal.τ) .tc Cert.ReferenceIdeal.main_v6))
  ∧ ((VK (Proc.devRef (τ := Cert.KernelIdeal.τ) .tc Cert.KernelIdeal.main_v48) : (Cert.KernelIdeal.main_v48).ty.Contents (Elt Ideal)) = VR (Proc.devRef (τ := Cert.ReferenceIdeal.τ) .tc Cert.ReferenceIdeal.main_v48))
  ∧ ((VK (Proc.devRef (τ := Cert.KernelIdeal.τ) .tc Cert.KernelIdeal.main_v54) : (Cert.KernelIdeal.main_v54).ty.Contents (Elt Ideal)) = VR (Proc.devRef (τ := Cert.ReferenceIdeal.τ) .tc Cert.ReferenceIdeal.main_v54))
  ∧ ((VK (Proc.devRef (τ := Cert.KernelIdeal.τ) .tc Cert.KernelIdeal.main_v55) : (Cert.KernelIdeal.main_v55).ty.Contents (Elt Ideal)) = VR (Proc.devRef (τ := Cert.ReferenceIdeal.τ) .tc Cert.ReferenceIdeal.main_v55))
  ∧ ((VK (Proc.devRef (τ := Cert.KernelIdeal.τ) .tc Cert.KernelIdeal.main_cst_12) : (Cert.KernelIdeal.main_cst_12).ty.Contents (Elt Ideal)) = VR (Proc.devRef (τ := Cert.ReferenceIdeal.τ) .tc Cert.ReferenceIdeal.main_cst_12))
  ∧ ((VK (Proc.devRef (τ := Cert.KernelIdeal.τ) .tc Cert.KernelIdeal.main_arg5) : (Cert.KernelIdeal.main_arg5).ty.Contents (Elt Ideal)) = VR (Proc.devRef (τ := Cert.ReferenceIdeal.τ) .tc Cert.ReferenceIdeal.main_arg5))

/-- The two memories agree on the arrays still to be read after segment 5. -/
def Agree6 (VK : Valuation Cert.KernelIdeal.τ Cert.KernelIdeal.sig (Elt Ideal)) (VR : Valuation Cert.ReferenceIdeal.τ Cert.ReferenceIdeal.sig (Elt Ideal)) : Prop :=
  ((VK (Proc.devRef (τ := Cert.KernelIdeal.τ) .tc Cert.KernelIdeal.main_v3) : (Cert.KernelIdeal.main_v3).ty.Contents (Elt Ideal)) = VR (Proc.devRef (τ := Cert.ReferenceIdeal.τ) .tc Cert.ReferenceIdeal.main_v3))
  ∧ ((VK (Proc.devRef (τ := Cert.KernelIdeal.τ) .tc Cert.KernelIdeal.main_v6) : (Cert.KernelIdeal.main_v6).ty.Contents (Elt Ideal)) = VR (Proc.devRef (τ := Cert.ReferenceIdeal.τ) .tc Cert.ReferenceIdeal.main_v6))
  ∧ ((VK (Proc.devRef (τ := Cert.KernelIdeal.τ) .tc Cert.KernelIdeal.main_v48) : (Cert.KernelIdeal.main_v48).ty.Contents (Elt Ideal)) = VR (Proc.devRef (τ := Cert.ReferenceIdeal.τ) .tc Cert.ReferenceIdeal.main_v48))
  ∧ ((VK (Proc.devRef (τ := Cert.KernelIdeal.τ) .tc Cert.KernelIdeal.main_v56) : (Cert.KernelIdeal.main_v56).ty.Contents (Elt Ideal)) = VR (Proc.devRef (τ := Cert.ReferenceIdeal.τ) .tc Cert.ReferenceIdeal.main_v56))
  ∧ ((VK (Proc.devRef (τ := Cert.KernelIdeal.τ) .tc Cert.KernelIdeal.main_arg5) : (Cert.KernelIdeal.main_arg5).ty.Contents (Elt Ideal)) = VR (Proc.devRef (τ := Cert.ReferenceIdeal.τ) .tc Cert.ReferenceIdeal.main_arg5))

end Cross

end Cert.HeadLayers

end
-- ==== Proof.HeadStep0.lean ====
import proofs.«180243_j86045374808276_2_alg».proof.Proof.HeadSeg

/-! Segment 0 of the two lines of operations: from memories that agree on the arrays the segment reads, the two
memories after it agree on the arrays still to be read. -/

set_option maxRecDepth 16384

noncomputable section

namespace Cert.HeadLayers

open Idealize.ShloMosaic Idealize.ShloMosaic.TcCoe Idealize.SL.Sem Idealize.ShloMosaic.StableHlo

section Cross

set_option maxHeartbeats 8000000

variable (VK : Valuation Cert.KernelIdeal.τ Cert.KernelIdeal.sig (Elt Ideal)) (VR : Valuation Cert.ReferenceIdeal.τ Cert.ReferenceIdeal.sig (Elt Ideal))

theorem step0_v3 (h_arg0 : (VK (Proc.devRef (τ := Cert.KernelIdeal.τ) .tc Cert.KernelIdeal.main_arg0) : (Cert.KernelIdeal.main_arg0).ty.Contents (Elt Ideal)) = VR (Proc.devRef (τ := Cert.ReferenceIdeal.τ) .tc Cert.ReferenceIdeal.main_arg0)) (h_arg1 : (VK (Proc.devRef (τ := Cert.KernelIdeal.τ) .tc Cert.KernelIdeal.main_arg1) : (Cert.KernelIdeal.main_arg1).ty.Contents (Elt Ideal)) = VR (Proc.devRef (τ := Cert.ReferenceIdeal.τ) .tc Cert.ReferenceIdeal.main_arg1)) (h_arg2 : (VK (Proc.devRef (τ := Cert.KernelIdeal.τ) .tc Cert.KernelIdeal.main_arg2) : (Cert.KernelIdeal.main_arg2).ty.Contents (Elt Ideal)) = VR (Proc.devRef (τ := Cert.ReferenceIdeal.τ) .tc Cert.ReferenceIdeal.main_arg2)) (h_arg3 : (VK (Proc.devRef (τ := Cert.KernelIdeal.τ) .tc Cert.KernelIdeal.main_arg3) : (Cert.KernelIdeal.main_arg3).ty.Contents (Elt Ideal)) = VR (Proc.devRef (τ := Cert.ReferenceIdeal.τ) .tc Cert.ReferenceIdeal.main_arg3)) (h_arg4 : (VK (Proc.devRef (τ := Cert.KernelIdeal.τ) .tc Cert.KernelIdeal.main_arg4) : (Cert.KernelIdeal.main_arg4).ty.Contents (Elt Ideal)) = VR (Proc.devRef (τ := Cert.ReferenceIdeal.τ) .tc Cert.ReferenceIdeal.main_arg4)) (h_arg5 : (VK (Proc.devRef (τ := Cert.KernelIdeal.τ) .tc Cert.KernelIdeal.main_arg5) : (Cert.KernelIdeal.main_arg5).ty.Contents (Elt Ideal)) = VR (Proc.devRef (τ := Cert.ReferenceIdeal.τ) .tc Cert.ReferenceIdeal.main_arg5)) :
    (after (Cert.KernelIdeal.Gen.hostOps0 (F := Ideal)) VK (Proc.devRef (τ := Cert.KernelIdeal.τ) .tc Cert.KernelIdeal.main_v3) : (Cert.KernelIdeal.main_v3).ty.Contents (Elt Ideal))
      = after (segR0 (F := Ideal)) VR (Proc.devRef (τ := Cert.ReferenceIdeal.τ) .tc Cert.ReferenceIdeal.main_v3) := by
  simp only [Cert.KernelIdeal.Gen.hostOps0, segR0]
  ars
  all_goals first
    | ((try simp only [h_arg0, h_arg1, h_arg2, h_arg3, h_arg4, h_arg5]) <;> rfl)

theorem step0_v6 (h_arg0 : (VK (Proc.devRef (τ := Cert.KernelIdeal.τ) .tc Cert.KernelIdeal.main_arg0) : (Cert.KernelIdeal.main_arg0).ty.Contents (Elt Ideal)) = VR (Proc.devRef (τ := Cert.ReferenceIdeal.τ) .tc Cert.ReferenceIdeal.main_arg0)) (h_arg1 : (VK (Proc.devRef (τ := Cert.KernelIdeal.τ) .tc Cert.KernelIdeal.main_arg1) : (Cert.KernelIdeal.main_arg1).ty.Contents (Elt Ideal)) = VR (Proc.devRef (τ := Cert.ReferenceIdeal.τ) .tc Cert.ReferenceIdeal.main_arg1)) (h_arg2 : (VK (Proc.devRef (τ := Cert.KernelIdeal.τ) .tc Cert.KernelIdeal.main_arg2) : (Cert.KernelIdeal.main_arg2).ty.Contents (Elt Ideal)) = VR (Proc.devRef (τ := Cert.ReferenceIdeal.τ) .tc Cert.ReferenceIdeal.main_arg2)) (h_arg3 : (VK (Proc.devRef (τ := Cert.KernelIdeal.τ) .tc Cert.KernelIdeal.main_arg3) : (Cert.KernelIdeal.main_arg3).ty.Contents (Elt Ideal)) = VR (Proc.devRef (τ := Cert.ReferenceIdeal.τ) .tc Cert.ReferenceIdeal.main_arg3)) (h_arg4 : (VK (Proc.devRef (τ := Cert.KernelIdeal.τ) .tc Cert.KernelIdeal.main_arg4) : (Cert.KernelIdeal.main_arg4).ty.Contents (Elt Ideal)) = VR (Proc.devRef (τ := Cert.ReferenceIdeal.τ) .tc Cert.ReferenceIdeal.main_arg4)) (h_arg5 : (VK (Proc.devRef (τ := Cert.KernelIdeal.τ) .tc Cert.KernelIdeal.main_arg5) : (Cert.KernelIdeal.main_arg5).ty.Contents (Elt Ideal)) = VR (Proc.devRef (τ := Cert.ReferenceIdeal.τ) .tc Cert.ReferenceIdeal.main_arg5)) :
    (after (Cert.KernelIdeal.Gen.hostOps0 (F := Ideal)) VK (Proc.devRef (τ := Cert.KernelIdeal.τ) .tc Cert.KernelIdeal.main_v6) : (Cert.KernelIdeal.main_v6).ty.Contents (Elt Ideal))
      = after (segR0 (F := Ideal)) VR (Proc.devRef (τ := Cert.ReferenceIdeal.τ) .tc Cert.ReferenceIdeal.main_v6) := by
  simp only [Cert.KernelIdeal.Gen.hostOps0, segR0]
  ars
  all_goals first
    | ((try simp only [h_arg0, h_arg1, h_arg2, h_arg3, h_arg4, h_arg5]) <;> rfl)

theorem step0_v7 (h_arg0 : (VK (Proc.devRef (τ := Cert.KernelIdeal.τ) .tc Cert.KernelIdeal.main_arg0) : (Cert.KernelIdeal.main_arg0).ty.Contents (Elt Ideal)) = VR (Proc.devRef (τ := Cert.ReferenceIdeal.τ) .tc Cert.ReferenceIdeal.main_arg0)) (h_arg1 : (VK (Proc.devRef (τ := Cert.KernelIdeal.τ) .tc Cert.KernelIdeal.main_arg1) : (Cert.KernelIdeal.main_arg1).ty.Contents (Elt Ideal)) = VR (Proc.devRef (τ := Cert.ReferenceIdeal.τ) .tc Cert.ReferenceIdeal.main_arg1)) (h_arg2 : (VK (Proc.devRef (τ := Cert.KernelIdeal.τ) .tc Cert.KernelIdeal.main_arg2) : (Cert.KernelIdeal.main_arg2).ty.Contents (Elt Ideal)) = VR (Proc.devRef (τ := Cert.ReferenceIdeal.τ) .tc Cert.ReferenceIdeal.main_arg2)) (h_arg3 : (VK (Proc.devRef (τ := Cert.KernelIdeal.τ) .tc Cert.KernelIdeal.main_arg3) : (Cert.KernelIdeal.main_arg3).ty.Contents (Elt Ideal)) = VR (Proc.devRef (τ := Cert.ReferenceIdeal.τ) .tc Cert.ReferenceIdeal.main_arg3)) (h_arg4 : (VK (Proc.devRef (τ := Cert.KernelIdeal.τ) .tc Cert.KernelIdeal.main_arg4) : (Cert.KernelIdeal.main_arg4).ty.Contents (Elt Ideal)) = VR (Proc.devRef (τ := Cert.ReferenceIdeal.τ) .tc Cert.ReferenceIdeal.main_arg4)) (h_arg5 : (VK (Proc.devRef (τ := Cert.KernelIdeal.τ) .tc Cert.KernelIdeal.main_arg5) : (Cert.KernelIdeal.main_arg5).ty.Contents (Elt Ideal)) = VR (Proc.devRef (τ := Cert.ReferenceIdeal.τ) .tc Cert.ReferenceIdeal.main_arg5)) :
    (after (Cert.KernelIdeal.Gen.hostOps0 (F := Ideal)) VK (Proc.devRef (τ := Cert.KernelIdeal.τ) .tc Cert.KernelIdeal.main_v7) : (Cert.KernelIdeal.main_v7).ty.Contents (Elt Ideal))
      = after (segR0 (F := Ideal)) VR (Proc.devRef (τ := Cert.ReferenceIdeal.τ) .tc Cert.ReferenceIdeal.main_v7) := by
  simp only [Cert.KernelIdeal.Gen.hostOps0, segR0]
  ars
  all_goals first
    | ((try simp only [h_arg0, h_arg1, h_arg2, h_arg3, h_arg4, h_arg5]) <;> rfl)

theorem step0_v13 (h_arg0 : (VK (Proc.devRef (τ := Cert.KernelIdeal.τ) .tc Cert.KernelIdeal.main_arg0) : (Cert.KernelIdeal.main_arg0).ty.Contents (Elt Ideal)) = VR (Proc.devRef (τ := Cert.ReferenceIdeal.τ) .tc Cert.ReferenceIdeal.main_arg0)) (h_arg1 : (VK (Proc.devRef (τ := Cert.KernelIdeal.τ) .tc Cert.KernelIdeal.main_arg1) : (Cert.KernelIdeal.main_arg1).ty.Contents (Elt Ideal)) = VR (Proc.devRef (τ := Cert.ReferenceIdeal.τ) .tc Cert.ReferenceIdeal.main_arg1)) (h_arg2 : (VK (Proc.devRef (τ := Cert.KernelIdeal.τ) .tc Cert.KernelIdeal.main_arg2) : (Cert.KernelIdeal.main_arg2).ty.Contents (Elt Ideal)) = VR (Proc.devRef (τ := Cert.ReferenceIdeal.τ) .tc Cert.ReferenceIdeal.main_arg2)) (h_arg3 : (VK (Proc.devRef (τ := Cert.KernelIdeal.τ) .tc Cert.KernelIdeal.main_arg3) : (Cert.KernelIdeal.main_arg3).ty.Contents (Elt Ideal)) = VR (Proc.devRef (τ := Cert.ReferenceIdeal.τ) .tc Cert.ReferenceIdeal.main_arg3)) (h_arg4 : (VK (Proc.devRef (τ := Cert.KernelIdeal.τ) .tc Cert.KernelIdeal.main_arg4) : (Cert.KernelIdeal.main_arg4).ty.Contents (Elt Ideal)) = VR (Proc.devRef (τ := Cert.ReferenceIdeal.τ) .tc Cert.ReferenceIdeal.main_arg4)) (h_arg5 : (VK (Proc.devRef (τ := Cert.KernelIdeal.τ) .tc Cert.KernelIdeal.main_arg5) : (Cert.KernelIdeal.main_arg5).ty.Contents (Elt Ideal)) = VR (Proc.devRef (τ := Cert.ReferenceIdeal.τ) .tc Cert.ReferenceIdeal.main_arg5)) :
    (after (Cert.KernelIdeal.Gen.hostOps0 (F := Ideal)) VK (Proc.devRef (τ := Cert.KernelIdeal.τ) .tc Cert.KernelIdeal.main_v13) : (Cert.KernelIdeal.main_v13).ty.Contents (Elt Ideal))
      = after (segR0 (F := Ideal)) VR (Proc.devRef (τ := Cert.ReferenceIdeal.τ) .tc Cert.ReferenceIdeal.main_v13) := by
  simp only [Cert.KernelIdeal.Gen.hostOps0, segR0]
  ars
  all_goals first
    | ((try simp only [h_arg0, h_arg1, h_arg2, h_arg3, h_arg4, h_arg5]) <;> rfl)

theorem step0_v14 (h_arg0 : (VK (Proc.devRef (τ := Cert.KernelIdeal.τ) .tc Cert.KernelIdeal.main_arg0) : (Cert.KernelIdeal.main_arg0).ty.Contents (Elt Ideal)) = VR (Proc.devRef (τ := Cert.ReferenceIdeal.τ) .tc Cert.ReferenceIdeal.main_arg0)) (h_arg1 : (VK (Proc.devRef (τ := Cert.KernelIdeal.τ) .tc Cert.KernelIdeal.main_arg1) : (Cert.KernelIdeal.main_arg1).ty.Contents (Elt Ideal)) = VR (Proc.devRef (τ := Cert.ReferenceIdeal.τ) .tc Cert.ReferenceIdeal.main_arg1)) (h_arg2 : (VK (Proc.devRef (τ := Cert.KernelIdeal.τ) .tc Cert.KernelIdeal.main_arg2) : (Cert.KernelIdeal.main_arg2).ty.Contents (Elt Ideal)) = VR (Proc.devRef (τ := Cert.ReferenceIdeal.τ) .tc Cert.ReferenceIdeal.main_arg2)) (h_arg3 : (VK (Proc.devRef (τ := Cert.KernelIdeal.τ) .tc Cert.KernelIdeal.main_arg3) : (Cert.KernelIdeal.main_arg3).ty.Contents (Elt Ideal)) = VR (Proc.devRef (τ := Cert.ReferenceIdeal.τ) .tc Cert.ReferenceIdeal.main_arg3)) (h_arg4 : (VK (Proc.devRef (τ := Cert.KernelIdeal.τ) .tc Cert.KernelIdeal.main_arg4) : (Cert.KernelIdeal.main_arg4).ty.Contents (Elt Ideal)) = VR (Proc.devRef (τ := Cert.ReferenceIdeal.τ) .tc Cert.ReferenceIdeal.main_arg4)) (h_arg5 : (VK (Proc.devRef (τ := Cert.KernelIdeal.τ) .tc Cert.KernelIdeal.main_arg5) : (Cert.KernelIdeal.main_arg5).ty.Contents (Elt Ideal)) = VR (Proc.devRef (τ := Cert.ReferenceIdeal.τ) .tc Cert.ReferenceIdeal.main_arg5)) :
    (after (Cert.KernelIdeal.Gen.hostOps0 (F := Ideal)) VK (Proc.devRef (τ := Cert.KernelIdeal.τ) .tc Cert.KernelIdeal.main_v14) : (Cert.KernelIdeal.main_v14).ty.Contents (Elt Ideal))
      = after (segR0 (F := Ideal)) VR (Proc.devRef (τ := Cert.ReferenceIdeal.τ) .tc Cert.ReferenceIdeal.main_v14) := by
  simp only [Cert.KernelIdeal.Gen.hostOps0, segR0]
  ars
  all_goals first
    | ((try simp only [h_arg0, h_arg1, h_arg2, h_arg3, h_arg4, h_arg5]) <;> rfl)

theorem step0_cst_2 (h_arg0 : (VK (Proc.devRef (τ := Cert.KernelIdeal.τ) .tc Cert.KernelIdeal.main_arg0) : (Cert.KernelIdeal.main_arg0).ty.Contents (Elt Ideal)) = VR (Proc.devRef (τ := Cert.ReferenceIdeal.τ) .tc Cert.ReferenceIdeal.main_arg0)) (h_arg1 : (VK (Proc.devRef (τ := Cert.KernelIdeal.τ) .tc Cert.KernelIdeal.main_arg1) : (Cert.KernelIdeal.main_arg1).ty.Contents (Elt Ideal)) = VR (Proc.devRef (τ := Cert.ReferenceIdeal.τ) .tc Cert.ReferenceIdeal.main_arg1)) (h_arg2 : (VK (Proc.devRef (τ := Cert.KernelIdeal.τ) .tc Cert.KernelIdeal.main_arg2) : (Cert.KernelIdeal.main_arg2).ty.Contents (Elt Ideal)) = VR (Proc.devRef (τ := Cert.ReferenceIdeal.τ) .tc Cert.ReferenceIdeal.main_arg2)) (h_arg3 : (VK (Proc.devRef (τ := Cert.KernelIdeal.τ) .tc Cert.KernelIdeal.main_arg3) : (Cert.KernelIdeal.main_arg3).ty.Contents (Elt Ideal)) = VR (Proc.devRef (τ := Cert.ReferenceIdeal.τ) .tc Cert.ReferenceIdeal.main_arg3)) (h_arg4 : (VK (Proc.devRef (τ := Cert.KernelIdeal.τ) .tc Cert.KernelIdeal.main_arg4) : (Cert.KernelIdeal.main_arg4).ty.Contents (Elt Ideal)) = VR (Proc.devRef (τ := Cert.ReferenceIdeal.τ) .tc Cert.ReferenceIdeal.main_arg4)) (h_arg5 : (VK (Proc.devRef (τ := Cert.KernelIdeal.τ) .tc Cert.KernelIdeal.main_arg5) : (Cert.KernelIdeal.main_arg5).ty.Contents (Elt Ideal)) = VR (Proc.devRef (τ := Cert.ReferenceIdeal.τ) .tc Cert.ReferenceIdeal.main_arg5)) :
    (after (Cert.KernelIdeal.Gen.hostOps0 (F := Ideal)) VK (Proc.devRef (τ := Cert.KernelIdeal.τ) .tc Cert.KernelIdeal.main_cst_2) : (Cert.KernelIdeal.main_cst_2).ty.Contents (Elt Ideal))
      = after (segR0 (F := Ideal)) VR (Proc.devRef (τ := Cert.ReferenceIdeal.τ) .tc Cert.ReferenceIdeal.main_cst_2) := by
  simp only [Cert.KernelIdeal.Gen.hostOps0, segR0]
  ars
  all_goals first
    | ((try simp only [h_arg0, h_arg1, h_arg2, h_arg3, h_arg4, h_arg5]) <;> rfl)

theorem step0_arg3 (h_arg0 : (VK (Proc.devRef (τ := Cert.KernelIdeal.τ) .tc Cert.KernelIdeal.main_arg0) : (Cert.KernelIdeal.main_arg0).ty.Contents (Elt Ideal)) = VR (Proc.devRef (τ := Cert.ReferenceIdeal.τ) .tc Cert.ReferenceIdeal.main_arg0)) (h_arg1 : (VK (Proc.devRef (τ := Cert.KernelIdeal.τ) .tc Cert.KernelIdeal.main_arg1) : (Cert.KernelIdeal.main_arg1).ty.Contents (Elt Ideal)) = VR (Proc.devRef (τ := Cert.ReferenceIdeal.τ) .tc Cert.ReferenceIdeal.main_arg1)) (h_arg2 : (VK (Proc.devRef (τ := Cert.KernelIdeal.τ) .tc Cert.KernelIdeal.main_arg2) : (Cert.KernelIdeal.main_arg2).ty.Contents (Elt Ideal)) = VR (Proc.devRef (τ := Cert.ReferenceIdeal.τ) .tc Cert.ReferenceIdeal.main_arg2)) (h_arg3 : (VK (Proc.devRef (τ := Cert.KernelIdeal.τ) .tc Cert.KernelIdeal.main_arg3) : (Cert.KernelIdeal.main_arg3).ty.Contents (Elt Ideal)) = VR (Proc.devRef (τ := Cert.ReferenceIdeal.τ) .tc Cert.ReferenceIdeal.main_arg3)) (h_arg4 : (VK (Proc.devRef (τ := Cert.KernelIdeal.τ) .tc Cert.KernelIdeal.main_arg4) : (Cert.KernelIdeal.main_arg4).ty.Contents (Elt Ideal)) = VR (Proc.devRef (τ := Cert.ReferenceIdeal.τ) .tc Cert.ReferenceIdeal.main_arg4)) (h_arg5 : (VK (Proc.devRef (τ := Cert.KernelIdeal.τ) .tc Cert.KernelIdeal.main_arg5) : (Cert.KernelIdeal.main_arg5).ty.Contents (Elt Ideal)) = VR (Proc.devRef (τ := Cert.ReferenceIdeal.τ) .tc Cert.ReferenceIdeal.main_arg5)) :
    (after (Cert.KernelIdeal.Gen.hostOps0 (F := Ideal)) VK (Proc.devRef (τ := Cert.KernelIdeal.τ) .tc Cert.KernelIdeal.main_arg3) : (Cert.KernelIdeal.main_arg3).ty.Contents (Elt Ideal))
      = after (segR0 (F := Ideal)) VR (Proc.devRef (τ := Cert.ReferenceIdeal.τ) .tc Cert.ReferenceIdeal.main_arg3) := by
  simp only [Cert.KernelIdeal.Gen.hostOps0, segR0]
  ars
  all_goals first
    | exact h_arg3
    | ((try simp only [h_arg0, h_arg1, h_arg2, h_arg3, h_arg4, h_arg5]) <;> rfl)

theorem step0_arg4 (h_arg0 : (VK (Proc.devRef (τ := Cert.KernelIdeal.τ) .tc Cert.KernelIdeal.main_arg0) : (Cert.KernelIdeal.main_arg0).ty.Contents (Elt Ideal)) = VR (Proc.devRef (τ := Cert.ReferenceIdeal.τ) .tc Cert.ReferenceIdeal.main_arg0)) (h_arg1 : (VK (Proc.devRef (τ := Cert.KernelIdeal.τ) .tc Cert.KernelIdeal.main_arg1) : (Cert.KernelIdeal.main_arg1).ty.Contents (Elt Ideal)) = VR (Proc.devRef (τ := Cert.ReferenceIdeal.τ) .tc Cert.ReferenceIdeal.main_arg1)) (h_arg2 : (VK (Proc.devRef (τ := Cert.KernelIdeal.τ) .tc Cert.KernelIdeal.main_arg2) : (Cert.KernelIdeal.main_arg2).ty.Contents (Elt Ideal)) = VR (Proc.devRef (τ := Cert.ReferenceIdeal.τ) .tc Cert.ReferenceIdeal.main_arg2)) (h_arg3 : (VK (Proc.devRef (τ := Cert.KernelIdeal.τ) .tc Cert.KernelIdeal.main_arg3) : (Cert.KernelIdeal.main_arg3).ty.Contents (Elt Ideal)) = VR (Proc.devRef (τ := Cert.ReferenceIdeal.τ) .tc Cert.ReferenceIdeal.main_arg3)) (h_arg4 : (VK (Proc.devRef (τ := Cert.KernelIdeal.τ) .tc Cert.KernelIdeal.main_arg4) : (Cert.KernelIdeal.main_arg4).ty.Contents (Elt Ideal)) = VR (Proc.devRef (τ := Cert.ReferenceIdeal.τ) .tc Cert.ReferenceIdeal.main_arg4)) (h_arg5 : (VK (Proc.devRef (τ := Cert.KernelIdeal.τ) .tc Cert.KernelIdeal.main_arg5) : (Cert.KernelIdeal.main_arg5).ty.Contents (Elt Ideal)) = VR (Proc.devRef (τ := Cert.ReferenceIdeal.τ) .tc Cert.ReferenceIdeal.main_arg5)) :
    (after (Cert.KernelIdeal.Gen.hostOps0 (F := Ideal)) VK (Proc.devRef (τ := Cert.KernelIdeal.τ) .tc Cert.KernelIdeal.main_arg4) : (Cert.KernelIdeal.main_arg4).ty.Contents (Elt Ideal))
      = after (segR0 (F := Ideal)) VR (Proc.devRef (τ := Cert.ReferenceIdeal.τ) .tc Cert.ReferenceIdeal.main_arg4) := by
  simp only [Cert.KernelIdeal.Gen.hostOps0, segR0]
  ars
  all_goals first
    | exact h_arg4
    | ((try simp only [h_arg0, h_arg1, h_arg2, h_arg3, h_arg4, h_arg5]) <;> rfl)

theorem step0_arg5 (h_arg0 : (VK (Proc.devRef (τ := Cert.KernelIdeal.τ) .tc Cert.KernelIdeal.main_arg0) : (Cert.KernelIdeal.main_arg0).ty.Contents (Elt Ideal)) = VR (Proc.devRef (τ := Cert.ReferenceIdeal.τ) .tc Cert.ReferenceIdeal.main_arg0)) (h_arg1 : (VK (Proc.devRef (τ := Cert.KernelIdeal.τ) .tc Cert.KernelIdeal.main_arg1) : (Cert.KernelIdeal.main_arg1).ty.Contents (Elt Ideal)) = VR (Proc.devRef (τ := Cert.ReferenceIdeal.τ) .tc Cert.ReferenceIdeal.main_arg1)) (h_arg2 : (VK (Proc.devRef (τ := Cert.KernelIdeal.τ) .tc Cert.KernelIdeal.main_arg2) : (Cert.KernelIdeal.main_arg2).ty.Contents (Elt Ideal)) = VR (Proc.devRef (τ := Cert.ReferenceIdeal.τ) .tc Cert.ReferenceIdeal.main_arg2)) (h_arg3 : (VK (Proc.devRef (τ := Cert.KernelIdeal.τ) .tc Cert.KernelIdeal.main_arg3) : (Cert.KernelIdeal.main_arg3).ty.Contents (Elt Ideal)) = VR (Proc.devRef (τ := Cert.ReferenceIdeal.τ) .tc Cert.ReferenceIdeal.main_arg3)) (h_arg4 : (VK (Proc.devRef (τ := Cert.KernelIdeal.τ) .tc Cert.KernelIdeal.main_arg4) : (Cert.KernelIdeal.main_arg4).ty.Contents (Elt Ideal)) = VR (Proc.devRef (τ := Cert.ReferenceIdeal.τ) .tc Cert.ReferenceIdeal.main_arg4)) (h_arg5 : (VK (Proc.devRef (τ := Cert.KernelIdeal.τ) .tc Cert.KernelIdeal.main_arg5) : (Cert.KernelIdeal.main_arg5).ty.Contents (Elt Ideal)) = VR (Proc.devRef (τ := Cert.ReferenceIdeal.τ) .tc Cert.ReferenceIdeal.main_arg5)) :
    (after (Cert.KernelIdeal.Gen.hostOps0 (F := Ideal)) VK (Proc.devRef (τ := Cert.KernelIdeal.τ) .tc Cert.KernelIdeal.main_arg5) : (Cert.KernelIdeal.main_arg5).ty.Contents (Elt Ideal))
      = after (segR0 (F := Ideal)) VR (Proc.devRef (τ := Cert.ReferenceIdeal.τ) .tc Cert.ReferenceIdeal.main_arg5) := by
  simp only [Cert.KernelIdeal.Gen.hostOps0, segR0]
  ars
  all_goals first
    | exact h_arg5
    | ((try simp only [h_arg0, h_arg1, h_arg2, h_arg3, h_arg4, h_arg5]) <;> rfl)

/-- Segment 0 carries the agreement to the next cut. -/
theorem step0 (A : Agree0 VK VR) :
    Agree1 (after (Cert.KernelIdeal.Gen.hostOps0 (F := Ideal)) VK) (after (segR0 (F := Ideal)) VR) := by
  obtain ⟨h_arg0, h_arg1, h_arg2, h_arg3, h_arg4, h_arg5⟩ := A
  exact ⟨step0_v3 VK VR h_arg0 h_arg1 h_arg2 h_arg3 h_arg4 h_arg5,
    step0_v6 VK VR h_arg0 h_arg1 h_arg2 h_arg3 h_arg4 h_arg5,
    step0_v7 VK VR h_arg0 h_arg1 h_arg2 h_arg3 h_arg4 h_arg5,
    step0_v13 VK VR h_arg0 h_arg1 h_arg2 h_arg3 h_arg4 h_arg5,
    step0_v14 VK VR h_arg0 h_arg1 h_arg2 h_arg3 h_arg4 h_arg5,
    step0_cst_2 VK VR h_arg0 h_arg1 h_arg2 h_arg3 h_arg4 h_arg5,
    step0_arg3 VK VR h_arg0 h_arg1 h_arg2 h_arg3 h_arg4 h_arg5,
    step0_arg4 VK VR h_arg0 h_arg1 h_arg2 h_arg3 h_arg4 h_arg5,
    step0_arg5 VK VR h_arg0 h_arg1 h_arg2 h_arg3 h_arg4 h_arg5⟩

end Cross

end Cert.HeadLayers

end
-- ==== Proof.HeadStep1.lean ====
import proofs.«180243_j86045374808276_2_alg».proof.Proof.HeadSeg

/-! Segment 1 of the two lines of operations: from memories that agree on the arrays the segment reads, the two
memories after it agree on the arrays still to be read. -/

set_option maxRecDepth 16384

noncomputable section

namespace Cert.HeadLayers

open Idealize.ShloMosaic Idealize.ShloMosaic.TcCoe Idealize.SL.Sem Idealize.ShloMosaic.StableHlo

section Cross

set_option maxHeartbeats 8000000

variable (VK : Valuation Cert.KernelIdeal.τ Cert.KernelIdeal.sig (Elt Ideal)) (VR : Valuation Cert.ReferenceIdeal.τ Cert.ReferenceIdeal.sig (Elt Ideal))

theorem step1_v3 (h_v3 : (VK (Proc.devRef (τ := Cert.KernelIdeal.τ) .tc Cert.KernelIdeal.main_v3) : (Cert.KernelIdeal.main_v3).ty.Contents (Elt Ideal)) = VR (Proc.devRef (τ := Cert.ReferenceIdeal.τ) .tc Cert.ReferenceIdeal.main_v3)) (h_v6 : (VK (Proc.devRef (τ := Cert.KernelIdeal.τ) .tc Cert.KernelIdeal.main_v6) : (Cert.KernelIdeal.main_v6).ty.Contents (Elt Ideal)) = VR (Proc.devRef (τ := Cert.ReferenceIdeal.τ) .tc Cert.ReferenceIdeal.main_v6)) (h_v7 : (VK (Proc.devRef (τ := Cert.KernelIdeal.τ) .tc Cert.KernelIdeal.main_v7) : (Cert.KernelIdeal.main_v7).ty.Contents (Elt Ideal)) = VR (Proc.devRef (τ := Cert.ReferenceIdeal.τ) .tc Cert.ReferenceIdeal.main_v7)) (h_v13 : (VK (Proc.devRef (τ := Cert.KernelIdeal.τ) .tc Cert.KernelIdeal.main_v13) : (Cert.KernelIdeal.main_v13).ty.Contents (Elt Ideal)) = VR (Proc.devRef (τ := Cert.ReferenceIdeal.τ) .tc Cert.ReferenceIdeal.main_v13)) (h_v14 : (VK (Proc.devRef (τ := Cert.KernelIdeal.τ) .tc Cert.KernelIdeal.main_v14) : (Cert.KernelIdeal.main_v14).ty.Contents (Elt Ideal)) = VR (Proc.devRef (τ := Cert.ReferenceIdeal.τ) .tc Cert.ReferenceIdeal.main_v14)) (h_cst_2 : (VK (Proc.devRef (τ := Cert.KernelIdeal.τ) .tc Cert.KernelIdeal.main_cst_2) : (Cert.KernelIdeal.main_cst_2).ty.Contents (Elt Ideal)) = VR (Proc.devRef (τ := Cert.ReferenceIdeal.τ) .tc Cert.ReferenceIdeal.main_cst_2)) (h_arg3 : (VK (Proc.devRef (τ := Cert.KernelIdeal.τ) .tc Cert.KernelIdeal.main_arg3) : (Cert.KernelIdeal.main_arg3).ty.Contents (Elt Ideal)) = VR (Proc.devRef (τ := Cert.ReferenceIdeal.τ) .tc Cert.ReferenceIdeal.main_arg3)) (h_arg4 : (VK (Proc.devRef (τ := Cert.KernelIdeal.τ) .tc Cert.KernelIdeal.main_arg4) : (Cert.KernelIdeal.main_arg4).ty.Contents (Elt Ideal)) = VR (Proc.devRef (τ := Cert.ReferenceIdeal.τ) .tc Cert.ReferenceIdeal.main_arg4)) (h_arg5 : (VK (Proc.devRef (τ := Cert.KernelIdeal.τ) .tc Cert.KernelIdeal.main_arg5) : (Cert.KernelIdeal.main_arg5).ty.Contents (Elt Ideal)) = VR (Proc.devRef (τ := Cert.ReferenceIdeal.τ) .tc Cert.ReferenceIdeal.main_arg5)) :
    (after (Cert.KernelIdeal.Gen.hostOps0_1 (F := Ideal)) VK (Proc.devRef (τ := Cert.KernelIdeal.τ) .tc Cert.KernelIdeal.main_v3) : (Cert.KernelIdeal.main_v3).ty.Contents (Elt Ideal))
      = after (segR1 (F := Ideal)) VR (Proc.devRef (τ := Cert.ReferenceIdeal.τ) .tc Cert.ReferenceIdeal.main_v3) := by
  simp only [Cert.KernelIdeal.Gen.hostOps0_1, segR1]
  ars
  first
    | exact h_v3
    | ((try simp only [h_v3, h_v6, h_v7, h_v13, h_v14, h_cst_2, h_arg3, h_arg4, h_arg5]) <;> rfl)

theorem step1_v6 (h_v3 : (VK (Proc.devRef (τ := Cert.KernelIdeal.τ) .tc Cert.KernelIdeal.main_v3) : (Cert.KernelIdeal.main_v3).ty.Contents (Elt Ideal)) = VR (Proc.devRef (τ := Cert.ReferenceIdeal.τ) .tc Cert.ReferenceIdeal.main_v3)) (h_v6 : (VK (Proc.devRef (τ := Cert.KernelIdeal.τ) .tc Cert.KernelIdeal.main_v6) : (Cert.KernelIdeal.main_v6).ty.Contents (Elt Ideal)) = VR (Proc.devRef (τ := Cert.ReferenceIdeal.τ) .tc Cert.ReferenceIdeal.main_v6)) (h_v7 : (VK (Proc.devRef (τ := Cert.KernelIdeal.τ) .tc Cert.KernelIdeal.main_v7) : (Cert.KernelIdeal.main_v7).ty.Contents (Elt Ideal)) = VR (Proc.devRef (τ := Cert.ReferenceIdeal.τ) .tc Cert.ReferenceIdeal.main_v7)) (h_v13 : (VK (Proc.devRef (τ := Cert.KernelIdeal.τ) .tc Cert.KernelIdeal.main_v13) : (Cert.KernelIdeal.main_v13).ty.Contents (Elt Ideal)) = VR (Proc.devRef (τ := Cert.ReferenceIdeal.τ) .tc Cert.ReferenceIdeal.main_v13)) (h_v14 : (VK (Proc.devRef (τ := Cert.KernelIdeal.τ) .tc Cert.KernelIdeal.main_v14) : (Cert.KernelIdeal.main_v14).ty.Contents (Elt Ideal)) = VR (Proc.devRef (τ := Cert.ReferenceIdeal.τ) .tc Cert.ReferenceIdeal.main_v14)) (h_cst_2 : (VK (Proc.devRef (τ := Cert.KernelIdeal.τ) .tc Cert.KernelIdeal.main_cst_2) : (Cert.KernelIdeal.main_cst_2).ty.Contents (Elt Ideal)) = VR (Proc.devRef (τ := Cert.ReferenceIdeal.τ) .tc Cert.ReferenceIdeal.main_cst_2)) (h_arg3 : (VK (Proc.devRef (τ := Cert.KernelIdeal.τ) .tc Cert.KernelIdeal.main_arg3) : (Cert.KernelIdeal.main_arg3).ty.Contents (Elt Ideal)) = VR (Proc.devRef (τ := Cert.ReferenceIdeal.τ) .tc Cert.ReferenceIdeal.main_arg3)) (h_arg4 : (VK (Proc.devRef (τ := Cert.KernelIdeal.τ) .tc Cert.KernelIdeal.main_arg4) : (Cert.KernelIdeal.main_arg4).ty.Contents (Elt Ideal)) = VR (Proc.devRef (τ := Cert.ReferenceIdeal.τ) .tc Cert.ReferenceIdeal.main_arg4)) (h_arg5 : (VK (Proc.devRef (τ := Cert.KernelIdeal.τ) .tc Cert.KernelIdeal.main_arg5) : (Cert.KernelIdeal.main_arg5).ty.Contents (Elt Ideal)) = VR (Proc.devRef (τ := Cert.ReferenceIdeal.τ) .tc Cert.ReferenceIdeal.main_arg5)) :
    (after (Cert.KernelIdeal.Gen.hostOps0_1 (F := Ideal)) VK (Proc.devRef (τ := Cert.KernelIdeal.τ) .tc Cert.KernelIdeal.main_v6) : (Cert.KernelIdeal.main_v6).ty.Contents (Elt Ideal))
      = after (segR1 (F := Ideal)) VR (Proc.devRef (τ := Cert.ReferenceIdeal.τ) .tc Cert.ReferenceIdeal.main_v6) := by
  simp only [Cert.KernelIdeal.Gen.hostOps0_1, segR1]
  ars
  first
    | exact h_v6
    | ((try simp only [h_v3, h_v6, h_v7, h_v13, h_v14, h_cst_2, h_arg3, h_arg4, h_arg5]) <;> rfl)

theorem step1_v7 (h_v3 : (VK (Proc.devRef (τ := Cert.KernelIdeal.τ) .tc Cert.KernelIdeal.main_v3) : (Cert.KernelIdeal.main_v3).ty.Contents (Elt Ideal)) = VR (Proc.devRef (τ := Cert.ReferenceIdeal.τ) .tc Cert.ReferenceIdeal.main_v3)) (h_v6 : (VK (Proc.devRef (τ := Cert.KernelIdeal.τ) .tc Cert.KernelIdeal.main_v6) : (Cert.KernelIdeal.main_v6).ty.Contents (Elt Ideal)) = VR (Proc.devRef (τ := Cert.ReferenceIdeal.τ) .tc Cert.ReferenceIdeal.main_v6)) (h_v7 : (VK (Proc.devRef (τ := Cert.KernelIdeal.τ) .tc Cert.KernelIdeal.main_v7) : (Cert.KernelIdeal.main_v7).ty.Contents (Elt Ideal)) = VR (Proc.devRef (τ := Cert.ReferenceIdeal.τ) .tc Cert.ReferenceIdeal.main_v7)) (h_v13 : (VK (Proc.devRef (τ := Cert.KernelIdeal.τ) .tc Cert.KernelIdeal.main_v13) : (Cert.KernelIdeal.main_v13).ty.Contents (Elt Ideal)) = VR (Proc.devRef (τ := Cert.ReferenceIdeal.τ) .tc Cert.ReferenceIdeal.main_v13)) (h_v14 : (VK (Proc.devRef (τ := Cert.KernelIdeal.τ) .tc Cert.KernelIdeal.main_v14) : (Cert.KernelIdeal.main_v14).ty.Contents (Elt Ideal)) = VR (Proc.devRef (τ := Cert.ReferenceIdeal.τ) .tc Cert.ReferenceIdeal.main_v14)) (h_cst_2 : (VK (Proc.devRef (τ := Cert.KernelIdeal.τ) .tc Cert.KernelIdeal.main_cst_2) : (Cert.KernelIdeal.main_cst_2).ty.Contents (Elt Ideal)) = VR (Proc.devRef (τ := Cert.ReferenceIdeal.τ) .tc Cert.ReferenceIdeal.main_cst_2)) (h_arg3 : (VK (Proc.devRef (τ := Cert.KernelIdeal.τ) .tc Cert.KernelIdeal.main_arg3) : (Cert.KernelIdeal.main_arg3).ty.Contents (Elt Ideal)) = VR (Proc.devRef (τ := Cert.ReferenceIdeal.τ) .tc Cert.ReferenceIdeal.main_arg3)) (h_arg4 : (VK (Proc.devRef (τ := Cert.KernelIdeal.τ) .tc Cert.KernelIdeal.main_arg4) : (Cert.KernelIdeal.main_arg4).ty.Contents (Elt Ideal)) = VR (Proc.devRef (τ := Cert.ReferenceIdeal.τ) .tc Cert.ReferenceIdeal.main_arg4)) (h_arg5 : (VK (Proc.devRef (τ := Cert.KernelIdeal.τ) .tc Cert.KernelIdeal.main_arg5) : (Cert.KernelIdeal.main_arg5).ty.Contents (Elt Ideal)) = VR (Proc.devRef (τ := Cert.ReferenceIdeal.τ) .tc Cert.ReferenceIdeal.main_arg5)) :
    (after (Cert.KernelIdeal.Gen.hostOps0_1 (F := Ideal)) VK (Proc.devRef (τ := Cert.KernelIdeal.τ) .tc Cert.KernelIdeal.main_v7) : (Cert.KernelIdeal.main_v7).ty.Contents (Elt Ideal))
      = after (segR1 (F := Ideal)) VR (Proc.devRef (τ := Cert.ReferenceIdeal.τ) .tc Cert.ReferenceIdeal.main_v7) := by
  simp only [Cert.KernelIdeal.Gen.hostOps0_1, segR1]
  ars
  first
    | exact h_v7
    | ((try simp only [h_v3, h_v6, h_v7, h_v13, h_v14, h_cst_2, h_arg3, h_arg4, h_arg5]) <;> rfl)

theorem step1_v15 (h_v3 : (VK (Proc.devRef (τ := Cert.KernelIdeal.τ) .tc Cert.KernelIdeal.main_v3) : (Cert.KernelIdeal.main_v3).ty.Contents (Elt Ideal)) = VR (Proc.devRef (τ := Cert.ReferenceIdeal.τ) .tc Cert.ReferenceIdeal.main_v3)) (h_v6 : (VK (Proc.devRef (τ := Cert.KernelIdeal.τ) .tc Cert.KernelIdeal.main_v6) : (Cert.KernelIdeal.main_v6).ty.Contents (Elt Ideal)) = VR (Proc.devRef (τ := Cert.ReferenceIdeal.τ) .tc Cert.ReferenceIdeal.main_v6)) (h_v7 : (VK (Proc.devRef (τ := Cert.KernelIdeal.τ) .tc Cert.KernelIdeal.main_v7) : (Cert.KernelIdeal.main_v7).ty.Contents (Elt Ideal)) = VR (Proc.devRef (τ := Cert.ReferenceIdeal.τ) .tc Cert.ReferenceIdeal.main_v7)) (h_v13 : (VK (Proc.devRef (τ := Cert.KernelIdeal.τ) .tc Cert.KernelIdeal.main_v13) : (Cert.KernelIdeal.main_v13).ty.Contents (Elt Ideal)) = VR (Proc.devRef (τ := Cert.ReferenceIdeal.τ) .tc Cert.ReferenceIdeal.main_v13)) (h_v14 : (VK (Proc.devRef (τ := Cert.KernelIdeal.τ) .tc Cert.KernelIdeal.main_v14) : (Cert.KernelIdeal.main_v14).ty.Contents (Elt Ideal)) = VR (Proc.devRef (τ := Cert.ReferenceIdeal.τ) .tc Cert.ReferenceIdeal.main_v14)) (h_cst_2 : (VK (Proc.devRef (τ := Cert.KernelIdeal.τ) .tc Cert.KernelIdeal.main_cst_2) : (Cert.KernelIdeal.main_cst_2).ty.Contents (Elt Ideal)) = VR (Proc.devRef (τ := Cert.ReferenceIdeal.τ) .tc Cert.ReferenceIdeal.main_cst_2)) (h_arg3 : (VK (Proc.devRef (τ := Cert.KernelIdeal.τ) .tc Cert.KernelIdeal.main_arg3) : (Cert.KernelIdeal.main_arg3).ty.Contents (Elt Ideal)) = VR (Proc.devRef (τ := Cert.ReferenceIdeal.τ) .tc Cert.ReferenceIdeal.main_arg3)) (h_arg4 : (VK (Proc.devRef (τ := Cert.KernelIdeal.τ) .tc Cert.KernelIdeal.main_arg4) : (Cert.KernelIdeal.main_arg4).ty.Contents (Elt Ideal)) = VR (Proc.devRef (τ := Cert.ReferenceIdeal.τ) .tc Cert.ReferenceIdeal.main_arg4)) (h_arg5 : (VK (Proc.devRef (τ := Cert.KernelIdeal.τ) .tc Cert.KernelIdeal.main_arg5) : (Cert.KernelIdeal.main_arg5).ty.Contents (Elt Ideal)) = VR (Proc.devRef (τ := Cert.ReferenceIdeal.τ) .tc Cert.ReferenceIdeal.main_arg5)) :
    (after (Cert.KernelIdeal.Gen.hostOps0_1 (F := Ideal)) VK (Proc.devRef (τ := Cert.KernelIdeal.τ) .tc Cert.KernelIdeal.main_v15) : (Cert.KernelIdeal.main_v15).ty.Contents (Elt Ideal))
      = after (segR1 (F := Ideal)) VR (Proc.devRef (τ := Cert.ReferenceIdeal.τ) .tc Cert.ReferenceIdeal.main_v15) := by
  simp only [Cert.KernelIdeal.Gen.hostOps0_1, segR1]
  ars
  first
    | ((try simp only [h_v3, h_v6, h_v7, h_v13, h_v14, h_cst_2, h_arg3, h_arg4, h_arg5]) <;> rfl)

theorem step1_arg3 (h_v3 : (VK (Proc.devRef (τ := Cert.KernelIdeal.τ) .tc Cert.KernelIdeal.main_v3) : (Cert.KernelIdeal.main_v3).ty.Contents (Elt Ideal)) = VR (Proc.devRef (τ := Cert.ReferenceIdeal.τ) .tc Cert.ReferenceIdeal.main_v3)) (h_v6 : (VK (Proc.devRef (τ := Cert.KernelIdeal.τ) .tc Cert.KernelIdeal.main_v6) : (Cert.KernelIdeal.main_v6).ty.Contents (Elt Ideal)) = VR (Proc.devRef (τ := Cert.ReferenceIdeal.τ) .tc Cert.ReferenceIdeal.main_v6)) (h_v7 : (VK (Proc.devRef (τ := Cert.KernelIdeal.τ) .tc Cert.KernelIdeal.main_v7) : (Cert.KernelIdeal.main_v7).ty.Contents (Elt Ideal)) = VR (Proc.devRef (τ := Cert.ReferenceIdeal.τ) .tc Cert.ReferenceIdeal.main_v7)) (h_v13 : (VK (Proc.devRef (τ := Cert.KernelIdeal.τ) .tc Cert.KernelIdeal.main_v13) : (Cert.KernelIdeal.main_v13).ty.Contents (Elt Ideal)) = VR (Proc.devRef (τ := Cert.ReferenceIdeal.τ) .tc Cert.ReferenceIdeal.main_v13)) (h_v14 : (VK (Proc.devRef (τ := Cert.KernelIdeal.τ) .tc Cert.KernelIdeal.main_v14) : (Cert.KernelIdeal.main_v14).ty.Contents (Elt Ideal)) = VR (Proc.devRef (τ := Cert.ReferenceIdeal.τ) .tc Cert.ReferenceIdeal.main_v14)) (h_cst_2 : (VK (Proc.devRef (τ := Cert.KernelIdeal.τ) .tc Cert.KernelIdeal.main_cst_2) : (Cert.KernelIdeal.main_cst_2).ty.Contents (Elt Ideal)) = VR (Proc.devRef (τ := Cert.ReferenceIdeal.τ) .tc Cert.ReferenceIdeal.main_cst_2)) (h_arg3 : (VK (Proc.devRef (τ := Cert.KernelIdeal.τ) .tc Cert.KernelIdeal.main_arg3) : (Cert.KernelIdeal.main_arg3).ty.Contents (Elt Ideal)) = VR (Proc.devRef (τ := Cert.ReferenceIdeal.τ) .tc Cert.ReferenceIdeal.main_arg3)) (h_arg4 : (VK (Proc.devRef (τ := Cert.KernelIdeal.τ) .tc Cert.KernelIdeal.main_arg4) : (Cert.KernelIdeal.main_arg4).ty.Contents (Elt Ideal)) = VR (Proc.devRef (τ := Cert.ReferenceIdeal.τ) .tc Cert.ReferenceIdeal.main_arg4)) (h_arg5 : (VK (Proc.devRef (τ := Cert.KernelIdeal.τ) .tc Cert.KernelIdeal.main_arg5) : (Cert.KernelIdeal.main_arg5).ty.Contents (Elt Ideal)) = VR (Proc.devRef (τ := Cert.ReferenceIdeal.τ) .tc Cert.ReferenceIdeal.main_arg5)) :
    (after (Cert.KernelIdeal.Gen.hostOps0_1 (F := Ideal)) VK (Proc.devRef (τ := Cert.KernelIdeal.τ) .tc Cert.KernelIdeal.main_arg3) : (Cert.KernelIdeal.main_arg3).ty.Contents (Elt Ideal))
      = after (segR1 (F := Ideal)) VR (Proc.devRef (τ := Cert.ReferenceIdeal.τ) .tc Cert.ReferenceIdeal.main_arg3) := by
  simp only [Cert.KernelIdeal.Gen.hostOps0_1, segR1]
  ars
  first
    | exact h_arg3
    | ((try simp only [h_v3, h_v6, h_v7, h_v13, h_v14, h_cst_2, h_arg3, h_arg4, h_arg5]) <;> rfl)

theorem step1_arg4 (h_v3 : (VK (Proc.devRef (τ := Cert.KernelIdeal.τ) .tc Cert.KernelIdeal.main_v3) : (Cert.KernelIdeal.main_v3).ty.Contents (Elt Ideal)) = VR (Proc.devRef (τ := Cert.ReferenceIdeal.τ) .tc Cert.ReferenceIdeal.main_v3)) (h_v6 : (VK (Proc.devRef (τ := Cert.KernelIdeal.τ) .tc Cert.KernelIdeal.main_v6) : (Cert.KernelIdeal.main_v6).ty.Contents (Elt Ideal)) = VR (Proc.devRef (τ := Cert.ReferenceIdeal.τ) .tc Cert.ReferenceIdeal.main_v6)) (h_v7 : (VK (Proc.devRef (τ := Cert.KernelIdeal.τ) .tc Cert.KernelIdeal.main_v7) : (Cert.KernelIdeal.main_v7).ty.Contents (Elt Ideal)) = VR (Proc.devRef (τ := Cert.ReferenceIdeal.τ) .tc Cert.ReferenceIdeal.main_v7)) (h_v13 : (VK (Proc.devRef (τ := Cert.KernelIdeal.τ) .tc Cert.KernelIdeal.main_v13) : (Cert.KernelIdeal.main_v13).ty.Contents (Elt Ideal)) = VR (Proc.devRef (τ := Cert.ReferenceIdeal.τ) .tc Cert.ReferenceIdeal.main_v13)) (h_v14 : (VK (Proc.devRef (τ := Cert.KernelIdeal.τ) .tc Cert.KernelIdeal.main_v14) : (Cert.KernelIdeal.main_v14).ty.Contents (Elt Ideal)) = VR (Proc.devRef (τ := Cert.ReferenceIdeal.τ) .tc Cert.ReferenceIdeal.main_v14)) (h_cst_2 : (VK (Proc.devRef (τ := Cert.KernelIdeal.τ) .tc Cert.KernelIdeal.main_cst_2) : (Cert.KernelIdeal.main_cst_2).ty.Contents (Elt Ideal)) = VR (Proc.devRef (τ := Cert.ReferenceIdeal.τ) .tc Cert.ReferenceIdeal.main_cst_2)) (h_arg3 : (VK (Proc.devRef (τ := Cert.KernelIdeal.τ) .tc Cert.KernelIdeal.main_arg3) : (Cert.KernelIdeal.main_arg3).ty.Contents (Elt Ideal)) = VR (Proc.devRef (τ := Cert.ReferenceIdeal.τ) .tc Cert.ReferenceIdeal.main_arg3)) (h_arg4 : (VK (Proc.devRef (τ := Cert.KernelIdeal.τ) .tc Cert.KernelIdeal.main_arg4) : (Cert.KernelIdeal.main_arg4).ty.Contents (Elt Ideal)) = VR (Proc.devRef (τ := Cert.ReferenceIdeal.τ) .tc Cert.ReferenceIdeal.main_arg4)) (h_arg5 : (VK (Proc.devRef (τ := Cert.KernelIdeal.τ) .tc Cert.KernelIdeal.main_arg5) : (Cert.KernelIdeal.main_arg5).ty.Contents (Elt Ideal)) = VR (Proc.devRef (τ := Cert.ReferenceIdeal.τ) .tc Cert.ReferenceIdeal.main_arg5)) :
    (after (Cert.KernelIdeal.Gen.hostOps0_1 (F := Ideal)) VK (Proc.devRef (τ := Cert.KernelIdeal.τ) .tc Cert.KernelIdeal.main_arg4) : (Cert.KernelIdeal.main_arg4).ty.Contents (Elt Ideal))
      = after (segR1 (F := Ideal)) VR (Proc.devRef (τ := Cert.ReferenceIdeal.τ) .tc Cert.ReferenceIdeal.main_arg4) := by
  simp only [Cert.KernelIdeal.Gen.hostOps0_1, segR1]
  ars
  first
    | exact h_arg4
    | ((try simp only [h_v3, h_v6, h_v7, h_v13, h_v14, h_cst_2, h_arg3, h_arg4, h_arg5]) <;> rfl)

theorem step1_arg5 (h_v3 : (VK (Proc.devRef (τ := Cert.KernelIdeal.τ) .tc Cert.KernelIdeal.main_v3) : (Cert.KernelIdeal.main_v3).ty.Contents (Elt Ideal)) = VR (Proc.devRef (τ := Cert.ReferenceIdeal.τ) .tc Cert.ReferenceIdeal.main_v3)) (h_v6 : (VK (Proc.devRef (τ := Cert.KernelIdeal.τ) .tc Cert.KernelIdeal.main_v6) : (Cert.KernelIdeal.main_v6).ty.Contents (Elt Ideal)) = VR (Proc.devRef (τ := Cert.ReferenceIdeal.τ) .tc Cert.ReferenceIdeal.main_v6)) (h_v7 : (VK (Proc.devRef (τ := Cert.KernelIdeal.τ) .tc Cert.KernelIdeal.main_v7) : (Cert.KernelIdeal.main_v7).ty.Contents (Elt Ideal)) = VR (Proc.devRef (τ := Cert.ReferenceIdeal.τ) .tc Cert.ReferenceIdeal.main_v7)) (h_v13 : (VK (Proc.devRef (τ := Cert.KernelIdeal.τ) .tc Cert.KernelIdeal.main_v13) : (Cert.KernelIdeal.main_v13).ty.Contents (Elt Ideal)) = VR (Proc.devRef (τ := Cert.ReferenceIdeal.τ) .tc Cert.ReferenceIdeal.main_v13)) (h_v14 : (VK (Proc.devRef (τ := Cert.KernelIdeal.τ) .tc Cert.KernelIdeal.main_v14) : (Cert.KernelIdeal.main_v14).ty.Contents (Elt Ideal)) = VR (Proc.devRef (τ := Cert.ReferenceIdeal.τ) .tc Cert.ReferenceIdeal.main_v14)) (h_cst_2 : (VK (Proc.devRef (τ := Cert.KernelIdeal.τ) .tc Cert.KernelIdeal.main_cst_2) : (Cert.KernelIdeal.main_cst_2).ty.Contents (Elt Ideal)) = VR (Proc.devRef (τ := Cert.ReferenceIdeal.τ) .tc Cert.ReferenceIdeal.main_cst_2)) (h_arg3 : (VK (Proc.devRef (τ := Cert.KernelIdeal.τ) .tc Cert.KernelIdeal.main_arg3) : (Cert.KernelIdeal.main_arg3).ty.Contents (Elt Ideal)) = VR (Proc.devRef (τ := Cert.ReferenceIdeal.τ) .tc Cert.ReferenceIdeal.main_arg3)) (h_arg4 : (VK (Proc.devRef (τ := Cert.KernelIdeal.τ) .tc Cert.KernelIdeal.main_arg4) : (Cert.KernelIdeal.main_arg4).ty.Contents (Elt Ideal)) = VR (Proc.devRef (τ := Cert.ReferenceIdeal.τ) .tc Cert.ReferenceIdeal.main_arg4)) (h_arg5 : (VK (Proc.devRef (τ := Cert.KernelIdeal.τ) .tc Cert.KernelIdeal.main_arg5) : (Cert.KernelIdeal.main_arg5).ty.Contents (Elt Ideal)) = VR (Proc.devRef (τ := Cert.ReferenceIdeal.τ) .tc Cert.ReferenceIdeal.main_arg5)) :
    (after (Cert.KernelIdeal.Gen.hostOps0_1 (F := Ideal)) VK (Proc.devRef (τ := Cert.KernelIdeal.τ) .tc Cert.KernelIdeal.main_arg5) : (Cert.KernelIdeal.main_arg5).ty.Contents (Elt Ideal))
      = after (segR1 (F := Ideal)) VR (Proc.devRef (τ := Cert.ReferenceIdeal.τ) .tc Cert.ReferenceIdeal.main_arg5) := by
  simp only [Cert.KernelIdeal.Gen.hostOps0_1, segR1]
  ars
  first
    | exact h_arg5
    | ((try simp only [h_v3, h_v6, h_v7, h_v13, h_v14, h_cst_2, h_arg3, h_arg4, h_arg5]) <;> rfl)

/-- Segment 1 carries the agreement to the next cut. -/
theorem step1 (A : Agree1 VK VR) :
    Agree2 (after (Cert.KernelIdeal.Gen.hostOps0_1 (F := Ideal)) VK) (after (segR1 (F := Ideal)) VR) := by
  obtain ⟨h_v3, h_v6, h_v7, h_v13, h_v14, h_cst_2, h_arg3, h_arg4, h_arg5⟩ := A
  exact ⟨step1_v3 VK VR h_v3 h_v6 h_v7 h_v13 h_v14 h_cst_2 h_arg3 h_arg4 h_arg5,
    step1_v6 VK VR h_v3 h_v6 h_v7 h_v13 h_v14 h_cst_2 h_arg3 h_arg4 h_arg5,
    step1_v7 VK VR h_v3 h_v6 h_v7 h_v13 h_v14 h_cst_2 h_arg3 h_arg4 h_arg5,
    step1_v15 VK VR h_v3 h_v6 h_v7 h_v13 h_v14 h_cst_2 h_arg3 h_arg4 h_arg5,
    step1_arg3 VK VR h_v3 h_v6 h_v7 h_v13 h_v14 h_cst_2 h_arg3 h_arg4 h_arg5,
    step1_arg4 VK VR h_v3 h_v6 h_v7 h_v13 h_v14 h_cst_2 h_arg3 h_arg4 h_arg5,
    step1_arg5 VK VR h_v3 h_v6 h_v7 h_v13 h_v14 h_cst_2 h_arg3 h_arg4 h_arg5⟩

end Cross

end Cert.HeadLayers

end
-- ==== Proof.HeadStep2.lean ====
import proofs.«180243_j86045374808276_2_alg».proof.Proof.HeadSeg

/-! Segment 2 of the two lines of operations: from memories that agree on the arrays the segment reads, the two
memories after it agree on the arrays still to be read. -/

set_option maxRecDepth 16384

noncomputable section

namespace Cert.HeadLayers

open Idealize.ShloMosaic Idealize.ShloMosaic.TcCoe Idealize.SL.Sem Idealize.ShloMosaic.StableHlo

section Cross

set_option maxHeartbeats 8000000

variable (VK : Valuation Cert.KernelIdeal.τ Cert.KernelIdeal.sig (Elt Ideal)) (VR : Valuation Cert.ReferenceIdeal.τ Cert.ReferenceIdeal.sig (Elt Ideal))

theorem step2_v3 (h_v3 : (VK (Proc.devRef (τ := Cert.KernelIdeal.τ) .tc Cert.KernelIdeal.main_v3) : (Cert.KernelIdeal.main_v3).ty.Contents (Elt Ideal)) = VR (Proc.devRef (τ := Cert.ReferenceIdeal.τ) .tc Cert.ReferenceIdeal.main_v3)) (h_v6 : (VK (Proc.devRef (τ := Cert.KernelIdeal.τ) .tc Cert.KernelIdeal.main_v6) : (Cert.KernelIdeal.main_v6).ty.Contents (Elt Ideal)) = VR (Proc.devRef (τ := Cert.ReferenceIdeal.τ) .tc Cert.ReferenceIdeal.main_v6)) (h_v7 : (VK (Proc.devRef (τ := Cert.KernelIdeal.τ) .tc Cert.KernelIdeal.main_v7) : (Cert.KernelIdeal.main_v7).ty.Contents (Elt Ideal)) = VR (Proc.devRef (τ := Cert.ReferenceIdeal.τ) .tc Cert.ReferenceIdeal.main_v7)) (h_v15 : (VK (Proc.devRef (τ := Cert.KernelIdeal.τ) .tc Cert.KernelIdeal.main_v15) : (Cert.KernelIdeal.main_v15).ty.Contents (Elt Ideal)) = VR (Proc.devRef (τ := Cert.ReferenceIdeal.τ) .tc Cert.ReferenceIdeal.main_v15)) (h_arg3 : (VK (Proc.devRef (τ := Cert.KernelIdeal.τ) .tc Cert.KernelIdeal.main_arg3) : (Cert.KernelIdeal.main_arg3).ty.Contents (Elt Ideal)) = VR (Proc.devRef (τ := Cert.ReferenceIdeal.τ) .tc Cert.ReferenceIdeal.main_arg3)) (h_arg4 : (VK (Proc.devRef (τ := Cert.KernelIdeal.τ) .tc Cert.KernelIdeal.main_arg4) : (Cert.KernelIdeal.main_arg4).ty.Contents (Elt Ideal)) = VR (Proc.devRef (τ := Cert.ReferenceIdeal.τ) .tc Cert.ReferenceIdeal.main_arg4)) (h_arg5 : (VK (Proc.devRef (τ := Cert.KernelIdeal.τ) .tc Cert.KernelIdeal.main_arg5) : (Cert.KernelIdeal.main_arg5).ty.Contents (Elt Ideal)) = VR (Proc.devRef (τ := Cert.ReferenceIdeal.τ) .tc Cert.ReferenceIdeal.main_arg5)) :
    (after (Cert.KernelIdeal.Gen.hostOps0_2 (F := Ideal)) VK (Proc.devRef (τ := Cert.KernelIdeal.τ) .tc Cert.KernelIdeal.main_v3) : (Cert.KernelIdeal.main_v3).ty.Contents (Elt Ideal))
      = after (segR2 (F := Ideal)) VR (Proc.devRef (τ := Cert.ReferenceIdeal.τ) .tc Cert.ReferenceIdeal.main_v3) := by
  simp only [Cert.KernelIdeal.Gen.hostOps0_2, segR2]
  ars
  first
    | exact h_v3
    | ((try simp only [h_v3, h_v6, h_v7, h_v15, h_arg3, h_arg4, h_arg5]) <;> rfl)

theorem step2_v6 (h_v3 : (VK (Proc.devRef (τ := Cert.KernelIdeal.τ) .tc Cert.KernelIdeal.main_v3) : (Cert.KernelIdeal.main_v3).ty.Contents (Elt Ideal)) = VR (Proc.devRef (τ := Cert.ReferenceIdeal.τ) .tc Cert.ReferenceIdeal.main_v3)) (h_v6 : (VK (Proc.devRef (τ := Cert.KernelIdeal.τ) .tc Cert.KernelIdeal.main_v6) : (Cert.KernelIdeal.main_v6).ty.Contents (Elt Ideal)) = VR (Proc.devRef (τ := Cert.ReferenceIdeal.τ) .tc Cert.ReferenceIdeal.main_v6)) (h_v7 : (VK (Proc.devRef (τ := Cert.KernelIdeal.τ) .tc Cert.KernelIdeal.main_v7) : (Cert.KernelIdeal.main_v7).ty.Contents (Elt Ideal)) = VR (Proc.devRef (τ := Cert.ReferenceIdeal.τ) .tc Cert.ReferenceIdeal.main_v7)) (h_v15 : (VK (Proc.devRef (τ := Cert.KernelIdeal.τ) .tc Cert.KernelIdeal.main_v15) : (Cert.KernelIdeal.main_v15).ty.Contents (Elt Ideal)) = VR (Proc.devRef (τ := Cert.ReferenceIdeal.τ) .tc Cert.ReferenceIdeal.main_v15)) (h_arg3 : (VK (Proc.devRef (τ := Cert.KernelIdeal.τ) .tc Cert.KernelIdeal.main_arg3) : (Cert.KernelIdeal.main_arg3).ty.Contents (Elt Ideal)) = VR (Proc.devRef (τ := Cert.ReferenceIdeal.τ) .tc Cert.ReferenceIdeal.main_arg3)) (h_arg4 : (VK (Proc.devRef (τ := Cert.KernelIdeal.τ) .tc Cert.KernelIdeal.main_arg4) : (Cert.KernelIdeal.main_arg4).ty.Contents (Elt Ideal)) = VR (Proc.devRef (τ := Cert.ReferenceIdeal.τ) .tc Cert.ReferenceIdeal.main_arg4)) (h_arg5 : (VK (Proc.devRef (τ := Cert.KernelIdeal.τ) .tc Cert.KernelIdeal.main_arg5) : (Cert.KernelIdeal.main_arg5).ty.Contents (Elt Ideal)) = VR (Proc.devRef (τ := Cert.ReferenceIdeal.τ) .tc Cert.ReferenceIdeal.main_arg5)) :
    (after (Cert.KernelIdeal.Gen.hostOps0_2 (F := Ideal)) VK (Proc.devRef (τ := Cert.KernelIdeal.τ) .tc Cert.KernelIdeal.main_v6) : (Cert.KernelIdeal.main_v6).ty.Contents (Elt Ideal))
      = after (segR2 (F := Ideal)) VR (Proc.devRef (τ := Cert.ReferenceIdeal.τ) .tc Cert.ReferenceIdeal.main_v6) := by
  simp only [Cert.KernelIdeal.Gen.hostOps0_2, segR2]
  ars
  first
    | exact h_v6
    | ((try simp only [h_v3, h_v6, h_v7, h_v15, h_arg3, h_arg4, h_arg5]) <;> rfl)

theorem step2_v46 (h_v3 : (VK (Proc.devRef (τ := Cert.KernelIdeal.τ) .tc Cert.KernelIdeal.main_v3) : (Cert.KernelIdeal.main_v3).ty.Contents (Elt Ideal)) = VR (Proc.devRef (τ := Cert.ReferenceIdeal.τ) .tc Cert.ReferenceIdeal.main_v3)) (h_v6 : (VK (Proc.devRef (τ := Cert.KernelIdeal.τ) .tc Cert.KernelIdeal.main_v6) : (Cert.KernelIdeal.main_v6).ty.Contents (Elt Ideal)) = VR (Proc.devRef (τ := Cert.ReferenceIdeal.τ) .tc Cert.ReferenceIdeal.main_v6)) (h_v7 : (VK (Proc.devRef (τ := Cert.KernelIdeal.τ) .tc Cert.KernelIdeal.main_v7) : (Cert.KernelIdeal.main_v7).ty.Contents (Elt Ideal)) = VR (Proc.devRef (τ := Cert.ReferenceIdeal.τ) .tc Cert.ReferenceIdeal.main_v7)) (h_v15 : (VK (Proc.devRef (τ := Cert.KernelIdeal.τ) .tc Cert.KernelIdeal.main_v15) : (Cert.KernelIdeal.main_v15).ty.Contents (Elt Ideal)) = VR (Proc.devRef (τ := Cert.ReferenceIdeal.τ) .tc Cert.ReferenceIdeal.main_v15)) (h_arg3 : (VK (Proc.devRef (τ := Cert.KernelIdeal.τ) .tc Cert.KernelIdeal.main_arg3) : (Cert.KernelIdeal.main_arg3).ty.Contents (Elt Ideal)) = VR (Proc.devRef (τ := Cert.ReferenceIdeal.τ) .tc Cert.ReferenceIdeal.main_arg3)) (h_arg4 : (VK (Proc.devRef (τ := Cert.KernelIdeal.τ) .tc Cert.KernelIdeal.main_arg4) : (Cert.KernelIdeal.main_arg4).ty.Contents (Elt Ideal)) = VR (Proc.devRef (τ := Cert.ReferenceIdeal.τ) .tc Cert.ReferenceIdeal.main_arg4)) (h_arg5 : (VK (Proc.devRef (τ := Cert.KernelIdeal.τ) .tc Cert.KernelIdeal.main_arg5) : (Cert.KernelIdeal.main_arg5).ty.Contents (Elt Ideal)) = VR (Proc.devRef (τ := Cert.ReferenceIdeal.τ) .tc Cert.ReferenceIdeal.main_arg5)) :
    (after (Cert.KernelIdeal.Gen.hostOps0_2 (F := Ideal)) VK (Proc.devRef (τ := Cert.KernelIdeal.τ) .tc Cert.KernelIdeal.main_v46) : (Cert.KernelIdeal.main_v46).ty.Contents (Elt Ideal))
      = after (segR2 (F := Ideal)) VR (Proc.devRef (τ := Cert.ReferenceIdeal.τ) .tc Cert.ReferenceIdeal.main_v46) := by
  simp only [Cert.KernelIdeal.Gen.hostOps0_2, segR2]
  ars
  first
    | ((try simp only [h_v3, h_v6, h_v7, h_v15, h_arg3, h_arg4, h_arg5]) <;> rfl)

theorem step2_arg4 (h_v3 : (VK (Proc.devRef (τ := Cert.KernelIdeal.τ) .tc Cert.KernelIdeal.main_v3) : (Cert.KernelIdeal.main_v3).ty.Contents (Elt Ideal)) = VR (Proc.devRef (τ := Cert.ReferenceIdeal.τ) .tc Cert.ReferenceIdeal.main_v3)) (h_v6 : (VK (Proc.devRef (τ := Cert.KernelIdeal.τ) .tc Cert.KernelIdeal.main_v6) : (Cert.KernelIdeal.main_v6).ty.Contents (Elt Ideal)) = VR (Proc.devRef (τ := Cert.ReferenceIdeal.τ) .tc Cert.ReferenceIdeal.main_v6)) (h_v7 : (VK (Proc.devRef (τ := Cert.KernelIdeal.τ) .tc Cert.KernelIdeal.main_v7) : (Cert.KernelIdeal.main_v7).ty.Contents (Elt Ideal)) = VR (Proc.devRef (τ := Cert.ReferenceIdeal.τ) .tc Cert.ReferenceIdeal.main_v7)) (h_v15 : (VK (Proc.devRef (τ := Cert.KernelIdeal.τ) .tc Cert.KernelIdeal.main_v15) : (Cert.KernelIdeal.main_v15).ty.Contents (Elt Ideal)) = VR (Proc.devRef (τ := Cert.ReferenceIdeal.τ) .tc Cert.ReferenceIdeal.main_v15)) (h_arg3 : (VK (Proc.devRef (τ := Cert.KernelIdeal.τ) .tc Cert.KernelIdeal.main_arg3) : (Cert.KernelIdeal.main_arg3).ty.Contents (Elt Ideal)) = VR (Proc.devRef (τ := Cert.ReferenceIdeal.τ) .tc Cert.ReferenceIdeal.main_arg3)) (h_arg4 : (VK (Proc.devRef (τ := Cert.KernelIdeal.τ) .tc Cert.KernelIdeal.main_arg4) : (Cert.KernelIdeal.main_arg4).ty.Contents (Elt Ideal)) = VR (Proc.devRef (τ := Cert.ReferenceIdeal.τ) .tc Cert.ReferenceIdeal.main_arg4)) (h_arg5 : (VK (Proc.devRef (τ := Cert.KernelIdeal.τ) .tc Cert.KernelIdeal.main_arg5) : (Cert.KernelIdeal.main_arg5).ty.Contents (Elt Ideal)) = VR (Proc.devRef (τ := Cert.ReferenceIdeal.τ) .tc Cert.ReferenceIdeal.main_arg5)) :
    (after (Cert.KernelIdeal.Gen.hostOps0_2 (F := Ideal)) VK (Proc.devRef (τ := Cert.KernelIdeal.τ) .tc Cert.KernelIdeal.main_arg4) : (Cert.KernelIdeal.main_arg4).ty.Contents (Elt Ideal))
      = after (segR2 (F := Ideal)) VR (Proc.devRef (τ := Cert.ReferenceIdeal.τ) .tc Cert.ReferenceIdeal.main_arg4) := by
  simp only [Cert.KernelIdeal.Gen.hostOps0_2, segR2]
  ars
  first
    | exact h_arg4
    | ((try simp only [h_v3, h_v6, h_v7, h_v15, h_arg3, h_arg4, h_arg5]) <;> rfl)

theorem step2_arg5 (h_v3 : (VK (Proc.devRef (τ := Cert.KernelIdeal.τ) .tc Cert.KernelIdeal.main_v3) : (Cert.KernelIdeal.main_v3).ty.Contents (Elt Ideal)) = VR (Proc.devRef (τ := Cert.ReferenceIdeal.τ) .tc Cert.ReferenceIdeal.main_v3)) (h_v6 : (VK (Proc.devRef (τ := Cert.KernelIdeal.τ) .tc Cert.KernelIdeal.main_v6) : (Cert.KernelIdeal.main_v6).ty.Contents (Elt Ideal)) = VR (Proc.devRef (τ := Cert.ReferenceIdeal.τ) .tc Cert.ReferenceIdeal.main_v6)) (h_v7 : (VK (Proc.devRef (τ := Cert.KernelIdeal.τ) .tc Cert.KernelIdeal.main_v7) : (Cert.KernelIdeal.main_v7).ty.Contents (Elt Ideal)) = VR (Proc.devRef (τ := Cert.ReferenceIdeal.τ) .tc Cert.ReferenceIdeal.main_v7)) (h_v15 : (VK (Proc.devRef (τ := Cert.KernelIdeal.τ) .tc Cert.KernelIdeal.main_v15) : (Cert.KernelIdeal.main_v15).ty.Contents (Elt Ideal)) = VR (Proc.devRef (τ := Cert.ReferenceIdeal.τ) .tc Cert.ReferenceIdeal.main_v15)) (h_arg3 : (VK (Proc.devRef (τ := Cert.KernelIdeal.τ) .tc Cert.KernelIdeal.main_arg3) : (Cert.KernelIdeal.main_arg3).ty.Contents (Elt Ideal)) = VR (Proc.devRef (τ := Cert.ReferenceIdeal.τ) .tc Cert.ReferenceIdeal.main_arg3)) (h_arg4 : (VK (Proc.devRef (τ := Cert.KernelIdeal.τ) .tc Cert.KernelIdeal.main_arg4) : (Cert.KernelIdeal.main_arg4).ty.Contents (Elt Ideal)) = VR (Proc.devRef (τ := Cert.ReferenceIdeal.τ) .tc Cert.ReferenceIdeal.main_arg4)) (h_arg5 : (VK (Proc.devRef (τ := Cert.KernelIdeal.τ) .tc Cert.KernelIdeal.main_arg5) : (Cert.KernelIdeal.main_arg5).ty.Contents (Elt Ideal)) = VR (Proc.devRef (τ := Cert.ReferenceIdeal.τ) .tc Cert.ReferenceIdeal.main_arg5)) :
    (after (Cert.KernelIdeal.Gen.hostOps0_2 (F := Ideal)) VK (Proc.devRef (τ := Cert.KernelIdeal.τ) .tc Cert.KernelIdeal.main_arg5) : (Cert.KernelIdeal.main_arg5).ty.Contents (Elt Ideal))
      = after (segR2 (F := Ideal)) VR (Proc.devRef (τ := Cert.ReferenceIdeal.τ) .tc Cert.ReferenceIdeal.main_arg5) := by
  simp only [Cert.KernelIdeal.Gen.hostOps0_2, segR2]
  ars
  first
    | exact h_arg5
    | ((try simp only [h_v3, h_v6, h_v7, h_v15, h_arg3, h_arg4, h_arg5]) <;> rfl)

/-- Segment 2 carries the agreement to the next cut. -/
theorem step2 (A : Agree2 VK VR) :
    Agree3 (after (Cert.KernelIdeal.Gen.hostOps0_2 (F := Ideal)) VK) (after (segR2 (F := Ideal)) VR) := by
  obtain ⟨h_v3, h_v6, h_v7, h_v15, h_arg3, h_arg4, h_arg5⟩ := A
  exact ⟨step2_v3 VK VR h_v3 h_v6 h_v7 h_v15 h_arg3 h_arg4 h_arg5,
    step2_v6 VK VR h_v3 h_v6 h_v7 h_v15 h_arg3 h_arg4 h_arg5,
    step2_v46 VK VR h_v3 h_v6 h_v7 h_v15 h_arg3 h_arg4 h_arg5,
    step2_arg4 VK VR h_v3 h_v6 h_v7 h_v15 h_arg3 h_arg4 h_arg5,
    step2_arg5 VK VR h_v3 h_v6 h_v7 h_v15 h_arg3 h_arg4 h_arg5⟩

end Cross

end Cert.HeadLayers

end
-- ==== Proof.HeadStep3.lean ====
import proofs.«180243_j86045374808276_2_alg».proof.Proof.HeadSeg

/-! Segment 3 of the two lines of operations: from memories that agree on the arrays the segment reads, the two
memories after it agree on the arrays still to be read. -/

set_option maxRecDepth 16384

noncomputable section

namespace Cert.HeadLayers

open Idealize.ShloMosaic Idealize.ShloMosaic.TcCoe Idealize.SL.Sem Idealize.ShloMosaic.StableHlo

section Cross

set_option maxHeartbeats 8000000

variable (VK : Valuation Cert.KernelIdeal.τ Cert.KernelIdeal.sig (Elt Ideal)) (VR : Valuation Cert.ReferenceIdeal.τ Cert.ReferenceIdeal.sig (Elt Ideal))

theorem step3_v3 (h_v3 : (VK (Proc.devRef (τ := Cert.KernelIdeal.τ) .tc Cert.KernelIdeal.main_v3) : (Cert.KernelIdeal.main_v3).ty.Contents (Elt Ideal)) = VR (Proc.devRef (τ := Cert.ReferenceIdeal.τ) .tc Cert.ReferenceIdeal.main_v3)) (h_v6 : (VK (Proc.devRef (τ := Cert.KernelIdeal.τ) .tc Cert.KernelIdeal.main_v6) : (Cert.KernelIdeal.main_v6).ty.Contents (Elt Ideal)) = VR (Proc.devRef (τ := Cert.ReferenceIdeal.τ) .tc Cert.ReferenceIdeal.main_v6)) (h_v46 : (VK (Proc.devRef (τ := Cert.KernelIdeal.τ) .tc Cert.KernelIdeal.main_v46) : (Cert.KernelIdeal.main_v46).ty.Contents (Elt Ideal)) = VR (Proc.devRef (τ := Cert.ReferenceIdeal.τ) .tc Cert.ReferenceIdeal.main_v46)) (h_arg4 : (VK (Proc.devRef (τ := Cert.KernelIdeal.τ) .tc Cert.KernelIdeal.main_arg4) : (Cert.KernelIdeal.main_arg4).ty.Contents (Elt Ideal)) = VR (Proc.devRef (τ := Cert.ReferenceIdeal.τ) .tc Cert.ReferenceIdeal.main_arg4)) (h_arg5 : (VK (Proc.devRef (τ := Cert.KernelIdeal.τ) .tc Cert.KernelIdeal.main_arg5) : (Cert.KernelIdeal.main_arg5).ty.Contents (Elt Ideal)) = VR (Proc.devRef (τ := Cert.ReferenceIdeal.τ) .tc Cert.ReferenceIdeal.main_arg5)) :
    (after (Cert.KernelIdeal.Gen.hostOps0_3 (F := Ideal)) VK (Proc.devRef (τ := Cert.KernelIdeal.τ) .tc Cert.KernelIdeal.main_v3) : (Cert.KernelIdeal.main_v3).ty.Contents (Elt Ideal))
      = after (segR3 (F := Ideal)) VR (Proc.devRef (τ := Cert.ReferenceIdeal.τ) .tc Cert.ReferenceIdeal.main_v3) := by
  simp only [Cert.KernelIdeal.Gen.hostOps0_3, segR3]
  ars
  first
    | exact h_v3
    | ((try simp only [h_v3, h_v6, h_v46, h_arg4, h_arg5]) <;> rfl)

theorem step3_v6 (h_v3 : (VK (Proc.devRef (τ := Cert.KernelIdeal.τ) .tc Cert.KernelIdeal.main_v3) : (Cert.KernelIdeal.main_v3).ty.Contents (Elt Ideal)) = VR (Proc.devRef (τ := Cert.ReferenceIdeal.τ) .tc Cert.ReferenceIdeal.main_v3)) (h_v6 : (VK (Proc.devRef (τ := Cert.KernelIdeal.τ) .tc Cert.KernelIdeal.main_v6) : (Cert.KernelIdeal.main_v6).ty.Contents (Elt Ideal)) = VR (Proc.devRef (τ := Cert.ReferenceIdeal.τ) .tc Cert.ReferenceIdeal.main_v6)) (h_v46 : (VK (Proc.devRef (τ := Cert.KernelIdeal.τ) .tc Cert.KernelIdeal.main_v46) : (Cert.KernelIdeal.main_v46).ty.Contents (Elt Ideal)) = VR (Proc.devRef (τ := Cert.ReferenceIdeal.τ) .tc Cert.ReferenceIdeal.main_v46)) (h_arg4 : (VK (Proc.devRef (τ := Cert.KernelIdeal.τ) .tc Cert.KernelIdeal.main_arg4) : (Cert.KernelIdeal.main_arg4).ty.Contents (Elt Ideal)) = VR (Proc.devRef (τ := Cert.ReferenceIdeal.τ) .tc Cert.ReferenceIdeal.main_arg4)) (h_arg5 : (VK (Proc.devRef (τ := Cert.KernelIdeal.τ) .tc Cert.KernelIdeal.main_arg5) : (Cert.KernelIdeal.main_arg5).ty.Contents (Elt Ideal)) = VR (Proc.devRef (τ := Cert.ReferenceIdeal.τ) .tc Cert.ReferenceIdeal.main_arg5)) :
    (after (Cert.KernelIdeal.Gen.hostOps0_3 (F := Ideal)) VK (Proc.devRef (τ := Cert.KernelIdeal.τ) .tc Cert.KernelIdeal.main_v6) : (Cert.KernelIdeal.main_v6).ty.Contents (Elt Ideal))
      = after (segR3 (F := Ideal)) VR (Proc.devRef (τ := Cert.ReferenceIdeal.τ) .tc Cert.ReferenceIdeal.main_v6) := by
  simp only [Cert.KernelIdeal.Gen.hostOps0_3, segR3]
  ars
  first
    | exact h_v6
    | ((try simp only [h_v3, h_v6, h_v46, h_arg4, h_arg5]) <;> rfl)

theorem step3_v47 (h_v3 : (VK (Proc.devRef (τ := Cert.KernelIdeal.τ) .tc Cert.KernelIdeal.main_v3) : (Cert.KernelIdeal.main_v3).ty.Contents (Elt Ideal)) = VR (Proc.devRef (τ := Cert.ReferenceIdeal.τ) .tc Cert.ReferenceIdeal.main_v3)) (h_v6 : (VK (Proc.devRef (τ := Cert.KernelIdeal.τ) .tc Cert.KernelIdeal.main_v6) : (Cert.KernelIdeal.main_v6).ty.Contents (Elt Ideal)) = VR (Proc.devRef (τ := Cert.ReferenceIdeal.τ) .tc Cert.ReferenceIdeal.main_v6)) (h_v46 : (VK (Proc.devRef (τ := Cert.KernelIdeal.τ) .tc Cert.KernelIdeal.main_v46) : (Cert.KernelIdeal.main_v46).ty.Contents (Elt Ideal)) = VR (Proc.devRef (τ := Cert.ReferenceIdeal.τ) .tc Cert.ReferenceIdeal.main_v46)) (h_arg4 : (VK (Proc.devRef (τ := Cert.KernelIdeal.τ) .tc Cert.KernelIdeal.main_arg4) : (Cert.KernelIdeal.main_arg4).ty.Contents (Elt Ideal)) = VR (Proc.devRef (τ := Cert.ReferenceIdeal.τ) .tc Cert.ReferenceIdeal.main_arg4)) (h_arg5 : (VK (Proc.devRef (τ := Cert.KernelIdeal.τ) .tc Cert.KernelIdeal.main_arg5) : (Cert.KernelIdeal.main_arg5).ty.Contents (Elt Ideal)) = VR (Proc.devRef (τ := Cert.ReferenceIdeal.τ) .tc Cert.ReferenceIdeal.main_arg5)) :
    (after (Cert.KernelIdeal.Gen.hostOps0_3 (F := Ideal)) VK (Proc.devRef (τ := Cert.KernelIdeal.τ) .tc Cert.KernelIdeal.main_v47) : (Cert.KernelIdeal.main_v47).ty.Contents (Elt Ideal))
      = after (segR3 (F := Ideal)) VR (Proc.devRef (τ := Cert.ReferenceIdeal.τ) .tc Cert.ReferenceIdeal.main_v47) := by
  simp only [Cert.KernelIdeal.Gen.hostOps0_3, segR3]
  ars
  first
    | ((try simp only [h_v3, h_v6, h_v46, h_arg4, h_arg5]) <;> rfl)

theorem step3_arg4 (h_v3 : (VK (Proc.devRef (τ := Cert.KernelIdeal.τ) .tc Cert.KernelIdeal.main_v3) : (Cert.KernelIdeal.main_v3).ty.Contents (Elt Ideal)) = VR (Proc.devRef (τ := Cert.ReferenceIdeal.τ) .tc Cert.ReferenceIdeal.main_v3)) (h_v6 : (VK (Proc.devRef (τ := Cert.KernelIdeal.τ) .tc Cert.KernelIdeal.main_v6) : (Cert.KernelIdeal.main_v6).ty.Contents (Elt Ideal)) = VR (Proc.devRef (τ := Cert.ReferenceIdeal.τ) .tc Cert.ReferenceIdeal.main_v6)) (h_v46 : (VK (Proc.devRef (τ := Cert.KernelIdeal.τ) .tc Cert.KernelIdeal.main_v46) : (Cert.KernelIdeal.main_v46).ty.Contents (Elt Ideal)) = VR (Proc.devRef (τ := Cert.ReferenceIdeal.τ) .tc Cert.ReferenceIdeal.main_v46)) (h_arg4 : (VK (Proc.devRef (τ := Cert.KernelIdeal.τ) .tc Cert.KernelIdeal.main_arg4) : (Cert.KernelIdeal.main_arg4).ty.Contents (Elt Ideal)) = VR (Proc.devRef (τ := Cert.ReferenceIdeal.τ) .tc Cert.ReferenceIdeal.main_arg4)) (h_arg5 : (VK (Proc.devRef (τ := Cert.KernelIdeal.τ) .tc Cert.KernelIdeal.main_arg5) : (Cert.KernelIdeal.main_arg5).ty.Contents (Elt Ideal)) = VR (Proc.devRef (τ := Cert.ReferenceIdeal.τ) .tc Cert.ReferenceIdeal.main_arg5)) :
    (after (Cert.KernelIdeal.Gen.hostOps0_3 (F := Ideal)) VK (Proc.devRef (τ := Cert.KernelIdeal.τ) .tc Cert.KernelIdeal.main_arg4) : (Cert.KernelIdeal.main_arg4).ty.Contents (Elt Ideal))
      = after (segR3 (F := Ideal)) VR (Proc.devRef (τ := Cert.ReferenceIdeal.τ) .tc Cert.ReferenceIdeal.main_arg4) := by
  simp only [Cert.KernelIdeal.Gen.hostOps0_3, segR3]
  ars
  first
    | exact h_arg4
    | ((try simp only [h_v3, h_v6, h_v46, h_arg4, h_arg5]) <;> rfl)

theorem step3_arg5 (h_v3 : (VK (Proc.devRef (τ := Cert.KernelIdeal.τ) .tc Cert.KernelIdeal.main_v3) : (Cert.KernelIdeal.main_v3).ty.Contents (Elt Ideal)) = VR (Proc.devRef (τ := Cert.ReferenceIdeal.τ) .tc Cert.ReferenceIdeal.main_v3)) (h_v6 : (VK (Proc.devRef (τ := Cert.KernelIdeal.τ) .tc Cert.KernelIdeal.main_v6) : (Cert.KernelIdeal.main_v6).ty.Contents (Elt Ideal)) = VR (Proc.devRef (τ := Cert.ReferenceIdeal.τ) .tc Cert.ReferenceIdeal.main_v6)) (h_v46 : (VK (Proc.devRef (τ := Cert.KernelIdeal.τ) .tc Cert.KernelIdeal.main_v46) : (Cert.KernelIdeal.main_v46).ty.Contents (Elt Ideal)) = VR (Proc.devRef (τ := Cert.ReferenceIdeal.τ) .tc Cert.ReferenceIdeal.main_v46)) (h_arg4 : (VK (Proc.devRef (τ := Cert.KernelIdeal.τ) .tc Cert.KernelIdeal.main_arg4) : (Cert.KernelIdeal.main_arg4).ty.Contents (Elt Ideal)) = VR (Proc.devRef (τ := Cert.ReferenceIdeal.τ) .tc Cert.ReferenceIdeal.main_arg4)) (h_arg5 : (VK (Proc.devRef (τ := Cert.KernelIdeal.τ) .tc Cert.KernelIdeal.main_arg5) : (Cert.KernelIdeal.main_arg5).ty.Contents (Elt Ideal)) = VR (Proc.devRef (τ := Cert.ReferenceIdeal.τ) .tc Cert.ReferenceIdeal.main_arg5)) :
    (after (Cert.KernelIdeal.Gen.hostOps0_3 (F := Ideal)) VK (Proc.devRef (τ := Cert.KernelIdeal.τ) .tc Cert.KernelIdeal.main_arg5) : (Cert.KernelIdeal.main_arg5).ty.Contents (Elt Ideal))
      = after (segR3 (F := Ideal)) VR (Proc.devRef (τ := Cert.ReferenceIdeal.τ) .tc Cert.ReferenceIdeal.main_arg5) := by
  simp only [Cert.KernelIdeal.Gen.hostOps0_3, segR3]
  ars
  first
    | exact h_arg5
    | ((try simp only [h_v3, h_v6, h_v46, h_arg4, h_arg5]) <;> rfl)

/-- Segment 3 carries the agreement to the next cut. -/
theorem step3 (A : Agree3 VK VR) :
    Agree4 (after (Cert.KernelIdeal.Gen.hostOps0_3 (F := Ideal)) VK) (after (segR3 (F := Ideal)) VR) := by
  obtain ⟨h_v3, h_v6, h_v46, h_arg4, h_arg5⟩ := A
  exact ⟨step3_v3 VK VR h_v3 h_v6 h_v46 h_arg4 h_arg5,
    step3_v6 VK VR h_v3 h_v6 h_v46 h_arg4 h_arg5,
    step3_v47 VK VR h_v3 h_v6 h_v46 h_arg4 h_arg5,
    step3_arg4 VK VR h_v3 h_v6 h_v46 h_arg4 h_arg5,
    step3_arg5 VK VR h_v3 h_v6 h_v46 h_arg4 h_arg5⟩

end Cross

end Cert.HeadLayers

end
-- ==== Proof.HeadStep4.lean ====
import proofs.«180243_j86045374808276_2_alg».proof.Proof.HeadSeg

/-! Segment 4 of the two lines of operations: from memories that agree on the arrays the segment reads, the two
memories after it agree on the arrays still to be read. -/

set_option maxRecDepth 16384

noncomputable section

namespace Cert.HeadLayers

open Idealize.ShloMosaic Idealize.ShloMosaic.TcCoe Idealize.SL.Sem Idealize.ShloMosaic.StableHlo

section Cross

set_option maxHeartbeats 8000000

variable (VK : Valuation Cert.KernelIdeal.τ Cert.KernelIdeal.sig (Elt Ideal)) (VR : Valuation Cert.ReferenceIdeal.τ Cert.ReferenceIdeal.sig (Elt Ideal))

theorem step4_v3 (h_v3 : (VK (Proc.devRef (τ := Cert.KernelIdeal.τ) .tc Cert.KernelIdeal.main_v3) : (Cert.KernelIdeal.main_v3).ty.Contents (Elt Ideal)) = VR (Proc.devRef (τ := Cert.ReferenceIdeal.τ) .tc Cert.ReferenceIdeal.main_v3)) (h_v6 : (VK (Proc.devRef (τ := Cert.KernelIdeal.τ) .tc Cert.KernelIdeal.main_v6) : (Cert.KernelIdeal.main_v6).ty.Contents (Elt Ideal)) = VR (Proc.devRef (τ := Cert.ReferenceIdeal.τ) .tc Cert.ReferenceIdeal.main_v6)) (h_v47 : (VK (Proc.devRef (τ := Cert.KernelIdeal.τ) .tc Cert.KernelIdeal.main_v47) : (Cert.KernelIdeal.main_v47).ty.Contents (Elt Ideal)) = VR (Proc.devRef (τ := Cert.ReferenceIdeal.τ) .tc Cert.ReferenceIdeal.main_v47)) (h_arg4 : (VK (Proc.devRef (τ := Cert.KernelIdeal.τ) .tc Cert.KernelIdeal.main_arg4) : (Cert.KernelIdeal.main_arg4).ty.Contents (Elt Ideal)) = VR (Proc.devRef (τ := Cert.ReferenceIdeal.τ) .tc Cert.ReferenceIdeal.main_arg4)) (h_arg5 : (VK (Proc.devRef (τ := Cert.KernelIdeal.τ) .tc Cert.KernelIdeal.main_arg5) : (Cert.KernelIdeal.main_arg5).ty.Contents (Elt Ideal)) = VR (Proc.devRef (τ := Cert.ReferenceIdeal.τ) .tc Cert.ReferenceIdeal.main_arg5)) :
    (after (Cert.KernelIdeal.Gen.hostOps0_4 (F := Ideal)) VK (Proc.devRef (τ := Cert.KernelIdeal.τ) .tc Cert.KernelIdeal.main_v3) : (Cert.KernelIdeal.main_v3).ty.Contents (Elt Ideal))
      = after (segR4 (F := Ideal)) VR (Proc.devRef (τ := Cert.ReferenceIdeal.τ) .tc Cert.ReferenceIdeal.main_v3) := by
  simp only [Cert.KernelIdeal.Gen.hostOps0_4, segR4]
  ars
  all_goals first
    | exact h_v3
    | ((try simp only [h_v3, h_v6, h_v47, h_arg4, h_arg5]) <;> rfl)

theorem step4_v6 (h_v3 : (VK (Proc.devRef (τ := Cert.KernelIdeal.τ) .tc Cert.KernelIdeal.main_v3) : (Cert.KernelIdeal.main_v3).ty.Contents (Elt Ideal)) = VR (Proc.devRef (τ := Cert.ReferenceIdeal.τ) .tc Cert.ReferenceIdeal.main_v3)) (h_v6 : (VK (Proc.devRef (τ := Cert.KernelIdeal.τ) .tc Cert.KernelIdeal.main_v6) : (Cert.KernelIdeal.main_v6).ty.Contents (Elt Ideal)) = VR (Proc.devRef (τ := Cert.ReferenceIdeal.τ) .tc Cert.ReferenceIdeal.main_v6)) (h_v47 : (VK (Proc.devRef (τ := Cert.KernelIdeal.τ) .tc Cert.KernelIdeal.main_v47) : (Cert.KernelIdeal.main_v47).ty.Contents (Elt Ideal)) = VR (Proc.devRef (τ := Cert.ReferenceIdeal.τ) .tc Cert.ReferenceIdeal.main_v47)) (h_arg4 : (VK (Proc.devRef (τ := Cert.KernelIdeal.τ) .tc Cert.KernelIdeal.main_arg4) : (Cert.KernelIdeal.main_arg4).ty.Contents (Elt Ideal)) = VR (Proc.devRef (τ := Cert.ReferenceIdeal.τ) .tc Cert.ReferenceIdeal.main_arg4)) (h_arg5 : (VK (Proc.devRef (τ := Cert.KernelIdeal.τ) .tc Cert.KernelIdeal.main_arg5) : (Cert.KernelIdeal.main_arg5).ty.Contents (Elt Ideal)) = VR (Proc.devRef (τ := Cert.ReferenceIdeal.τ) .tc Cert.ReferenceIdeal.main_arg5)) :
    (after (Cert.KernelIdeal.Gen.hostOps0_4 (F := Ideal)) VK (Proc.devRef (τ := Cert.KernelIdeal.τ) .tc Cert.KernelIdeal.main_v6) : (Cert.KernelIdeal.main_v6).ty.Contents (Elt Ideal))
      = after (segR4 (F := Ideal)) VR (Proc.devRef (τ := Cert.ReferenceIdeal.τ) .tc Cert.ReferenceIdeal.main_v6) := by
  simp only [Cert.KernelIdeal.Gen.hostOps0_4, segR4]
  ars
  all_goals first
    | exact h_v6
    | ((try simp only [h_v3, h_v6, h_v47, h_arg4, h_arg5]) <;> rfl)

theorem step4_v48 (h_v3 : (VK (Proc.devRef (τ := Cert.KernelIdeal.τ) .tc Cert.KernelIdeal.main_v3) : (Cert.KernelIdeal.main_v3).ty.Contents (Elt Ideal)) = VR (Proc.devRef (τ := Cert.ReferenceIdeal.τ) .tc Cert.ReferenceIdeal.main_v3)) (h_v6 : (VK (Proc.devRef (τ := Cert.KernelIdeal.τ) .tc Cert.KernelIdeal.main_v6) : (Cert.KernelIdeal.main_v6).ty.Contents (Elt Ideal)) = VR (Proc.devRef (τ := Cert.ReferenceIdeal.τ) .tc Cert.ReferenceIdeal.main_v6)) (h_v47 : (VK (Proc.devRef (τ := Cert.KernelIdeal.τ) .tc Cert.KernelIdeal.main_v47) : (Cert.KernelIdeal.main_v47).ty.Contents (Elt Ideal)) = VR (Proc.devRef (τ := Cert.ReferenceIdeal.τ) .tc Cert.ReferenceIdeal.main_v47)) (h_arg4 : (VK (Proc.devRef (τ := Cert.KernelIdeal.τ) .tc Cert.KernelIdeal.main_arg4) : (Cert.KernelIdeal.main_arg4).ty.Contents (Elt Ideal)) = VR (Proc.devRef (τ := Cert.ReferenceIdeal.τ) .tc Cert.ReferenceIdeal.main_arg4)) (h_arg5 : (VK (Proc.devRef (τ := Cert.KernelIdeal.τ) .tc Cert.KernelIdeal.main_arg5) : (Cert.KernelIdeal.main_arg5).ty.Contents (Elt Ideal)) = VR (Proc.devRef (τ := Cert.ReferenceIdeal.τ) .tc Cert.ReferenceIdeal.main_arg5)) :
    (after (Cert.KernelIdeal.Gen.hostOps0_4 (F := Ideal)) VK (Proc.devRef (τ := Cert.KernelIdeal.τ) .tc Cert.KernelIdeal.main_v48) : (Cert.KernelIdeal.main_v48).ty.Contents (Elt Ideal))
      = after (segR4 (F := Ideal)) VR (Proc.devRef (τ := Cert.ReferenceIdeal.τ) .tc Cert.ReferenceIdeal.main_v48) := by
  simp only [Cert.KernelIdeal.Gen.hostOps0_4, segR4]
  ars
  all_goals first
    | ((try simp only [h_v3, h_v6, h_v47, h_arg4, h_arg5]) <;> rfl)

theorem step4_v54 (h_v3 : (VK (Proc.devRef (τ := Cert.KernelIdeal.τ) .tc Cert.KernelIdeal.main_v3) : (Cert.KernelIdeal.main_v3).ty.Contents (Elt Ideal)) = VR (Proc.devRef (τ := Cert.ReferenceIdeal.τ) .tc Cert.ReferenceIdeal.main_v3)) (h_v6 : (VK (Proc.devRef (τ := Cert.KernelIdeal.τ) .tc Cert.KernelIdeal.main_v6) : (Cert.KernelIdeal.main_v6).ty.Contents (Elt Ideal)) = VR (Proc.devRef (τ := Cert.ReferenceIdeal.τ) .tc Cert.ReferenceIdeal.main_v6)) (h_v47 : (VK (Proc.devRef (τ := Cert.KernelIdeal.τ) .tc Cert.KernelIdeal.main_v47) : (Cert.KernelIdeal.main_v47).ty.Contents (Elt Ideal)) = VR (Proc.devRef (τ := Cert.ReferenceIdeal.τ) .tc Cert.ReferenceIdeal.main_v47)) (h_arg4 : (VK (Proc.devRef (τ := Cert.KernelIdeal.τ) .tc Cert.KernelIdeal.main_arg4) : (Cert.KernelIdeal.main_arg4).ty.Contents (Elt Ideal)) = VR (Proc.devRef (τ := Cert.ReferenceIdeal.τ) .tc Cert.ReferenceIdeal.main_arg4)) (h_arg5 : (VK (Proc.devRef (τ := Cert.KernelIdeal.τ) .tc Cert.KernelIdeal.main_arg5) : (Cert.KernelIdeal.main_arg5).ty.Contents (Elt Ideal)) = VR (Proc.devRef (τ := Cert.ReferenceIdeal.τ) .tc Cert.ReferenceIdeal.main_arg5)) :
    (after (Cert.KernelIdeal.Gen.hostOps0_4 (F := Ideal)) VK (Proc.devRef (τ := Cert.KernelIdeal.τ) .tc Cert.KernelIdeal.main_v54) : (Cert.KernelIdeal.main_v54).ty.Contents (Elt Ideal))
      = after (segR4 (F := Ideal)) VR (Proc.devRef (τ := Cert.ReferenceIdeal.τ) .tc Cert.ReferenceIdeal.main_v54) := by
  simp only [Cert.KernelIdeal.Gen.hostOps0_4, segR4]
  ars
  all_goals first
    | ((try simp only [h_v3, h_v6, h_v47, h_arg4, h_arg5]) <;> rfl)

theorem step4_v55 (h_v3 : (VK (Proc.devRef (τ := Cert.KernelIdeal.τ) .tc Cert.KernelIdeal.main_v3) : (Cert.KernelIdeal.main_v3).ty.Contents (Elt Ideal)) = VR (Proc.devRef (τ := Cert.ReferenceIdeal.τ) .tc Cert.ReferenceIdeal.main_v3)) (h_v6 : (VK (Proc.devRef (τ := Cert.KernelIdeal.τ) .tc Cert.KernelIdeal.main_v6) : (Cert.KernelIdeal.main_v6).ty.Contents (Elt Ideal)) = VR (Proc.devRef (τ := Cert.ReferenceIdeal.τ) .tc Cert.ReferenceIdeal.main_v6)) (h_v47 : (VK (Proc.devRef (τ := Cert.KernelIdeal.τ) .tc Cert.KernelIdeal.main_v47) : (Cert.KernelIdeal.main_v47).ty.Contents (Elt Ideal)) = VR (Proc.devRef (τ := Cert.ReferenceIdeal.τ) .tc Cert.ReferenceIdeal.main_v47)) (h_arg4 : (VK (Proc.devRef (τ := Cert.KernelIdeal.τ) .tc Cert.KernelIdeal.main_arg4) : (Cert.KernelIdeal.main_arg4).ty.Contents (Elt Ideal)) = VR (Proc.devRef (τ := Cert.ReferenceIdeal.τ) .tc Cert.ReferenceIdeal.main_arg4)) (h_arg5 : (VK (Proc.devRef (τ := Cert.KernelIdeal.τ) .tc Cert.KernelIdeal.main_arg5) : (Cert.KernelIdeal.main_arg5).ty.Contents (Elt Ideal)) = VR (Proc.devRef (τ := Cert.ReferenceIdeal.τ) .tc Cert.ReferenceIdeal.main_arg5)) :
    (after (Cert.KernelIdeal.Gen.hostOps0_4 (F := Ideal)) VK (Proc.devRef (τ := Cert.KernelIdeal.τ) .tc Cert.KernelIdeal.main_v55) : (Cert.KernelIdeal.main_v55).ty.Contents (Elt Ideal))
      = after (segR4 (F := Ideal)) VR (Proc.devRef (τ := Cert.ReferenceIdeal.τ) .tc Cert.ReferenceIdeal.main_v55) := by
  simp only [Cert.KernelIdeal.Gen.hostOps0_4, segR4]
  ars
  all_goals first
    | ((try simp only [h_v3, h_v6, h_v47, h_arg4, h_arg5]) <;> rfl)

theorem step4_cst_12 (h_v3 : (VK (Proc.devRef (τ := Cert.KernelIdeal.τ) .tc Cert.KernelIdeal.main_v3) : (Cert.KernelIdeal.main_v3).ty.Contents (Elt Ideal)) = VR (Proc.devRef (τ := Cert.ReferenceIdeal.τ) .tc Cert.ReferenceIdeal.main_v3)) (h_v6 : (VK (Proc.devRef (τ := Cert.KernelIdeal.τ) .tc Cert.KernelIdeal.main_v6) : (Cert.KernelIdeal.main_v6).ty.Contents (Elt Ideal)) = VR (Proc.devRef (τ := Cert.ReferenceIdeal.τ) .tc Cert.ReferenceIdeal.main_v6)) (h_v47 : (VK (Proc.devRef (τ := Cert.KernelIdeal.τ) .tc Cert.KernelIdeal.main_v47) : (Cert.KernelIdeal.main_v47).ty.Contents (Elt Ideal)) = VR (Proc.devRef (τ := Cert.ReferenceIdeal.τ) .tc Cert.ReferenceIdeal.main_v47)) (h_arg4 : (VK (Proc.devRef (τ := Cert.KernelIdeal.τ) .tc Cert.KernelIdeal.main_arg4) : (Cert.KernelIdeal.main_arg4).ty.Contents (Elt Ideal)) = VR (Proc.devRef (τ := Cert.ReferenceIdeal.τ) .tc Cert.ReferenceIdeal.main_arg4)) (h_arg5 : (VK (Proc.devRef (τ := Cert.KernelIdeal.τ) .tc Cert.KernelIdeal.main_arg5) : (Cert.KernelIdeal.main_arg5).ty.Contents (Elt Ideal)) = VR (Proc.devRef (τ := Cert.ReferenceIdeal.τ) .tc Cert.ReferenceIdeal.main_arg5)) :
    (after (Cert.KernelIdeal.Gen.hostOps0_4 (F := Ideal)) VK (Proc.devRef (τ := Cert.KernelIdeal.τ) .tc Cert.KernelIdeal.main_cst_12) : (Cert.KernelIdeal.main_cst_12).ty.Contents (Elt Ideal))
      = after (segR4 (F := Ideal)) VR (Proc.devRef (τ := Cert.ReferenceIdeal.τ) .tc Cert.ReferenceIdeal.main_cst_12) := by
  simp only [Cert.KernelIdeal.Gen.hostOps0_4, segR4]
  ars
  all_goals first
    | ((try simp only [h_v3, h_v6, h_v47, h_arg4, h_arg5]) <;> rfl)

theorem step4_arg5 (h_v3 : (VK (Proc.devRef (τ := Cert.KernelIdeal.τ) .tc Cert.KernelIdeal.main_v3) : (Cert.KernelIdeal.main_v3).ty.Contents (Elt Ideal)) = VR (Proc.devRef (τ := Cert.ReferenceIdeal.τ) .tc Cert.ReferenceIdeal.main_v3)) (h_v6 : (VK (Proc.devRef (τ := Cert.KernelIdeal.τ) .tc Cert.KernelIdeal.main_v6) : (Cert.KernelIdeal.main_v6).ty.Contents (Elt Ideal)) = VR (Proc.devRef (τ := Cert.ReferenceIdeal.τ) .tc Cert.ReferenceIdeal.main_v6)) (h_v47 : (VK (Proc.devRef (τ := Cert.KernelIdeal.τ) .tc Cert.KernelIdeal.main_v47) : (Cert.KernelIdeal.main_v47).ty.Contents (Elt Ideal)) = VR (Proc.devRef (τ := Cert.ReferenceIdeal.τ) .tc Cert.ReferenceIdeal.main_v47)) (h_arg4 : (VK (Proc.devRef (τ := Cert.KernelIdeal.τ) .tc Cert.KernelIdeal.main_arg4) : (Cert.KernelIdeal.main_arg4).ty.Contents (Elt Ideal)) = VR (Proc.devRef (τ := Cert.ReferenceIdeal.τ) .tc Cert.ReferenceIdeal.main_arg4)) (h_arg5 : (VK (Proc.devRef (τ := Cert.KernelIdeal.τ) .tc Cert.KernelIdeal.main_arg5) : (Cert.KernelIdeal.main_arg5).ty.Contents (Elt Ideal)) = VR (Proc.devRef (τ := Cert.ReferenceIdeal.τ) .tc Cert.ReferenceIdeal.main_arg5)) :
    (after (Cert.KernelIdeal.Gen.hostOps0_4 (F := Ideal)) VK (Proc.devRef (τ := Cert.KernelIdeal.τ) .tc Cert.KernelIdeal.main_arg5) : (Cert.KernelIdeal.main_arg5).ty.Contents (Elt Ideal))
      = after (segR4 (F := Ideal)) VR (Proc.devRef (τ := Cert.ReferenceIdeal.τ) .tc Cert.ReferenceIdeal.main_arg5) := by
  simp only [Cert.KernelIdeal.Gen.hostOps0_4, segR4]
  ars
  all_goals first
    | exact h_arg5
    | ((try simp only [h_v3, h_v6, h_v47, h_arg4, h_arg5]) <;> rfl)

/-- Segment 4 carries the agreement to the next cut. -/
theorem step4 (A : Agree4 VK VR) :
    Agree5 (after (Cert.KernelIdeal.Gen.hostOps0_4 (F := Ideal)) VK) (after (segR4 (F := Ideal)) VR) := by
  obtain ⟨h_v3, h_v6, h_v47, h_arg4, h_arg5⟩ := A
  exact ⟨step4_v3 VK VR h_v3 h_v6 h_v47 h_arg4 h_arg5,
    step4_v6 VK VR h_v3 h_v6 h_v47 h_arg4 h_arg5,
    step4_v48 VK VR h_v3 h_v6 h_v47 h_arg4 h_arg5,
    step4_v54 VK VR h_v3 h_v6 h_v47 h_arg4 h_arg5,
    step4_v55 VK VR h_v3 h_v6 h_v47 h_arg4 h_arg5,
    step4_cst_12 VK VR h_v3 h_v6 h_v47 h_arg4 h_arg5,
    step4_arg5 VK VR h_v3 h_v6 h_v47 h_arg4 h_arg5⟩

end Cross

end Cert.HeadLayers

end
-- ==== Proof.HeadStep5.lean ====
import proofs.«180243_j86045374808276_2_alg».proof.Proof.HeadSeg

/-! Segment 5 of the two lines of operations: from memories that agree on the arrays the segment reads, the two
memories after it agree on the arrays still to be read. -/

set_option maxRecDepth 16384

noncomputable section

namespace Cert.HeadLayers

open Idealize.ShloMosaic Idealize.ShloMosaic.TcCoe Idealize.SL.Sem Idealize.ShloMosaic.StableHlo

section Cross

set_option maxHeartbeats 8000000

variable (VK : Valuation Cert.KernelIdeal.τ Cert.KernelIdeal.sig (Elt Ideal)) (VR : Valuation Cert.ReferenceIdeal.τ Cert.ReferenceIdeal.sig (Elt Ideal))

theorem step5_v3 (h_v3 : (VK (Proc.devRef (τ := Cert.KernelIdeal.τ) .tc Cert.KernelIdeal.main_v3) : (Cert.KernelIdeal.main_v3).ty.Contents (Elt Ideal)) = VR (Proc.devRef (τ := Cert.ReferenceIdeal.τ) .tc Cert.ReferenceIdeal.main_v3)) (h_v6 : (VK (Proc.devRef (τ := Cert.KernelIdeal.τ) .tc Cert.KernelIdeal.main_v6) : (Cert.KernelIdeal.main_v6).ty.Contents (Elt Ideal)) = VR (Proc.devRef (τ := Cert.ReferenceIdeal.τ) .tc Cert.ReferenceIdeal.main_v6)) (h_v48 : (VK (Proc.devRef (τ := Cert.KernelIdeal.τ) .tc Cert.KernelIdeal.main_v48) : (Cert.KernelIdeal.main_v48).ty.Contents (Elt Ideal)) = VR (Proc.devRef (τ := Cert.ReferenceIdeal.τ) .tc Cert.ReferenceIdeal.main_v48)) (h_v54 : (VK (Proc.devRef (τ := Cert.KernelIdeal.τ) .tc Cert.KernelIdeal.main_v54) : (Cert.KernelIdeal.main_v54).ty.Contents (Elt Ideal)) = VR (Proc.devRef (τ := Cert.ReferenceIdeal.τ) .tc Cert.ReferenceIdeal.main_v54)) (h_v55 : (VK (Proc.devRef (τ := Cert.KernelIdeal.τ) .tc Cert.KernelIdeal.main_v55) : (Cert.KernelIdeal.main_v55).ty.Contents (Elt Ideal)) = VR (Proc.devRef (τ := Cert.ReferenceIdeal.τ) .tc Cert.ReferenceIdeal.main_v55)) (h_cst_12 : (VK (Proc.devRef (τ := Cert.KernelIdeal.τ) .tc Cert.KernelIdeal.main_cst_12) : (Cert.KernelIdeal.main_cst_12).ty.Contents (Elt Ideal)) = VR (Proc.devRef (τ := Cert.ReferenceIdeal.τ) .tc Cert.ReferenceIdeal.main_cst_12)) (h_arg5 : (VK (Proc.devRef (τ := Cert.KernelIdeal.τ) .tc Cert.KernelIdeal.main_arg5) : (Cert.KernelIdeal.main_arg5).ty.Contents (Elt Ideal)) = VR (Proc.devRef (τ := Cert.ReferenceIdeal.τ) .tc Cert.ReferenceIdeal.main_arg5)) :
    (after (Cert.KernelIdeal.Gen.hostOps0_5 (F := Ideal)) VK (Proc.devRef (τ := Cert.KernelIdeal.τ) .tc Cert.KernelIdeal.main_v3) : (Cert.KernelIdeal.main_v3).ty.Contents (Elt Ideal))
      = after (segR5 (F := Ideal)) VR (Proc.devRef (τ := Cert.ReferenceIdeal.τ) .tc Cert.ReferenceIdeal.main_v3) := by
  simp only [Cert.KernelIdeal.Gen.hostOps0_5, segR5]
  ars
  first
    | exact h_v3
    | ((try simp only [h_v3, h_v6, h_v48, h_v54, h_v55, h_cst_12, h_arg5]) <;> rfl)

theorem step5_v6 (h_v3 : (VK (Proc.devRef (τ := Cert.KernelIdeal.τ) .tc Cert.KernelIdeal.main_v3) : (Cert.KernelIdeal.main_v3).ty.Contents (Elt Ideal)) = VR (Proc.devRef (τ := Cert.ReferenceIdeal.τ) .tc Cert.ReferenceIdeal.main_v3)) (h_v6 : (VK (Proc.devRef (τ := Cert.KernelIdeal.τ) .tc Cert.KernelIdeal.main_v6) : (Cert.KernelIdeal.main_v6).ty.Contents (Elt Ideal)) = VR (Proc.devRef (τ := Cert.ReferenceIdeal.τ) .tc Cert.ReferenceIdeal.main_v6)) (h_v48 : (VK (Proc.devRef (τ := Cert.KernelIdeal.τ) .tc Cert.KernelIdeal.main_v48) : (Cert.KernelIdeal.main_v48).ty.Contents (Elt Ideal)) = VR (Proc.devRef (τ := Cert.ReferenceIdeal.τ) .tc Cert.ReferenceIdeal.main_v48)) (h_v54 : (VK (Proc.devRef (τ := Cert.KernelIdeal.τ) .tc Cert.KernelIdeal.main_v54) : (Cert.KernelIdeal.main_v54).ty.Contents (Elt Ideal)) = VR (Proc.devRef (τ := Cert.ReferenceIdeal.τ) .tc Cert.ReferenceIdeal.main_v54)) (h_v55 : (VK (Proc.devRef (τ := Cert.KernelIdeal.τ) .tc Cert.KernelIdeal.main_v55) : (Cert.KernelIdeal.main_v55).ty.Contents (Elt Ideal)) = VR (Proc.devRef (τ := Cert.ReferenceIdeal.τ) .tc Cert.ReferenceIdeal.main_v55)) (h_cst_12 : (VK (Proc.devRef (τ := Cert.KernelIdeal.τ) .tc Cert.KernelIdeal.main_cst_12) : (Cert.KernelIdeal.main_cst_12).ty.Contents (Elt Ideal)) = VR (Proc.devRef (τ := Cert.ReferenceIdeal.τ) .tc Cert.ReferenceIdeal.main_cst_12)) (h_arg5 : (VK (Proc.devRef (τ := Cert.KernelIdeal.τ) .tc Cert.KernelIdeal.main_arg5) : (Cert.KernelIdeal.main_arg5).ty.Contents (Elt Ideal)) = VR (Proc.devRef (τ := Cert.ReferenceIdeal.τ) .tc Cert.ReferenceIdeal.main_arg5)) :
    (after (Cert.KernelIdeal.Gen.hostOps0_5 (F := Ideal)) VK (Proc.devRef (τ := Cert.KernelIdeal.τ) .tc Cert.KernelIdeal.main_v6) : (Cert.KernelIdeal.main_v6).ty.Contents (Elt Ideal))
      = after (segR5 (F := Ideal)) VR (Proc.devRef (τ := Cert.ReferenceIdeal.τ) .tc Cert.ReferenceIdeal.main_v6) := by
  simp only [Cert.KernelIdeal.Gen.hostOps0_5, segR5]
  ars
  first
    | exact h_v6
    | ((try simp only [h_v3, h_v6, h_v48, h_v54, h_v55, h_cst_12, h_arg5]) <;> rfl)

theorem step5_v48 (h_v3 : (VK (Proc.devRef (τ := Cert.KernelIdeal.τ) .tc Cert.KernelIdeal.main_v3) : (Cert.KernelIdeal.main_v3).ty.Contents (Elt Ideal)) = VR (Proc.devRef (τ := Cert.ReferenceIdeal.τ) .tc Cert.ReferenceIdeal.main_v3)) (h_v6 : (VK (Proc.devRef (τ := Cert.KernelIdeal.τ) .tc Cert.KernelIdeal.main_v6) : (Cert.KernelIdeal.main_v6).ty.Contents (Elt Ideal)) = VR (Proc.devRef (τ := Cert.ReferenceIdeal.τ) .tc Cert.ReferenceIdeal.main_v6)) (h_v48 : (VK (Proc.devRef (τ := Cert.KernelIdeal.τ) .tc Cert.KernelIdeal.main_v48) : (Cert.KernelIdeal.main_v48).ty.Contents (Elt Ideal)) = VR (Proc.devRef (τ := Cert.ReferenceIdeal.τ) .tc Cert.ReferenceIdeal.main_v48)) (h_v54 : (VK (Proc.devRef (τ := Cert.KernelIdeal.τ) .tc Cert.KernelIdeal.main_v54) : (Cert.KernelIdeal.main_v54).ty.Contents (Elt Ideal)) = VR (Proc.devRef (τ := Cert.ReferenceIdeal.τ) .tc Cert.ReferenceIdeal.main_v54)) (h_v55 : (VK (Proc.devRef (τ := Cert.KernelIdeal.τ) .tc Cert.KernelIdeal.main_v55) : (Cert.KernelIdeal.main_v55).ty.Contents (Elt Ideal)) = VR (Proc.devRef (τ := Cert.ReferenceIdeal.τ) .tc Cert.ReferenceIdeal.main_v55)) (h_cst_12 : (VK (Proc.devRef (τ := Cert.KernelIdeal.τ) .tc Cert.KernelIdeal.main_cst_12) : (Cert.KernelIdeal.main_cst_12).ty.Contents (Elt Ideal)) = VR (Proc.devRef (τ := Cert.ReferenceIdeal.τ) .tc Cert.ReferenceIdeal.main_cst_12)) (h_arg5 : (VK (Proc.devRef (τ := Cert.KernelIdeal.τ) .tc Cert.KernelIdeal.main_arg5) : (Cert.KernelIdeal.main_arg5).ty.Contents (Elt Ideal)) = VR (Proc.devRef (τ := Cert.ReferenceIdeal.τ) .tc Cert.ReferenceIdeal.main_arg5)) :
    (after (Cert.KernelIdeal.Gen.hostOps0_5 (F := Ideal)) VK (Proc.devRef (τ := Cert.KernelIdeal.τ) .tc Cert.KernelIdeal.main_v48) : (Cert.KernelIdeal.main_v48).ty.Contents (Elt Ideal))
      = after (segR5 (F := Ideal)) VR (Proc.devRef (τ := Cert.ReferenceIdeal.τ) .tc Cert.ReferenceIdeal.main_v48) := by
  simp only [Cert.KernelIdeal.Gen.hostOps0_5, segR5]
  ars
  first
    | exact h_v48
    | ((try simp only [h_v3, h_v6, h_v48, h_v54, h_v55, h_cst_12, h_arg5]) <;> rfl)

theorem step5_v56 (h_v3 : (VK (Proc.devRef (τ := Cert.KernelIdeal.τ) .tc Cert.KernelIdeal.main_v3) : (Cert.KernelIdeal.main_v3).ty.Contents (Elt Ideal)) = VR (Proc.devRef (τ := Cert.ReferenceIdeal.τ) .tc Cert.ReferenceIdeal.main_v3)) (h_v6 : (VK (Proc.devRef (τ := Cert.KernelIdeal.τ) .tc Cert.KernelIdeal.main_v6) : (Cert.KernelIdeal.main_v6).ty.Contents (Elt Ideal)) = VR (Proc.devRef (τ := Cert.ReferenceIdeal.τ) .tc Cert.ReferenceIdeal.main_v6)) (h_v48 : (VK (Proc.devRef (τ := Cert.KernelIdeal.τ) .tc Cert.KernelIdeal.main_v48) : (Cert.KernelIdeal.main_v48).ty.Contents (Elt Ideal)) = VR (Proc.devRef (τ := Cert.ReferenceIdeal.τ) .tc Cert.ReferenceIdeal.main_v48)) (h_v54 : (VK (Proc.devRef (τ := Cert.KernelIdeal.τ) .tc Cert.KernelIdeal.main_v54) : (Cert.KernelIdeal.main_v54).ty.Contents (Elt Ideal)) = VR (Proc.devRef (τ := Cert.ReferenceIdeal.τ) .tc Cert.ReferenceIdeal.main_v54)) (h_v55 : (VK (Proc.devRef (τ := Cert.KernelIdeal.τ) .tc Cert.KernelIdeal.main_v55) : (Cert.KernelIdeal.main_v55).ty.Contents (Elt Ideal)) = VR (Proc.devRef (τ := Cert.ReferenceIdeal.τ) .tc Cert.ReferenceIdeal.main_v55)) (h_cst_12 : (VK (Proc.devRef (τ := Cert.KernelIdeal.τ) .tc Cert.KernelIdeal.main_cst_12) : (Cert.KernelIdeal.main_cst_12).ty.Contents (Elt Ideal)) = VR (Proc.devRef (τ := Cert.ReferenceIdeal.τ) .tc Cert.ReferenceIdeal.main_cst_12)) (h_arg5 : (VK (Proc.devRef (τ := Cert.KernelIdeal.τ) .tc Cert.KernelIdeal.main_arg5) : (Cert.KernelIdeal.main_arg5).ty.Contents (Elt Ideal)) = VR (Proc.devRef (τ := Cert.ReferenceIdeal.τ) .tc Cert.ReferenceIdeal.main_arg5)) :
    (after (Cert.KernelIdeal.Gen.hostOps0_5 (F := Ideal)) VK (Proc.devRef (τ := Cert.KernelIdeal.τ) .tc Cert.KernelIdeal.main_v56) : (Cert.KernelIdeal.main_v56).ty.Contents (Elt Ideal))
      = after (segR5 (F := Ideal)) VR (Proc.devRef (τ := Cert.ReferenceIdeal.τ) .tc Cert.ReferenceIdeal.main_v56) := by
  simp only [Cert.KernelIdeal.Gen.hostOps0_5, segR5]
  ars
  first
    | ((try simp only [h_v3, h_v6, h_v48, h_v54, h_v55, h_cst_12, h_arg5]) <;> rfl)

theorem step5_arg5 (h_v3 : (VK (Proc.devRef (τ := Cert.KernelIdeal.τ) .tc Cert.KernelIdeal.main_v3) : (Cert.KernelIdeal.main_v3).ty.Contents (Elt Ideal)) = VR (Proc.devRef (τ := Cert.ReferenceIdeal.τ) .tc Cert.ReferenceIdeal.main_v3)) (h_v6 : (VK (Proc.devRef (τ := Cert.KernelIdeal.τ) .tc Cert.KernelIdeal.main_v6) : (Cert.KernelIdeal.main_v6).ty.Contents (Elt Ideal)) = VR (Proc.devRef (τ := Cert.ReferenceIdeal.τ) .tc Cert.ReferenceIdeal.main_v6)) (h_v48 : (VK (Proc.devRef (τ := Cert.KernelIdeal.τ) .tc Cert.KernelIdeal.main_v48) : (Cert.KernelIdeal.main_v48).ty.Contents (Elt Ideal)) = VR (Proc.devRef (τ := Cert.ReferenceIdeal.τ) .tc Cert.ReferenceIdeal.main_v48)) (h_v54 : (VK (Proc.devRef (τ := Cert.KernelIdeal.τ) .tc Cert.KernelIdeal.main_v54) : (Cert.KernelIdeal.main_v54).ty.Contents (Elt Ideal)) = VR (Proc.devRef (τ := Cert.ReferenceIdeal.τ) .tc Cert.ReferenceIdeal.main_v54)) (h_v55 : (VK (Proc.devRef (τ := Cert.KernelIdeal.τ) .tc Cert.KernelIdeal.main_v55) : (Cert.KernelIdeal.main_v55).ty.Contents (Elt Ideal)) = VR (Proc.devRef (τ := Cert.ReferenceIdeal.τ) .tc Cert.ReferenceIdeal.main_v55)) (h_cst_12 : (VK (Proc.devRef (τ := Cert.KernelIdeal.τ) .tc Cert.KernelIdeal.main_cst_12) : (Cert.KernelIdeal.main_cst_12).ty.Contents (Elt Ideal)) = VR (Proc.devRef (τ := Cert.ReferenceIdeal.τ) .tc Cert.ReferenceIdeal.main_cst_12)) (h_arg5 : (VK (Proc.devRef (τ := Cert.KernelIdeal.τ) .tc Cert.KernelIdeal.main_arg5) : (Cert.KernelIdeal.main_arg5).ty.Contents (Elt Ideal)) = VR (Proc.devRef (τ := Cert.ReferenceIdeal.τ) .tc Cert.ReferenceIdeal.main_arg5)) :
    (after (Cert.KernelIdeal.Gen.hostOps0_5 (F := Ideal)) VK (Proc.devRef (τ := Cert.KernelIdeal.τ) .tc Cert.KernelIdeal.main_arg5) : (Cert.KernelIdeal.main_arg5).ty.Contents (Elt Ideal))
      = after (segR5 (F := Ideal)) VR (Proc.devRef (τ := Cert.ReferenceIdeal.τ) .tc Cert.ReferenceIdeal.main_arg5) := by
  simp only [Cert.KernelIdeal.Gen.hostOps0_5, segR5]
  ars
  first
    | exact h_arg5
    | ((try simp only [h_v3, h_v6, h_v48, h_v54, h_v55, h_cst_12, h_arg5]) <;> rfl)

/-- Segment 5 carries the agreement to the next cut. -/
theorem step5 (A : Agree5 VK VR) :
    Agree6 (after (Cert.KernelIdeal.Gen.hostOps0_5 (F := Ideal)) VK) (after (segR5 (F := Ideal)) VR) := by
  obtain ⟨h_v3, h_v6, h_v48, h_v54, h_v55, h_cst_12, h_arg5⟩ := A
  exact ⟨step5_v3 VK VR h_v3 h_v6 h_v48 h_v54 h_v55 h_cst_12 h_arg5,
    step5_v6 VK VR h_v3 h_v6 h_v48 h_v54 h_v55 h_cst_12 h_arg5,
    step5_v48 VK VR h_v3 h_v6 h_v48 h_v54 h_v55 h_cst_12 h_arg5,
    step5_v56 VK VR h_v3 h_v6 h_v48 h_v54 h_v55 h_cst_12 h_arg5,
    step5_arg5 VK VR h_v3 h_v6 h_v48 h_v54 h_v55 h_cst_12 h_arg5⟩

end Cross

end Cert.HeadLayers

end
-- ==== Proof.HeadEqLayers.lean ====
import proofs.«180243_j86045374808276_2_alg».proof.Proof.HeadStep0
import proofs.«180243_j86045374808276_2_alg».proof.Proof.HeadStep1
import proofs.«180243_j86045374808276_2_alg».proof.Proof.HeadStep2
import proofs.«180243_j86045374808276_2_alg».proof.Proof.HeadStep3
import proofs.«180243_j86045374808276_2_alg».proof.Proof.HeadStep4
import proofs.«180243_j86045374808276_2_alg».proof.Proof.HeadStep5

/-! The two programs form the same node features: the segments joined. -/

set_option maxRecDepth 16384

noncomputable section

namespace Cert.HeadLayers

open Idealize.ShloMosaic Idealize.ShloMosaic.TcCoe Idealize.SL.Sem Idealize.ShloMosaic.StableHlo

section Cross

set_option maxHeartbeats 8000000

variable (VK : Valuation Cert.KernelIdeal.τ Cert.KernelIdeal.sig (Elt Ideal)) (VR : Valuation Cert.ReferenceIdeal.τ Cert.ReferenceIdeal.sig (Elt Ideal))

/-- The last segment: the kernel's line ends with one more operation, the change of format of the features, which is
    the identity at the extended reals. -/
theorem step6 (A : Agree6 VK VR) :
    (after (Cert.KernelIdeal.Gen.hostOps0_6 (F := Ideal)) VK (Proc.devRef (τ := Cert.KernelIdeal.τ) .tc Cert.KernelIdeal.main_v88) : (⟨2, ![10000, 64]⟩ : Shape).Idx → EReal)
      = after (segR6 (F := Ideal)) VR (Proc.devRef (τ := Cert.ReferenceIdeal.τ) .tc Cert.ReferenceIdeal.main_v87) := by
  obtain ⟨h_v3, h_v6, h_v48, h_v56, h_arg5⟩ := A
  simp only [Cert.KernelIdeal.Gen.hostOps0_6, segR6]
  ars
  (try simp only [h_v3, h_v6, h_v48, h_v56, h_arg5]) <;> rfl

end Cross

/-! ## The two lines end at the same node features -/

/-- From memories that agree on the six arguments, the kernel's host line and the reference's first part leave the
    same node features. -/
theorem head_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev 1)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    (Cert.KernelIdeal.Hand.V m c Cert.KernelIdeal.main_v88 : (⟨2, ![10000, 64]⟩ : Shape).Idx → EReal) = Cert.RefSide.hRef m' c := by
  have A0 : Agree0 (fun b => m (c, b)) (launchContents m' c) := ⟨h0.symm, h1.symm, h2.symm, h3.symm, h4.symm, h5.symm⟩
  have A6 := step5 _ _ (step4 _ _ (step3 _ _ (step2 _ _ (step1 _ _ (step0 _ _ A0)))))
  have E := step6 _ _ A6
  unfold Cert.RefSide.hRef
  rw [headOps_split]
  simp only [Cert.KernelIdeal.Hand.stretches, List.flatten_cons, List.flatten_nil, List.append_nil, StableHlo.after_append]
  exact E

end Cert.HeadLayers

end
-- ==== Proof.lean ====
/-
  The certificate.  Both programs first form the node embeddings `h : [10000, 64]` from the six arguments by the same
  line of operations (two rounds of a linear map, a degree-normalised sum over neighbours and a bias, with a maximum
  with zero in between), and then return, at entry `(p, q)`, the logistic function of the inner product of rows `p`
  and `q` of `h`.  The kernel computes that `[10000, 10000]` result block by block, one block of rows against one
  block of rows per grid point; the reference computes it as one matrix product followed by the logistic function.
  The three frames are the three runs with the result forgotten; no rewrite was applied when the idealized kernel
  was printed, so that conjunct is trivial; and the value claim joins the two runs through the equality of the two
  embeddings from agreeing arguments.
-/
import proofs.«180243_j86045374808276_2_alg».proof.Defs
import proofs.«180243_j86045374808276_2_alg».proof.Proof.KClaim
import proofs.«180243_j86045374808276_2_alg».proof.Proof.IClaims
import proofs.«180243_j86045374808276_2_alg».proof.Proof.RefSide
import proofs.«180243_j86045374808276_2_alg».proof.Proof.HeadEqLayers
import Idealize.ShloMosaic.Adequacy
import Idealize.ShloMosaic.Init

noncomputable section

namespace Cert.Proof

open Idealize.ShloMosaic Idealize.SL.Sem

/-- The idealized kernel runs and leaves its arguments unchanged: its run with the result forgotten. -/
theorem frame_pi : Cert.frame_KernelIdeal := fun m g _ =>
  (θ_run Cert.KernelIdeal.defs _ _).mono (fun _ h c => (h c).2) (Cert.KernelIdeal.Hand.value_run m g)

/-- From agreeing arguments both programs end with the same result: the logistic function of the row inner products
    of the common node embeddings. -/
theorem algebraic : Cert.algebraic_KernelIdeal_ReferenceIdeal := fun m g m' g' _ hagree =>
  ⟨fun c => Cert.OuterSpec.G (Cert.KernelIdeal.Hand.hK m c), Cert.KernelIdeal.Hand.value_run m g,
    (θ_run Cert.ReferenceIdeal.defs _ _).mono
      (fun _ h c => ⟨(h c).1.trans (congrArg Cert.OuterSpec.G
          (Cert.HeadLayers.head_eq m m' c (hagree c).1 (hagree c).2.1 (hagree c).2.2.1 (hagree c).2.2.2.1
            (hagree c).2.2.2.2.1 (hagree c).2.2.2.2.2).symm), (h c).2⟩)
      (Cert.RefSide.ref_run m' g')⟩

theorem claim : Cert.Claim := ⟨Cert.Kernel.Gen.facts, Cert.KernelIdeal.Gen.facts, Cert.ReferenceIdeal.Gen.facts, Cert.Pre_finite_inputs.Gen.facts,
  Cert.Kernel.Hand.frame_p, frame_pi, Cert.RefSide.frame_ri, trivial, algebraic⟩

end Cert.Proof

end
